-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x2880 : Shape := ⟨2, ![256, 2880]⟩
abbrev S2880x2880 : Shape := ⟨2, ![2880, 2880]⟩
abbrev S1x2880 : Shape := ⟨2, ![1, 2880]⟩
abbrev S_ : Shape := ⟨0, ![]⟩

class Facts : Prop where
  bcast_S_S256x2880 : S_.BroadcastsInDim S256x2880 (![] : Fin 0 → Fin S256x2880.rank)
  reducesTo_S256x2880_S_d0_1 : S256x2880.ReducesTo [0, 1] S_
  h_S_ : 0 < S_.numel
  bcast_S_S2880x2880 : S_.BroadcastsInDim S2880x2880 (![] : Fin 0 → Fin S2880x2880.rank)
  reducesTo_S2880x2880_S_d0_1 : S2880x2880.ReducesTo [0, 1] S_
  bcast_S_S1x2880 : S_.BroadcastsInDim S1x2880 (![] : Fin 0 → Fin S1x2880.rank)
  reducesTo_S1x2880_S_d0_1 : S1x2880.ReducesTo [0, 1] S_

variable [Facts]

def fn_part1 {F : FTy → Type} [FloatOps F] (main_arg4 : FVec F S1x2880 .f32) (main_arg5 : FVec F S2880x2880 .f32) (main_arg6 : FVec F S1x2880 .f32) (main_v13 : IVec S_ 1) (main_v16 : IVec S2880x2880 1) : IVec S_ 1 :=
  let main_c_5 : IVec S_ 1 := constantI S_ 1 1#1
  let main_v17 : IVec S_ 1 := (fun x v => Host.reduce IntOp.andi x v reducesTo_S2880x2880_S_d0_1 h_S_) main_v16 main_c_5
  let main_v18 : IVec S_ 1 := andi main_v13 main_v17
  let main_v19 : FVec F S1x2880 .f32 := Host.absf main_arg4
  let main_cst_6 : FVec F S_ .f32 := constant S_ .f32 0x7F800000#32
  let main_v20 : FVec F S1x2880 .f32 := broadcastInDim S1x2880 ![] bcast_S_S1x2880 main_cst_6
  let main_v21 : IVec S1x2880 1 := cmpf .olt main_v19 main_v20
  let main_c_7 : IVec S_ 1 := constantI S_ 1 1#1
  let main_v22 : IVec S_ 1 := (fun x v => Host.reduce IntOp.andi x v reducesTo_S1x2880_S_d0_1 h_S_) main_v21 main_c_7
  let main_v23 : IVec S_ 1 := andi main_v18 main_v22
  let main_v24 : FVec F S2880x2880 .f32 := Host.absf main_arg5
  let main_cst_8 : FVec F S_ .f32 := constant S_ .f32 0x7F800000#32
  let main_v25 : FVec F S2880x2880 .f32 := broadcastInDim S2880x2880 ![] bcast_S_S2880x2880 main_cst_8
  let main_v26 : IVec S2880x2880 1 := cmpf .olt main_v24 main_v25
  let main_c_9 : IVec S_ 1 := constantI S_ 1 1#1
  let main_v27 : IVec S_ 1 := (fun x v => Host.reduce IntOp.andi x v reducesTo_S2880x2880_S_d0_1 h_S_) main_v26 main_c_9
  let main_v28 : IVec S_ 1 := andi main_v23 main_v27
  let main_v29 : FVec F S1x2880 .f32 := Host.absf main_arg6
  let main_cst_10 : FVec F S_ .f32 := constant S_ .f32 0x7F800000#32
  let main_v30 : FVec F S1x2880 .f32 := broadcastInDim S1x2880 ![] bcast_S_S1x2880 main_cst_10
  let main_v31 : IVec S1x2880 1 := cmpf .olt main_v29 main_v30
  let main_c_11 : IVec S_ 1 := constantI S_ 1 1#1
  let main_v32 : IVec S_ 1 := (fun x v => Host.reduce IntOp.andi x v reducesTo_S1x2880_S_d0_1 h_S_) main_v31 main_c_11
  let main_v33 : IVec S_ 1 := andi main_v28 main_v32
  main_v33

def fn {F : FTy → Type} [FloatOps F] (main_arg0 : FVec F S256x2880 .f32) (main_arg1 : FVec F S2880x2880 .f32) (main_arg2 : FVec F S1x2880 .f32) (main_arg3 : FVec F S2880x2880 .f32) (main_arg4 : FVec F S1x2880 .f32) (main_arg5 : FVec F S2880x2880 .f32) (main_arg6 : FVec F S1x2880 .f32) : IVec S_ 1 :=
  let main_v0 : FVec F S256x2880 .f32 := Host.absf main_arg0
  let main_cst : FVec F S_ .f32 := constant S_ .f32 0x7F800000#32
  let main_v1 : FVec F S256x2880 .f32 := broadcastInDim S256x2880 ![] bcast_S_S256x2880 main_cst
  let main_v2 : IVec S256x2880 1 := cmpf .olt main_v0 main_v1
  let main_c : IVec S_ 1 := constantI S_ 1 1#1
  let main_v3 : IVec S_ 1 := (fun x v => Host.reduce IntOp.andi x v reducesTo_S256x2880_S_d0_1 h_S_) main_v2 main_c
  let main_v4 : FVec F S2880x2880 .f32 := Host.absf main_arg1
  let main_cst_0 : FVec F S_ .f32 := constant S_ .f32 0x7F800000#32
  let main_v5 : FVec F S2880x2880 .f32 := broadcastInDim S2880x2880 ![] bcast_S_S2880x2880 main_cst_0
  let main_v6 : IVec S2880x2880 1 := cmpf .olt main_v4 main_v5
  let main_c_1 : IVec S_ 1 := constantI S_ 1 1#1
  let main_v7 : IVec S_ 1 := (fun x v => Host.reduce IntOp.andi x v reducesTo_S2880x2880_S_d0_1 h_S_) main_v6 main_c_1
  let main_v8 : IVec S_ 1 := andi main_v3 main_v7
  let main_v9 : FVec F S1x2880 .f32 := Host.absf main_arg2
  let main_cst_2 : FVec F S_ .f32 := constant S_ .f32 0x7F800000#32
  let main_v10 : FVec F S1x2880 .f32 := broadcastInDim S1x2880 ![] bcast_S_S1x2880 main_cst_2
  let main_v11 : IVec S1x2880 1 := cmpf .olt main_v9 main_v10
  let main_c_3 : IVec S_ 1 := constantI S_ 1 1#1
  let main_v12 : IVec S_ 1 := (fun x v => Host.reduce IntOp.andi x v reducesTo_S1x2880_S_d0_1 h_S_) main_v11 main_c_3
  let main_v13 : IVec S_ 1 := andi main_v8 main_v12
  let main_v14 : FVec F S2880x2880 .f32 := Host.absf main_arg3
  let main_cst_4 : FVec F S_ .f32 := constant S_ .f32 0x7F800000#32
  let main_v15 : FVec F S2880x2880 .f32 := broadcastInDim S2880x2880 ![] bcast_S_S2880x2880 main_cst_4
  let main_v16 : IVec S2880x2880 1 := cmpf .olt main_v14 main_v15
  fn_part1 (F := F) main_arg4 main_arg5 main_arg6 main_v13 main_v16
-- ==== Kernel.lean ====
abbrev S256x2880 : Shape := ⟨2, ![256, 2880]⟩
abbrev S2880x2880 : Shape := ⟨2, ![2880, 2880]⟩
abbrev S1x2880 : Shape := ⟨2, ![1, 2880]⟩
abbrev S480x2880 : Shape := ⟨2, ![480, 2880]⟩
abbrev S576x2880 : Shape := ⟨2, ![576, 2880]⟩
abbrev S256x480 : Shape := ⟨2, ![256, 480]⟩
abbrev S256x576 : Shape := ⟨2, ![256, 576]⟩

abbrev nBuf : Space → Nat
  | .hbm => 8
  | .vmem => 14
  | .smem => 0
  | _ => 0

abbrev bufTy : (tb : Table) → Fin (tcTables nBuf tb) → BufTy
  | .hbm, ⟨0, _⟩ => ⟨S256x2880, .f32⟩
  | .hbm, ⟨1, _⟩ => ⟨S2880x2880, .f32⟩
  | .hbm, ⟨2, _⟩ => ⟨S1x2880, .f32⟩
  | .hbm, ⟨3, _⟩ => ⟨S2880x2880, .f32⟩
  | .hbm, ⟨4, _⟩ => ⟨S1x2880, .f32⟩
  | .hbm, ⟨5, _⟩ => ⟨S2880x2880, .f32⟩
  | .hbm, ⟨6, _⟩ => ⟨S1x2880, .f32⟩
  | .hbm, ⟨7, _⟩ => ⟨S256x2880, .f32⟩
  | .local _ .vmem, ⟨0, _⟩ => ⟨S256x2880, .f32⟩
  | .local _ .vmem, ⟨1, _⟩ => ⟨S480x2880, .f32⟩
  | .local _ .vmem, ⟨2, _⟩ => ⟨S480x2880, .f32⟩
  | .local _ .vmem, ⟨3, _⟩ => ⟨S480x2880, .f32⟩
  | .local _ .vmem, ⟨4, _⟩ => ⟨S480x2880, .f32⟩
  | .local _ .vmem, ⟨5, _⟩ => ⟨S1x2880, .f32⟩
  | .local _ .vmem, ⟨6, _⟩ => ⟨S1x2880, .f32⟩
  | .local _ .vmem, ⟨7, _⟩ => ⟨S576x2880, .f32⟩
  | .local _ .vmem, ⟨8, _⟩ => ⟨S576x2880, .f32⟩
  | .local _ .vmem, ⟨9, _⟩ => ⟨S1x2880, .f32⟩
  | .local _ .vmem, ⟨10, _⟩ => ⟨S256x2880, .f32⟩
  | .local _ .vmem, ⟨11, _⟩ => ⟨S256x2880, .f32⟩
  | .local _ .vmem, ⟨12, _⟩ => ⟨S256x2880, .f32⟩
  | .local _ .vmem, ⟨13, _⟩ => ⟨S256x2880, .f32⟩
  | _, _ => ⟨S256x2880, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![11], ![false]⟩

def k0_cond7 (i : grid0.Coords) : BitVec 1 :=
  let arg0 : BitVec 32 := BitVec.ofNat 32 (i 0).val
  let c6_i32 : BitVec 32 := 6#32
  let v18 : BitVec 1 := Scalar.cmpi .eq arg0 c6_i32
  let v19 : BitVec 32 := Scalar.extui v18
  let c0_i32_6 : BitVec 32 := 0#32
  let v20 : BitVec 1 := Scalar.cmpi .ne v19 c0_i32_6
  v20

def k0_cond8 (i : grid0.Coords) : BitVec 1 :=
  let arg0 : BitVec 32 := BitVec.ofNat 32 (i 0).val
  let c7_i32 : BitVec 32 := 7#32
  let v21 : BitVec 1 := Scalar.cmpi .eq arg0 c7_i32
  let v22 : BitVec 32 := Scalar.extui v21
  let c0_i32_7 : BitVec 32 := 0#32
  let v23 : BitVec 1 := Scalar.cmpi .ne v22 c0_i32_7
  v23

def k0_cond9 (i : grid0.Coords) : BitVec 1 :=
  let arg0 : BitVec 32 := BitVec.ofNat 32 (i 0).val
  let c8_i32 : BitVec 32 := 8#32
  let v24 : BitVec 1 := Scalar.cmpi .eq arg0 c8_i32
  let v25 : BitVec 32 := Scalar.extui v24
  let c0_i32_8 : BitVec 32 := 0#32
  let v26 : BitVec 1 := Scalar.cmpi .ne v25 c0_i32_8
  v26

def k0_cond10 (i : grid0.Coords) : BitVec 1 :=
  let arg0 : BitVec 32 := BitVec.ofNat 32 (i 0).val
  let c9_i32 : BitVec 32 := 9#32
  let v27 : BitVec 1 := Scalar.cmpi .eq arg0 c9_i32
  let v28 : BitVec 32 := Scalar.extui v27
  let c0_i32_9 : BitVec 32 := 0#32
  let v29 : BitVec 1 := Scalar.cmpi .ne v28 c0_i32_9
  v29

def k0_cond11 (i : grid0.Coords) : BitVec 1 :=
  let arg0 : BitVec 32 := BitVec.ofNat 32 (i 0).val
  let c10_i32 : BitVec 32 := 10#32
  let v30 : BitVec 1 := Scalar.cmpi .eq arg0 c10_i32
  let v31 : BitVec 32 := Scalar.extui v30
  let c0_i32_10 : BitVec 32 := 0#32
  let v32 : BitVec 1 := Scalar.cmpi .ne v31 c0_i32_10
  v32

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c5_i32 : BitVec 32 := 5#32
  let v0 : BitVec 32 := Scalar.minsi arg0 c5_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c5_i32 : BitVec 32 := 5#32
  let v0 : BitVec 32 := Scalar.minsi arg0 c5_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c6_i32 : BitVec 32 := 6#32
  let v0 : BitVec 32 := Scalar.subi arg0 c6_i32
  let c0_i32 : BitVec 32 := 0#32
  let c4_i32 : BitVec 32 := 4#32
  let v1 : BitVec 32 := Scalar.maxsi c0_i32 v0
  let v2 : BitVec 32 := Scalar.minsi c4_i32 v1
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2880 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S480x2880 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S480x2880 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2880 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2880 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S576x2880 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2880 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x2880 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

class Facts₀ : Prop where
  inb_S256x2880_S256x480_0_0 : ∀ a, (![0, 0] : Fin 2 → Nat) a + S256x480.size a ≤ S256x2880.size a
  h_S256x480 : 0 < S256x480.numel
  inb_S480x2880_S480x2880_0_0 : ∀ a, (![0, 0] : Fin 2 → Nat) a + S480x2880.size a ≤ S480x2880.size a
  h_S480x2880 : 0 < S480x2880.numel
  inb_S256x2880_S256x2880_0_0 : ∀ a, (![0, 0] : Fin 2 → Nat) a + S256x2880.size a ≤ S256x2880.size a
  h_S256x2880 : 0 < S256x2880.numel
  shapeCasts_S256x2880_S256x2880 : S256x2880.ShapeCasts S256x2880
  inb_S256x2880_S256x480_0_480 : ∀ a, (![0, 480] : Fin 2 → Nat) a + S256x480.size a ≤ S256x2880.size a
  inb_S256x2880_S256x480_0_960 : ∀ a, (![0, 960] : Fin 2 → Nat) a + S256x480.size a ≤ S256x2880.size a
  inb_S256x2880_S256x480_0_1440 : ∀ a, (![0, 1440] : Fin 2 → Nat) a + S256x480.size a ≤ S256x2880.size a
  inb_S256x2880_S256x480_0_1920 : ∀ a, (![0, 1920] : Fin 2 → Nat) a + S256x480.size a ≤ S256x2880.size a
  inb_S256x2880_S256x480_0_2400 : ∀ a, (![0, 2400] : Fin 2 → Nat) a + S256x480.size a ≤ S256x2880.size a
  inb_S1x2880_S1x2880_0_0 : ∀ a, (![0, 0] : Fin 2 → Nat) a + S1x2880.size a ≤ S1x2880.size a
  h_S1x2880 : 0 < S1x2880.numel
  broadcasts_S1x2880_S256x2880 : S1x2880.Broadcasts S256x2880
  inb_S256x2880_S256x576_0_0 : ∀ a, (![0, 0] : Fin 2 → Nat) a + S256x576.size a ≤ S256x2880.size a
  h_S256x576 : 0 < S256x576.numel
  inb_S576x2880_S576x2880_0_0 : ∀ a, (![0, 0] : Fin 2 → Nat) a + S576x2880.size a ≤ S576x2880.size a
  h_S576x2880 : 0 < S576x2880.numel
  inb_S256x2880_S256x576_0_576 : ∀ a, (![0, 576] : Fin 2 → Nat) a + S256x576.size a ≤ S256x2880.size a
  inb_S256x2880_S256x576_0_1152 : ∀ a, (![0, 1152] : Fin 2 → Nat) a + S256x576.size a ≤ S256x2880.size a
  inb_S256x2880_S256x576_0_1728 : ∀ a, (![0, 1728] : Fin 2 → Nat) a + S256x576.size a ≤ S256x2880.size a
  inb_S256x2880_S256x576_0_2304 : ∀ a, (![0, 2304] : Fin 2 → Nat) a + S256x576.size a ≤ S256x2880.size a
  dot_S256x480_S480x2880_S256x2880_1_0_0_1_n_n_wf : DotDims.WF S256x480 S480x2880 S256x2880 [1] [0] [0] [1] [] []
  dot_S256x576_S576x2880_S256x2880_1_0_0_1_n_n_wf : DotDims.WF S256x576 S576x2880 S256x2880 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x2880.size a ≤ S256x2880.size a
  hwx0_0 : ∀ i : grid0.Coords, EltTy.bits .f32 = 32 ∨ (Rect.block (s := S256x2880) S256x2880.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S480x2880.size a ≤ S2880x2880.size a
  hwx0_1 : ∀ i : grid0.Coords, EltTy.bits .f32 = 32 ∨ (Rect.block (s := S2880x2880) S480x2880.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S480x2880.size a ≤ S2880x2880.size a
  hwx0_2 : ∀ i : grid0.Coords, EltTy.bits .f32 = 32 ∨ (Rect.block (s := S2880x2880) S480x2880.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2880.size a ≤ S1x2880.size a
  hwx0_3 : ∀ i : grid0.Coords, EltTy.bits .f32 = 32 ∨ (Rect.block (s := S1x2880) S1x2880.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2880.size a ≤ S1x2880.size a
  hwx0_4 : ∀ i : grid0.Coords, EltTy.bits .f32 = 32 ∨ (Rect.block (s := S1x2880) S1x2880.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S576x2880.size a ≤ S2880x2880.size a
  hwx0_5 : ∀ i : grid0.Coords, EltTy.bits .f32 = 32 ∨ (Rect.block (s := S2880x2880) S576x2880.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2880.size a ≤ S1x2880.size a
  hwx0_6 : ∀ i : grid0.Coords, EltTy.bits .f32 = 32 ∨ (Rect.block (s := S1x2880) S1x2880.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x2880.size a ≤ S256x2880.size a
  hwx0_7 : ∀ i : grid0.Coords, EltTy.bits .f32 = 32 ∨ (Rect.block (s := S256x2880) S256x2880.size (cc0_transform_7 i) (hinb0_7 i)).WholeWords (EltTy.packing .f32)

variable [Facts₀]

def dot_S256x480_S480x2880_S256x2880_1_0_0_1_n_n : DotDims S256x480 S480x2880 S256x2880 where
  lhsContracting := [1]
  rhsContracting := [0]
  lhsNonContracting := [0]
  rhsNonContracting := [1]
  lhsBatch := []
  rhsBatch := []
  wf := dot_S256x480_S480x2880_S256x2880_1_0_0_1_n_n_wf
def dot_S256x576_S576x2880_S256x2880_1_0_0_1_n_n : DotDims S256x576 S576x2880 S256x2880 where
  lhsContracting := [1]
  rhsContracting := [0]
  lhsNonContracting := [0]
  rhsNonContracting := [1]
  lhsBatch := []
  rhsBatch := []
  wf := dot_S256x576_S576x2880_S256x2880_1_0_0_1_n_n_wf

abbrev win0_0 : Pipeline.Window sig grid0 :=
  Pipeline.Window.ofSpec (Memref.whole main_arg0) S256x2880.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S480x2880.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S480x2880.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x2880.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x2880.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S576x2880.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x2880.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S256x2880.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond7 i == 1#1) && !(k0_cond8 i == 1#1) && !(k0_cond9 i == 1#1) && !(k0_cond10 i == 1#1) && !(k0_cond11 i == 1#1) | ⟨_ + 8, h⟩ => absurd h (Nat.not_lt.2 (Nat.le_add_left _ _))

class Facts : Prop extends Facts₀ where

variable [Facts]
-- ==== ReferenceIdeal.lean ====
abbrev S256x2880 : Shape := ⟨2, ![256, 2880]⟩
abbrev S2880x2880 : Shape := ⟨2, ![2880, 2880]⟩
abbrev S1x2880 : Shape := ⟨2, ![1, 2880]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S256x2880, .f32⟩
  | .hbm, ⟨1, _⟩ => ⟨S2880x2880, .f32⟩
  | .hbm, ⟨2, _⟩ => ⟨S1x2880, .f32⟩
  | .hbm, ⟨3, _⟩ => ⟨S2880x2880, .f32⟩
  | .hbm, ⟨4, _⟩ => ⟨S1x2880, .f32⟩
  | .hbm, ⟨5, _⟩ => ⟨S2880x2880, .f32⟩
  | .hbm, ⟨6, _⟩ => ⟨S1x2880, .f32⟩
  | .hbm, ⟨7, _⟩ => ⟨S256x2880, .f32⟩
  | .hbm, ⟨8, _⟩ => ⟨S256x2880, .f32⟩
  | .hbm, ⟨9, _⟩ => ⟨S256x2880, .f32⟩
  | .hbm, ⟨10, _⟩ => ⟨S256x2880, .f32⟩
  | .hbm, ⟨11, _⟩ => ⟨S256x2880, .f32⟩
  | .hbm, ⟨12, _⟩ => ⟨S256x2880, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S256x2880, .f32⟩
  | .hbm, ⟨17, _⟩ => ⟨S256x2880, .f32⟩
  | .hbm, ⟨18, _⟩ => ⟨S_, .f32⟩
  | .hbm, ⟨19, _⟩ => ⟨S256x2880, .f32⟩
  | .hbm, ⟨20, _⟩ => ⟨S256x2880, .f32⟩
  | .hbm, ⟨21, _⟩ => ⟨S_, .f32⟩
  | .hbm, ⟨22, _⟩ => ⟨S256x2880, .f32⟩
  | .hbm, ⟨23, _⟩ => ⟨S256x2880, .f32⟩
  | .hbm, ⟨24, _⟩ => ⟨S_, .f32⟩
  | .hbm, ⟨25, _⟩ => ⟨S256x2880, .f32⟩
  | .hbm, ⟨26, _⟩ => ⟨S256x2880, .f32⟩
  | .hbm, ⟨27, _⟩ => ⟨S256x2880, .f32⟩
  | .hbm, ⟨28, _⟩ => ⟨S_, .f32⟩
  | .hbm, ⟨29, _⟩ => ⟨S256x2880, .f32⟩
  | .hbm, ⟨30, _⟩ => ⟨S256x2880, .f32⟩
  | .hbm, ⟨31, _⟩ => ⟨S_, .f32⟩
  | .hbm, ⟨32, _⟩ => ⟨S256x2880, .f32⟩
  | .hbm, ⟨33, _⟩ => ⟨S256x2880, .f32⟩
  | .hbm, ⟨34, _⟩ => ⟨S256x2880, .f32⟩
  | .hbm, ⟨35, _⟩ => ⟨S_, .f32⟩
  | .hbm, ⟨36, _⟩ => ⟨S256x2880, .f32⟩
  | .hbm, ⟨37, _⟩ => ⟨S256x2880, .f32⟩
  | .hbm, ⟨38, _⟩ => ⟨S256x2880, .f32⟩
  | .hbm, ⟨39, _⟩ => ⟨S256x2880, .f32⟩
  | .hbm, ⟨40, _⟩ => ⟨S256x2880, .f32⟩
  | .hbm, ⟨41, _⟩ => ⟨S256x2880, .f32⟩
  | _, _ => ⟨S256x2880, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_3 : Ref sig .tc := ⟨.hbm, 28, rfl⟩
abbrev main_v12 : Ref sig .tc := ⟨.hbm, 29, rfl⟩
abbrev main_v13 : Ref sig .tc := ⟨.hbm, 30, rfl⟩
abbrev main_cst_4 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_5 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩

abbrev nD : Nat := 1
abbrev τ : Topo := Topo.v7x

variable {F : FTy → Type} [FloatOps F]

class Facts₀ : Prop where
  bcast_S1x2880_S256x2880_0_1 : S1x2880.BroadcastsInDim S256x2880 (![0, 1] : Fin 2 → Fin S256x2880.rank)
  bcast_S_S256x2880 : S_.BroadcastsInDim S256x2880 (![] : Fin 0 → Fin S256x2880.rank)
  dot_S256x2880_S2880x2880_S256x2880_1_0_0_1_n_n_wf : DotDims.WF S256x2880 S2880x2880 S256x2880 [1] [0] [0] [1] [] []

variable [Facts₀]

def dot_S256x2880_S2880x2880_S256x2880_1_0_0_1_n_n : DotDims S256x2880 S2880x2880 S256x2880 where
  lhsContracting := [1]
  rhsContracting := [0]
  lhsNonContracting := [0]
  rhsNonContracting := [1]
  lhsBatch := []
  rhsBatch := []
  wf := dot_S256x2880_S2880x2880_S256x2880_1_0_0_1_n_n_wf

class Facts : Prop extends Facts₀ where

variable [Facts]
-- ==== Proof.BodyK.Shared.lean ====
/-
  The kernel body's setting, shared by the eleven steps of the grid.

  The grid has eleven points. At point k < 6 the body multiplies columns [480k, 480k+480) of the resident
  activation block by the k-th row slab of the gate and of the up weights and adds the products into two
  accumulators kept in scratch (point 0 stores instead of adding); point 5 also adds the biases, clips, and
  stores the gated activation h into a third scratch. At point 6 + j the body multiplies columns
  [576j, 576j+576) of h by the j-th row slab of the down weights and adds the product into the output block
  (point 6 stores the product plus the bias). Exactly one branch is taken at each point: the conditions are
  decided over the grid here, once.
-/
import proofs.«128237_g74105365725337_cont_9to1c4b_446_16_alg».proof.Proof.Gen.Kernel.Frame
import proofs.«128237_g74105365725337_cont_9to1c4b_446_16_alg».proof.Proof.Gen.Kernel.Skeleton
import proofs.«128237_g74105365725337_cont_9to1c4b_446_16_alg».proof.Proof.Gen.Kernel.Points
import proofs.«128237_g74105365725337_cont_9to1c4b_446_16_alg».proof.Proof.Gen.Kernel.Launch
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, decided over the grid -/

/-- The condition of the branch for step 0: the grid coordinate equals 0. -/
abbrev cond0 (i : grid0.Coords) : Prop := (Scalar.cmpi .ne (Scalar.extui (Scalar.cmpi .eq (BitVec.ofNat 32 (i 0).val) 0#32)) 0#32) = 1#1
theorem hcond0 : ∀ t : Fin cfg0.N, cond0 (grid0.coords t) ↔ t.val % 11 = 0 :=
  (by decide +kernel : ∀ t : Fin grid0.N, cond0 (grid0.coords t) ↔ t.val % 11 = 0)

/-- The condition of the branch for step 1: the grid coordinate equals 1. -/
abbrev cond1 (i : grid0.Coords) : Prop := (Scalar.cmpi .ne (Scalar.extui (Scalar.cmpi .eq (BitVec.ofNat 32 (i 0).val) 1#32)) 0#32) = 1#1
theorem hcond1 : ∀ t : Fin cfg0.N, cond1 (grid0.coords t) ↔ t.val % 11 = 1 :=
  (by decide +kernel : ∀ t : Fin grid0.N, cond1 (grid0.coords t) ↔ t.val % 11 = 1)

/-- The condition of the branch for step 2: the grid coordinate equals 2. -/
abbrev cond2 (i : grid0.Coords) : Prop := (Scalar.cmpi .ne (Scalar.extui (Scalar.cmpi .eq (BitVec.ofNat 32 (i 0).val) 2#32)) 0#32) = 1#1
theorem hcond2 : ∀ t : Fin cfg0.N, cond2 (grid0.coords t) ↔ t.val % 11 = 2 :=
  (by decide +kernel : ∀ t : Fin grid0.N, cond2 (grid0.coords t) ↔ t.val % 11 = 2)

/-- The condition of the branch for step 3: the grid coordinate equals 3. -/
abbrev cond3 (i : grid0.Coords) : Prop := (Scalar.cmpi .ne (Scalar.extui (Scalar.cmpi .eq (BitVec.ofNat 32 (i 0).val) 3#32)) 0#32) = 1#1
theorem hcond3 : ∀ t : Fin cfg0.N, cond3 (grid0.coords t) ↔ t.val % 11 = 3 :=
  (by decide +kernel : ∀ t : Fin grid0.N, cond3 (grid0.coords t) ↔ t.val % 11 = 3)

/-- The condition of the branch for step 4: the grid coordinate equals 4. -/
abbrev cond4 (i : grid0.Coords) : Prop := (Scalar.cmpi .ne (Scalar.extui (Scalar.cmpi .eq (BitVec.ofNat 32 (i 0).val) 4#32)) 0#32) = 1#1
theorem hcond4 : ∀ t : Fin cfg0.N, cond4 (grid0.coords t) ↔ t.val % 11 = 4 :=
  (by decide +kernel : ∀ t : Fin grid0.N, cond4 (grid0.coords t) ↔ t.val % 11 = 4)

/-- The condition of the branch for step 5: the grid coordinate equals 5. -/
abbrev cond5 (i : grid0.Coords) : Prop := (Scalar.cmpi .ne (Scalar.extui (Scalar.cmpi .eq (BitVec.ofNat 32 (i 0).val) 5#32)) 0#32) = 1#1
theorem hcond5 : ∀ t : Fin cfg0.N, cond5 (grid0.coords t) ↔ t.val % 11 = 5 :=
  (by decide +kernel : ∀ t : Fin grid0.N, cond5 (grid0.coords t) ↔ t.val % 11 = 5)

/-- The condition of the branch for step 6: the grid coordinate equals 6. -/
abbrev cond6 (i : grid0.Coords) : Prop := k0_cond7 i = 1#1
theorem hcond6 : ∀ t : Fin cfg0.N, cond6 (grid0.coords t) ↔ t.val % 11 = 6 :=
  (by decide +kernel : ∀ t : Fin grid0.N, cond6 (grid0.coords t) ↔ t.val % 11 = 6)

/-- The condition of the branch for step 7: the grid coordinate equals 7. -/
abbrev cond7 (i : grid0.Coords) : Prop := k0_cond8 i = 1#1
theorem hcond7 : ∀ t : Fin cfg0.N, cond7 (grid0.coords t) ↔ t.val % 11 = 7 :=
  (by decide +kernel : ∀ t : Fin grid0.N, cond7 (grid0.coords t) ↔ t.val % 11 = 7)

/-- The condition of the branch for step 8: the grid coordinate equals 8. -/
abbrev cond8 (i : grid0.Coords) : Prop := k0_cond9 i = 1#1
theorem hcond8 : ∀ t : Fin cfg0.N, cond8 (grid0.coords t) ↔ t.val % 11 = 8 :=
  (by decide +kernel : ∀ t : Fin grid0.N, cond8 (grid0.coords t) ↔ t.val % 11 = 8)

/-- The condition of the branch for step 9: the grid coordinate equals 9. -/
abbrev cond9 (i : grid0.Coords) : Prop := k0_cond10 i = 1#1
theorem hcond9 : ∀ t : Fin cfg0.N, cond9 (grid0.coords t) ↔ t.val % 11 = 9 :=
  (by decide +kernel : ∀ t : Fin grid0.N, cond9 (grid0.coords t) ↔ t.val % 11 = 9)

/-- The condition of the branch for step 10: the grid coordinate equals 10. -/
abbrev cond10 (i : grid0.Coords) : Prop := k0_cond11 i = 1#1
theorem hcond10 : ∀ t : Fin cfg0.N, cond10 (grid0.coords t) ↔ t.val % 11 = 10 :=
  (by decide +kernel : ∀ t : Fin grid0.N, cond10 (grid0.coords t) ↔ t.val % 11 = 10)

/-! ## Where the output window is idle -/

/-- The input windows are never idle. -/
theorem live_in : ∀ (w : Fin 8), w.val < 7 → ∀ t : Fin cfg0.N, cfg0.idle w (grid0.coords t) = false := by decide +kernel
/-- The output window is idle exactly at the six points of the first phase, -/
theorem idle_out : ∀ t : Fin cfg0.N, cfg0.idle 7 (grid0.coords t) = decide (t.val < 6) := by decide +kernel
/-- and it is written back at the last point only. -/
theorem flush_out : ∀ t : Fin cfg0.N, (cfg0.win 7).flush t = decide (t.val = 10) := by decide +kernel

/-! ## The memrefs the body is called with -/

abbrev ms0 (t : Fin cfg0.N) : Memref sig .tc .vmem S256x2880 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S480x2880 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S480x2880 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2880 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x2880 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S576x2880 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x2880 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S256x2880 .f32 := win0_7.stage (cfg0.slots t 7)
abbrev hs7 (t : Fin cfg0.N) : (ms7 t).IsWhole := hstage0_7 ((cfg0.slots t 7).cast nbuf0_7)
/-- The three scratch operands: the gate accumulator, the up accumulator, the gated activation. -/
abbrev scG : Memref sig .tc .vmem S256x2880 .f32 := Memref.whole cc0_scratch0
abbrev scU : Memref sig .tc .vmem S256x2880 .f32 := Memref.whole cc0_scratch1
abbrev scH : Memref sig .tc .vmem S256x2880 .f32 := Memref.whole cc0_scratch2
/-- One canonical view of the common shape [256, 2880], through which what the stores leave is read back. -/
abbrev VW : View sig .tc .vmem S256x2880 .f32 := scG.view

/-- The class invariant with the three scratch operands as memrefs owned at some contents. -/
theorem PhiA_eq (c : Dev nD) :
    (Pipeline.ΦA spec0 c : sProp 𝕄)
      = iprop(iprop((∃ d, owns (c : Thread nD τ) scG fullShare d) ∗ (∃ d, owns (c : Thread nD τ) scU fullShare d) ∗ (∃ d, owns (c : Thread nD τ) scH fullShare d)) ∗ (∃ r, prngReg c r)) := by
  unfold Pipeline.ΦA; rw [scopedRest0_eq]; simp only [scG, scU, scH, owns_whole]; try rfl

end Cert.Kernel.Body

end
-- ==== Proof.BodyK.RunA.lean ====
/-
  The body at grid point 0, run whole: only the branch for step 0 is taken, and it stores the first partial products into the two accumulators.
  A buffer the branch stores into comes back with the stored pieces written (the lists are found by the run);
  a buffer whose contents matter later and that the branch only reads comes back at the contents it was handed;
  the others are handed over and taken back at some contents.
-/
import proofs.«128237_g74105365725337_cont_9to1c4b_446_16_alg».proof.Proof.BodyK.Shared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runA (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : cond0 i) (hc1 : ¬cond1 i) (hc2 : ¬cond2 i) (hc3 : ¬cond3 i) (hc4 : ¬cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) :
    Σ' (L9 : List (View.Piece (Elt F) S256x2880 .f32)), { L10 : List (View.Piece (Elt F) S256x2880 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ d, owns (c : Thread nD τ) arg11 fullShare d)) -∗ K ⟨⟩))
          ⊢ wp frame (wpE (defs₀ (F := F)) Variants.none c none) E (cc0__mlp_body i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__mlp_body_eq_skeleton]; unfold cc0__mlp_body_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0 | exact hc1 | exact hc2 | exact hc3 | exact hc4 | exact hc5 | exact hc6 | exact hc7 | exact hc8 | exact hc9 | exact hc10)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [H8]; · iexists _; iexact H8
    isplitl [H9]; · iexists _; iexact H9
    iexists _, _; isplitr; swap; · iexact H10
    ipureintro; rfl

end Cert.Kernel.Body

end
-- ==== Proof.BodyK.RunB.lean ====
/-
  The body at grid point 1, run whole: only the branch for step 1 is taken, and it adds the partial products of slab 1 into the two accumulators.
  A buffer the branch stores into comes back with the stored pieces written (the lists are found by the run);
  a buffer whose contents matter later and that the branch only reads comes back at the contents it was handed;
  the others are handed over and taken back at some contents.
-/
import proofs.«128237_g74105365725337_cont_9to1c4b_446_16_alg».proof.Proof.BodyK.RunA

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runB (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : cond1 i) (hc2 : ¬cond2 i) (hc3 : ¬cond3 i) (hc4 : ¬cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) :
    Σ' (L9 : List (View.Piece (Elt F) S256x2880 .f32)), { L10 : List (View.Piece (Elt F) S256x2880 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare g ∗ owns (c : Thread nD τ) arg10 fullShare u ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ d, owns (c : Thread nD τ) arg11 fullShare d)) -∗ K ⟨⟩))
          ⊢ wp frame (wpE (defs₀ (F := F)) Variants.none c none) E (cc0__mlp_body i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__mlp_body_eq_skeleton]; unfold cc0__mlp_body_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%d10, %f10, -, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9
    sl_exec (disch := first | exact hc0 | exact hc1 | exact hc2 | exact hc3 | exact hc4 | exact hc5 | exact hc6 | exact hc7 | exact hc8 | exact hc9 | exact hc10)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [H8]; · iexists _; iexact H8
    isplitl [H9]; · iexists _; iexact H9
    iexists _, _; isplitr; swap; · iexact H10
    ipureintro; rfl

end Cert.Kernel.Body

end
-- ==== Proof.BodyK.RunC.lean ====
/-
  The body at grid point 2, run whole: only the branch for step 2 is taken, and it adds the partial products of slab 2 into the two accumulators.
  A buffer the branch stores into comes back with the stored pieces written (the lists are found by the run);
  a buffer whose contents matter later and that the branch only reads comes back at the contents it was handed;
  the others are handed over and taken back at some contents.
-/
import proofs.«128237_g74105365725337_cont_9to1c4b_446_16_alg».proof.Proof.BodyK.RunB

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runC (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : cond2 i) (hc3 : ¬cond3 i) (hc4 : ¬cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) :
    Σ' (L9 : List (View.Piece (Elt F) S256x2880 .f32)), { L10 : List (View.Piece (Elt F) S256x2880 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare g ∗ owns (c : Thread nD τ) arg10 fullShare u ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ d, owns (c : Thread nD τ) arg11 fullShare d)) -∗ K ⟨⟩))
          ⊢ wp frame (wpE (defs₀ (F := F)) Variants.none c none) E (cc0__mlp_body i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__mlp_body_eq_skeleton]; unfold cc0__mlp_body_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%d10, %f10, -, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9
    sl_exec (disch := first | exact hc0 | exact hc1 | exact hc2 | exact hc3 | exact hc4 | exact hc5 | exact hc6 | exact hc7 | exact hc8 | exact hc9 | exact hc10)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [H8]; · iexists _; iexact H8
    isplitl [H9]; · iexists _; iexact H9
    iexists _, _; isplitr; swap; · iexact H10
    ipureintro; rfl

end Cert.Kernel.Body

end
-- ==== Proof.BodyK.RunD.lean ====
/-
  The body at grid point 3, run whole: only the branch for step 3 is taken, and it adds the partial products of slab 3 into the two accumulators.
  A buffer the branch stores into comes back with the stored pieces written (the lists are found by the run);
  a buffer whose contents matter later and that the branch only reads comes back at the contents it was handed;
  the others are handed over and taken back at some contents.
-/
import proofs.«128237_g74105365725337_cont_9to1c4b_446_16_alg».proof.Proof.BodyK.RunC

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runD (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : cond3 i) (hc4 : ¬cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) :
    Σ' (L9 : List (View.Piece (Elt F) S256x2880 .f32)), { L10 : List (View.Piece (Elt F) S256x2880 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare g ∗ owns (c : Thread nD τ) arg10 fullShare u ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ d, owns (c : Thread nD τ) arg11 fullShare d)) -∗ K ⟨⟩))
          ⊢ wp frame (wpE (defs₀ (F := F)) Variants.none c none) E (cc0__mlp_body i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__mlp_body_eq_skeleton]; unfold cc0__mlp_body_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%d10, %f10, -, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9
    sl_exec (disch := first | exact hc0 | exact hc1 | exact hc2 | exact hc3 | exact hc4 | exact hc5 | exact hc6 | exact hc7 | exact hc8 | exact hc9 | exact hc10)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [H8]; · iexists _; iexact H8
    isplitl [H9]; · iexists _; iexact H9
    iexists _, _; isplitr; swap; · iexact H10
    ipureintro; rfl

end Cert.Kernel.Body

end
-- ==== Proof.BodyK.RunE.lean ====
/-
  The body at grid point 4, run whole: only the branch for step 4 is taken, and it adds the partial products of slab 4 into the two accumulators.
  A buffer the branch stores into comes back with the stored pieces written (the lists are found by the run);
  a buffer whose contents matter later and that the branch only reads comes back at the contents it was handed;
  the others are handed over and taken back at some contents.
-/
import proofs.«128237_g74105365725337_cont_9to1c4b_446_16_alg».proof.Proof.BodyK.RunD

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runE (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) :
    Σ' (L9 : List (View.Piece (Elt F) S256x2880 .f32)), { L10 : List (View.Piece (Elt F) S256x2880 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare g ∗ owns (c : Thread nD τ) arg10 fullShare u ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ d, owns (c : Thread nD τ) arg11 fullShare d)) -∗ K ⟨⟩))
          ⊢ wp frame (wpE (defs₀ (F := F)) Variants.none c none) E (cc0__mlp_body i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__mlp_body_eq_skeleton]; unfold cc0__mlp_body_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%d10, %f10, -, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9
    sl_exec (disch := first | exact hc0 | exact hc1 | exact hc2 | exact hc3 | exact hc4 | exact hc5 | exact hc6 | exact hc7 | exact hc8 | exact hc9 | exact hc10)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [H8]; · iexists _; iexact H8
    isplitl [H9]; · iexists _; iexact H9
    iexists _, _; isplitr; swap; · iexact H10
    ipureintro; rfl

end Cert.Kernel.Body

end
-- ==== Proof.BodyK.RunF.lean ====
/-
  The body at grid point 5, run whole: only the branch for step 5 is taken, and it adds the last partial products into the two accumulators, then stores the gated activation.
  A buffer the branch stores into comes back with the stored pieces written (the lists are found by the run);
  a buffer whose contents matter later and that the branch only reads comes back at the contents it was handed;
  the others are handed over and taken back at some contents.
-/
import proofs.«128237_g74105365725337_cont_9to1c4b_446_16_alg».proof.Proof.BodyK.RunE

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runF (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : ¬cond4 i) (hc5 : cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) :
    Σ' (L9 : List (View.Piece (Elt F) S256x2880 .f32)) (L10 : List (View.Piece (Elt F) S256x2880 .f32)), { L11 : List (View.Piece (Elt F) S256x2880 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare g ∗ owns (c : Thread nD τ) arg10 fullShare u ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11)) -∗ K ⟨⟩))
          ⊢ wp frame (wpE (defs₀ (F := F)) Variants.none c none) E (cc0__mlp_body i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__mlp_body_eq_skeleton]; unfold cc0__mlp_body_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%d10, %f10, -, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9
    sl_exec (disch := first | exact hc0 | exact hc1 | exact hc2 | exact hc3 | exact hc4 | exact hc5 | exact hc6 | exact hc7 | exact hc8 | exact hc9 | exact hc10)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [H8]; · iexists _; iexact H8
    isplitl [H9]; · iexists _; iexact H9
    iexists _; iexact H10

end Cert.Kernel.Body

end
-- ==== Proof.BodyK.RunG.lean ====
/-
  The body at grid point 6, run whole: only the branch for step 6 is taken, and it stores the first partial product of the down projection, plus its bias, into the output block.
  A buffer the branch stores into comes back with the stored pieces written (the lists are found by the run);
  a buffer whose contents matter later and that the branch only reads comes back at the contents it was handed;
  the others are handed over and taken back at some contents.
-/
import proofs.«128237_g74105365725337_cont_9to1c4b_446_16_alg».proof.Proof.BodyK.RunF

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runG (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : ¬cond4 i) (hc5 : ¬cond5 i) (hc6 : cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (h : Vec F S256x2880 .f32) :
    { L8 : List (View.Piece (Elt F) S256x2880 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare h
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L8) ∗ (∃ d, owns (c : Thread nD τ) arg9 fullShare d) ∗ (∃ d, owns (c : Thread nD τ) arg10 fullShare d) ∗ owns (c : Thread nD τ) arg11 fullShare h) -∗ K ⟨⟩))
          ⊢ wp frame (wpE (defs₀ (F := F)) Variants.none c none) E (cc0__mlp_body i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__mlp_body_eq_skeleton]; unfold cc0__mlp_body_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg11.eq_unread hf10
    sl_exec (disch := first | exact hc0 | exact hc1 | exact hc2 | exact hc3 | exact hc4 | exact hc5 | exact hc6 | exact hc7 | exact hc8 | exact hc9 | exact hc10)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]
    · iexists _, _; isplitr; swap; · iexact H8
      ipureintro; rfl
    isplitl [H9]
    · iexists _, _; isplitr; swap; · iexact H9
      ipureintro; rfl
    iexists _; isplitr; · ipureintro; exact harg11.read_unread _
    iexact H10

end Cert.Kernel.Body

end
-- ==== Proof.BodyK.RunH.lean ====
/-
  The body at grid point 7, run whole: only the branch for step 7 is taken, and it adds the partial product of slab 1 of the down projection into the output block.
  A buffer the branch stores into comes back with the stored pieces written (the lists are found by the run);
  a buffer whose contents matter later and that the branch only reads comes back at the contents it was handed;
  the others are handed over and taken back at some contents.
-/
import proofs.«128237_g74105365725337_cont_9to1c4b_446_16_alg».proof.Proof.BodyK.RunG

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runH (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : ¬cond4 i) (hc5 : ¬cond5 i) (hc6 : ¬cond6 i) (hc7 : cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (y : Vec F S256x2880 .f32) (h : Vec F S256x2880 .f32) :
    { L8 : List (View.Piece (Elt F) S256x2880 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y ∗ (∃ d, owns (c : Thread nD τ) arg9 fullShare d) ∗ (∃ d, owns (c : Thread nD τ) arg10 fullShare d) ∗ owns (c : Thread nD τ) arg11 fullShare h
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L8) ∗ (∃ d, owns (c : Thread nD τ) arg9 fullShare d) ∗ (∃ d, owns (c : Thread nD τ) arg10 fullShare d) ∗ owns (c : Thread nD τ) arg11 fullShare h) -∗ K ⟨⟩))
          ⊢ wp frame (wpE (defs₀ (F := F)) Variants.none c none) E (cc0__mlp_body i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__mlp_body_eq_skeleton]; unfold cc0__mlp_body_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hf10
    sl_exec (disch := first | exact hc0 | exact hc1 | exact hc2 | exact hc3 | exact hc4 | exact hc5 | exact hc6 | exact hc7 | exact hc8 | exact hc9 | exact hc10)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]
    · iexists _, _; isplitr; swap; · iexact H8
      ipureintro; rfl
    isplitl [H9]
    · iexists _, _; isplitr; swap; · iexact H9
      ipureintro; rfl
    iexists _; isplitr; · ipureintro; exact harg11.read_unread _
    iexact H10

end Cert.Kernel.Body

end
-- ==== Proof.BodyK.RunI.lean ====
/-
  The body at grid point 8, run whole: only the branch for step 8 is taken, and it adds the partial product of slab 2 of the down projection into the output block.
  A buffer the branch stores into comes back with the stored pieces written (the lists are found by the run);
  a buffer whose contents matter later and that the branch only reads comes back at the contents it was handed;
  the others are handed over and taken back at some contents.
-/
import proofs.«128237_g74105365725337_cont_9to1c4b_446_16_alg».proof.Proof.BodyK.RunH

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runI (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : ¬cond4 i) (hc5 : ¬cond5 i) (hc6 : ¬cond6 i) (hc7 : ¬cond7 i) (hc8 : cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (y : Vec F S256x2880 .f32) (h : Vec F S256x2880 .f32) :
    { L8 : List (View.Piece (Elt F) S256x2880 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y ∗ (∃ d, owns (c : Thread nD τ) arg9 fullShare d) ∗ (∃ d, owns (c : Thread nD τ) arg10 fullShare d) ∗ owns (c : Thread nD τ) arg11 fullShare h
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L8) ∗ (∃ d, owns (c : Thread nD τ) arg9 fullShare d) ∗ (∃ d, owns (c : Thread nD τ) arg10 fullShare d) ∗ owns (c : Thread nD τ) arg11 fullShare h) -∗ K ⟨⟩))
          ⊢ wp frame (wpE (defs₀ (F := F)) Variants.none c none) E (cc0__mlp_body i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__mlp_body_eq_skeleton]; unfold cc0__mlp_body_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hf10
    sl_exec (disch := first | exact hc0 | exact hc1 | exact hc2 | exact hc3 | exact hc4 | exact hc5 | exact hc6 | exact hc7 | exact hc8 | exact hc9 | exact hc10)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]
    · iexists _, _; isplitr; swap; · iexact H8
      ipureintro; rfl
    isplitl [H9]
    · iexists _, _; isplitr; swap; · iexact H9
      ipureintro; rfl
    iexists _; isplitr; · ipureintro; exact harg11.read_unread _
    iexact H10

end Cert.Kernel.Body

end
-- ==== Proof.BodyK.RunJ.lean ====
/-
  The body at grid point 9, run whole: only the branch for step 9 is taken, and it adds the partial product of slab 3 of the down projection into the output block.
  A buffer the branch stores into comes back with the stored pieces written (the lists are found by the run);
  a buffer whose contents matter later and that the branch only reads comes back at the contents it was handed;
  the others are handed over and taken back at some contents.
-/
import proofs.«128237_g74105365725337_cont_9to1c4b_446_16_alg».proof.Proof.BodyK.RunI

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runJ (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : ¬cond4 i) (hc5 : ¬cond5 i) (hc6 : ¬cond6 i) (hc7 : ¬cond7 i) (hc8 : ¬cond8 i) (hc9 : cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (y : Vec F S256x2880 .f32) (h : Vec F S256x2880 .f32) :
    { L8 : List (View.Piece (Elt F) S256x2880 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y ∗ (∃ d, owns (c : Thread nD τ) arg9 fullShare d) ∗ (∃ d, owns (c : Thread nD τ) arg10 fullShare d) ∗ owns (c : Thread nD τ) arg11 fullShare h
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L8) ∗ (∃ d, owns (c : Thread nD τ) arg9 fullShare d) ∗ (∃ d, owns (c : Thread nD τ) arg10 fullShare d) ∗ owns (c : Thread nD τ) arg11 fullShare h) -∗ K ⟨⟩))
          ⊢ wp frame (wpE (defs₀ (F := F)) Variants.none c none) E (cc0__mlp_body i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__mlp_body_eq_skeleton]; unfold cc0__mlp_body_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hf10
    sl_exec (disch := first | exact hc0 | exact hc1 | exact hc2 | exact hc3 | exact hc4 | exact hc5 | exact hc6 | exact hc7 | exact hc8 | exact hc9 | exact hc10)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]
    · iexists _, _; isplitr; swap; · iexact H8
      ipureintro; rfl
    isplitl [H9]
    · iexists _, _; isplitr; swap; · iexact H9
      ipureintro; rfl
    iexists _; isplitr; · ipureintro; exact harg11.read_unread _
    iexact H10

end Cert.Kernel.Body

end
-- ==== Proof.BodyK.RunK.lean ====
/-
  The body at grid point 10, run whole: only the branch for step 10 is taken, and it adds the partial product of slab 4 of the down projection into the output block.
  A buffer the branch stores into comes back with the stored pieces written (the lists are found by the run);
  a buffer whose contents matter later and that the branch only reads comes back at the contents it was handed;
  the others are handed over and taken back at some contents.
-/
import proofs.«128237_g74105365725337_cont_9to1c4b_446_16_alg».proof.Proof.BodyK.RunJ

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runK (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : ¬cond4 i) (hc5 : ¬cond5 i) (hc6 : ¬cond6 i) (hc7 : ¬cond7 i) (hc8 : ¬cond8 i) (hc9 : ¬cond9 i) (hc10 : cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (y : Vec F S256x2880 .f32) (h : Vec F S256x2880 .f32) :
    { L8 : List (View.Piece (Elt F) S256x2880 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y ∗ (∃ d, owns (c : Thread nD τ) arg9 fullShare d) ∗ (∃ d, owns (c : Thread nD τ) arg10 fullShare d) ∗ owns (c : Thread nD τ) arg11 fullShare h
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L8) ∗ (∃ d, owns (c : Thread nD τ) arg9 fullShare d) ∗ (∃ d, owns (c : Thread nD τ) arg10 fullShare d) ∗ owns (c : Thread nD τ) arg11 fullShare h) -∗ K ⟨⟩))
          ⊢ wp frame (wpE (defs₀ (F := F)) Variants.none c none) E (cc0__mlp_body i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__mlp_body_eq_skeleton]; unfold cc0__mlp_body_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hf10
    sl_exec (disch := first | exact hc0 | exact hc1 | exact hc2 | exact hc3 | exact hc4 | exact hc5 | exact hc6 | exact hc7 | exact hc8 | exact hc9 | exact hc10)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]
    · iexists _, _; isplitr; swap; · iexact H8
      ipureintro; rfl
    isplitl [H9]
    · iexists _, _; isplitr; swap; · iexact H9
      ipureintro; rfl
    iexists _; isplitr; · ipureintro; exact harg11.read_unread _
    iexact H10

end Cert.Kernel.Body

end
-- ==== Proof.BodyK.Data.lean ====
/-
  What the eleven steps leave, and the pipeline's run.

  Each step's stores are read back through one canonical view (the stored pieces cover the buffer). The states
  are named point by point: the gate and up accumulators after points 0 to 5, the gated activation after
  point 5, the output block after points 6 to 10. The output window is idle during the first phase (its buffer
  passes through untouched), is stored whole at point 6, and from point 7 on is read back — it was not written
  back in between — and stored whole again. The scratch buffers ride in the region invariant: before point
  n ≤ 5 the two accumulators hold what point n - 1 left; from point 6 on the third scratch holds the gated
  activation. The run concludes with every argument array unchanged and the result array at what the write-back
  at the last point wrote.
-/
import proofs.«128237_g74105365725337_cont_9to1c4b_446_16_alg».proof.Proof.BodyK.RunK
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each step leaves in the buffers it stores into -/

/-- Step 0's pieces for argument 9 cover the buffer. -/
theorem covA9 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : cond0 i) (hc1 : ¬cond1 i) (hc2 : ¬cond2 i) (hc3 : ¬cond3 i) (hc4 : ¬cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (yy : S256x2880.Idx) :
    ∃ pc ∈ (runA c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6).1, yy ∈ pc.1.set :=
  View.cover_of_tiledL (runA c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6).1 S256x2880.size (by sl_kernel_rfl) yy
/-- What step 0 leaves in argument 9: its pieces read back. -/
def outA9 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : cond0 i) (hc1 : ¬cond1 i) (hc2 : ¬cond2 i) (hc3 : ¬cond3 i) (hc4 : ¬cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) : Vec F S256x2880 .f32 :=
  VW.read (Elt F) (VW.writes (Elt F) VW.junk (runA c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6).1)

/-- Step 0's pieces for argument 10 cover the buffer. -/
theorem covA10 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : cond0 i) (hc1 : ¬cond1 i) (hc2 : ¬cond2 i) (hc3 : ¬cond3 i) (hc4 : ¬cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (yy : S256x2880.Idx) :
    ∃ pc ∈ (runA c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6).2.1, yy ∈ pc.1.set :=
  View.cover_of_tiledL (runA c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6).2.1 S256x2880.size (by sl_kernel_rfl) yy
/-- What step 0 leaves in argument 10: its pieces read back. -/
def outA10 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : cond0 i) (hc1 : ¬cond1 i) (hc2 : ¬cond2 i) (hc3 : ¬cond3 i) (hc4 : ¬cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) : Vec F S256x2880 .f32 :=
  VW.read (Elt F) (VW.writes (Elt F) VW.junk (runA c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6).2.1)

/-- Step 1's pieces for argument 9 cover the buffer. -/
theorem covB9 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : cond1 i) (hc2 : ¬cond2 i) (hc3 : ¬cond3 i) (hc4 : ¬cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) (yy : S256x2880.Idx) :
    ∃ pc ∈ (runB c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).1, yy ∈ pc.1.set :=
  View.cover_of_tiledL (runB c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).1 S256x2880.size (by sl_kernel_rfl) yy
/-- What step 1 leaves in argument 9: its pieces read back. -/
def outB9 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : cond1 i) (hc2 : ¬cond2 i) (hc3 : ¬cond3 i) (hc4 : ¬cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) : Vec F S256x2880 .f32 :=
  VW.read (Elt F) (VW.writes (Elt F) VW.junk (runB c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).1)

/-- Step 1's pieces for argument 10 cover the buffer. -/
theorem covB10 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : cond1 i) (hc2 : ¬cond2 i) (hc3 : ¬cond3 i) (hc4 : ¬cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) (yy : S256x2880.Idx) :
    ∃ pc ∈ (runB c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).2.1, yy ∈ pc.1.set :=
  View.cover_of_tiledL (runB c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).2.1 S256x2880.size (by sl_kernel_rfl) yy
/-- What step 1 leaves in argument 10: its pieces read back. -/
def outB10 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : cond1 i) (hc2 : ¬cond2 i) (hc3 : ¬cond3 i) (hc4 : ¬cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) : Vec F S256x2880 .f32 :=
  VW.read (Elt F) (VW.writes (Elt F) VW.junk (runB c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).2.1)

/-- Step 2's pieces for argument 9 cover the buffer. -/
theorem covC9 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : cond2 i) (hc3 : ¬cond3 i) (hc4 : ¬cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) (yy : S256x2880.Idx) :
    ∃ pc ∈ (runC c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).1, yy ∈ pc.1.set :=
  View.cover_of_tiledL (runC c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).1 S256x2880.size (by sl_kernel_rfl) yy
/-- What step 2 leaves in argument 9: its pieces read back. -/
def outC9 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : cond2 i) (hc3 : ¬cond3 i) (hc4 : ¬cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) : Vec F S256x2880 .f32 :=
  VW.read (Elt F) (VW.writes (Elt F) VW.junk (runC c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).1)

/-- Step 2's pieces for argument 10 cover the buffer. -/
theorem covC10 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : cond2 i) (hc3 : ¬cond3 i) (hc4 : ¬cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) (yy : S256x2880.Idx) :
    ∃ pc ∈ (runC c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).2.1, yy ∈ pc.1.set :=
  View.cover_of_tiledL (runC c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).2.1 S256x2880.size (by sl_kernel_rfl) yy
/-- What step 2 leaves in argument 10: its pieces read back. -/
def outC10 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : cond2 i) (hc3 : ¬cond3 i) (hc4 : ¬cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) : Vec F S256x2880 .f32 :=
  VW.read (Elt F) (VW.writes (Elt F) VW.junk (runC c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).2.1)

/-- Step 3's pieces for argument 9 cover the buffer. -/
theorem covD9 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : cond3 i) (hc4 : ¬cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) (yy : S256x2880.Idx) :
    ∃ pc ∈ (runD c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).1, yy ∈ pc.1.set :=
  View.cover_of_tiledL (runD c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).1 S256x2880.size (by sl_kernel_rfl) yy
/-- What step 3 leaves in argument 9: its pieces read back. -/
def outD9 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : cond3 i) (hc4 : ¬cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) : Vec F S256x2880 .f32 :=
  VW.read (Elt F) (VW.writes (Elt F) VW.junk (runD c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).1)

/-- Step 3's pieces for argument 10 cover the buffer. -/
theorem covD10 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : cond3 i) (hc4 : ¬cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) (yy : S256x2880.Idx) :
    ∃ pc ∈ (runD c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).2.1, yy ∈ pc.1.set :=
  View.cover_of_tiledL (runD c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).2.1 S256x2880.size (by sl_kernel_rfl) yy
/-- What step 3 leaves in argument 10: its pieces read back. -/
def outD10 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : cond3 i) (hc4 : ¬cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) : Vec F S256x2880 .f32 :=
  VW.read (Elt F) (VW.writes (Elt F) VW.junk (runD c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).2.1)

/-- Step 4's pieces for argument 9 cover the buffer. -/
theorem covE9 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) (yy : S256x2880.Idx) :
    ∃ pc ∈ (runE c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).1, yy ∈ pc.1.set :=
  View.cover_of_tiledL (runE c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).1 S256x2880.size (by sl_kernel_rfl) yy
/-- What step 4 leaves in argument 9: its pieces read back. -/
def outE9 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) : Vec F S256x2880 .f32 :=
  VW.read (Elt F) (VW.writes (Elt F) VW.junk (runE c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).1)

/-- Step 4's pieces for argument 10 cover the buffer. -/
theorem covE10 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) (yy : S256x2880.Idx) :
    ∃ pc ∈ (runE c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).2.1, yy ∈ pc.1.set :=
  View.cover_of_tiledL (runE c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).2.1 S256x2880.size (by sl_kernel_rfl) yy
/-- What step 4 leaves in argument 10: its pieces read back. -/
def outE10 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) : Vec F S256x2880 .f32 :=
  VW.read (Elt F) (VW.writes (Elt F) VW.junk (runE c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).2.1)

/-- Step 5's pieces for argument 9 cover the buffer. -/
theorem covF9 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : ¬cond4 i) (hc5 : cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) (yy : S256x2880.Idx) :
    ∃ pc ∈ (runF c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).1, yy ∈ pc.1.set :=
  View.cover_of_tiledL (runF c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).1 S256x2880.size (by sl_kernel_rfl) yy
/-- What step 5 leaves in argument 9: its pieces read back. -/
def outF9 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : ¬cond4 i) (hc5 : cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) : Vec F S256x2880 .f32 :=
  VW.read (Elt F) (VW.writes (Elt F) VW.junk (runF c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).1)

/-- Step 5's pieces for argument 10 cover the buffer. -/
theorem covF10 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : ¬cond4 i) (hc5 : cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) (yy : S256x2880.Idx) :
    ∃ pc ∈ (runF c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).2.1, yy ∈ pc.1.set :=
  View.cover_of_tiledL (runF c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).2.1 S256x2880.size (by sl_kernel_rfl) yy
/-- What step 5 leaves in argument 10: its pieces read back. -/
def outF10 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : ¬cond4 i) (hc5 : cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) : Vec F S256x2880 .f32 :=
  VW.read (Elt F) (VW.writes (Elt F) VW.junk (runF c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).2.1)

/-- Step 5's pieces for argument 11 cover the buffer. -/
theorem covF11 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : ¬cond4 i) (hc5 : cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) (yy : S256x2880.Idx) :
    ∃ pc ∈ (runF c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).2.2.1, yy ∈ pc.1.set :=
  View.cover_of_tiledL (runF c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).2.2.1 S256x2880.size (by sl_kernel_rfl) yy
/-- What step 5 leaves in argument 11: its pieces read back. -/
def outF11 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : ¬cond4 i) (hc5 : cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) : Vec F S256x2880 .f32 :=
  VW.read (Elt F) (VW.writes (Elt F) VW.junk (runF c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).2.2.1)

/-- Step 6's pieces for argument 8 cover the buffer. -/
theorem covG8 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : ¬cond4 i) (hc5 : ¬cond5 i) (hc6 : cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (h : Vec F S256x2880 .f32) (yy : S256x2880.Idx) :
    ∃ pc ∈ (runG c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 h).1, yy ∈ pc.1.set :=
  View.cover_of_tiledL (runG c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 h).1 S256x2880.size (by sl_kernel_rfl) yy
/-- What step 6 leaves in argument 8: its pieces read back. -/
def outG8 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : ¬cond4 i) (hc5 : ¬cond5 i) (hc6 : cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (h : Vec F S256x2880 .f32) : Vec F S256x2880 .f32 :=
  VW.read (Elt F) (VW.writes (Elt F) VW.junk (runG c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 h).1)

/-- Step 7's pieces for argument 8 cover the buffer. -/
theorem covH8 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : ¬cond4 i) (hc5 : ¬cond5 i) (hc6 : ¬cond6 i) (hc7 : cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (y : Vec F S256x2880 .f32) (h : Vec F S256x2880 .f32) (yy : S256x2880.Idx) :
    ∃ pc ∈ (runH c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 y h).1, yy ∈ pc.1.set :=
  View.cover_of_tiledL (runH c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 y h).1 S256x2880.size (by sl_kernel_rfl) yy
/-- What step 7 leaves in argument 8: its pieces read back. -/
def outH8 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : ¬cond4 i) (hc5 : ¬cond5 i) (hc6 : ¬cond6 i) (hc7 : cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (y : Vec F S256x2880 .f32) (h : Vec F S256x2880 .f32) : Vec F S256x2880 .f32 :=
  VW.read (Elt F) (VW.writes (Elt F) VW.junk (runH c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 y h).1)

/-- Step 8's pieces for argument 8 cover the buffer. -/
theorem covI8 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : ¬cond4 i) (hc5 : ¬cond5 i) (hc6 : ¬cond6 i) (hc7 : ¬cond7 i) (hc8 : cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (y : Vec F S256x2880 .f32) (h : Vec F S256x2880 .f32) (yy : S256x2880.Idx) :
    ∃ pc ∈ (runI c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 y h).1, yy ∈ pc.1.set :=
  View.cover_of_tiledL (runI c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 y h).1 S256x2880.size (by sl_kernel_rfl) yy
/-- What step 8 leaves in argument 8: its pieces read back. -/
def outI8 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : ¬cond4 i) (hc5 : ¬cond5 i) (hc6 : ¬cond6 i) (hc7 : ¬cond7 i) (hc8 : cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (y : Vec F S256x2880 .f32) (h : Vec F S256x2880 .f32) : Vec F S256x2880 .f32 :=
  VW.read (Elt F) (VW.writes (Elt F) VW.junk (runI c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 y h).1)

/-- Step 9's pieces for argument 8 cover the buffer. -/
theorem covJ8 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : ¬cond4 i) (hc5 : ¬cond5 i) (hc6 : ¬cond6 i) (hc7 : ¬cond7 i) (hc8 : ¬cond8 i) (hc9 : cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (y : Vec F S256x2880 .f32) (h : Vec F S256x2880 .f32) (yy : S256x2880.Idx) :
    ∃ pc ∈ (runJ c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 y h).1, yy ∈ pc.1.set :=
  View.cover_of_tiledL (runJ c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 y h).1 S256x2880.size (by sl_kernel_rfl) yy
/-- What step 9 leaves in argument 8: its pieces read back. -/
def outJ8 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : ¬cond4 i) (hc5 : ¬cond5 i) (hc6 : ¬cond6 i) (hc7 : ¬cond7 i) (hc8 : ¬cond8 i) (hc9 : cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (y : Vec F S256x2880 .f32) (h : Vec F S256x2880 .f32) : Vec F S256x2880 .f32 :=
  VW.read (Elt F) (VW.writes (Elt F) VW.junk (runJ c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 y h).1)

/-- Step 10's pieces for argument 8 cover the buffer. -/
theorem covK8 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : ¬cond4 i) (hc5 : ¬cond5 i) (hc6 : ¬cond6 i) (hc7 : ¬cond7 i) (hc8 : ¬cond8 i) (hc9 : ¬cond9 i) (hc10 : cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (y : Vec F S256x2880 .f32) (h : Vec F S256x2880 .f32) (yy : S256x2880.Idx) :
    ∃ pc ∈ (runK c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 y h).1, yy ∈ pc.1.set :=
  View.cover_of_tiledL (runK c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 y h).1 S256x2880.size (by sl_kernel_rfl) yy
/-- What step 10 leaves in argument 8: its pieces read back. -/
def outK8 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : ¬cond4 i) (hc5 : ¬cond5 i) (hc6 : ¬cond6 i) (hc7 : ¬cond7 i) (hc8 : ¬cond8 i) (hc9 : ¬cond9 i) (hc10 : cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (y : Vec F S256x2880 .f32) (h : Vec F S256x2880 .f32) : Vec F S256x2880 .f32 :=
  VW.read (Elt F) (VW.writes (Elt F) VW.junk (runK c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 y h).1)

/-! ## The states, point by point -/

/-- The gate and up accumulators after point 0. -/
def G0 (c : Dev nD) : Vec F S256x2880 .f32 := outA9 c (grid0.coords t0_0) (ms0 t0_0) (hs0 t0_0) (ms1 t0_0) (hs1 t0_0) (ms2 t0_0) (hs2 t0_0) (ms3 t0_0) (hs3 t0_0) (ms4 t0_0) (hs4 t0_0) (ms5 t0_0) (hs5 t0_0) (ms6 t0_0) (hs6 t0_0) (ms7 t0_0) (hs7 t0_0) scG (Memref.isWhole_whole _) scU (Memref.isWhole_whole _) scH (Memref.isWhole_whole _) ((hcond0 t0_0).mpr (by decide)) (fun hh => absurd ((hcond1 t0_0).mp hh) (by decide)) (fun hh => absurd ((hcond2 t0_0).mp hh) (by decide)) (fun hh => absurd ((hcond3 t0_0).mp hh) (by decide)) (fun hh => absurd ((hcond4 t0_0).mp hh) (by decide)) (fun hh => absurd ((hcond5 t0_0).mp hh) (by decide)) (fun hh => absurd ((hcond6 t0_0).mp hh) (by decide)) (fun hh => absurd ((hcond7 t0_0).mp hh) (by decide)) (fun hh => absurd ((hcond8 t0_0).mp hh) (by decide)) (fun hh => absurd ((hcond9 t0_0).mp hh) (by decide)) (fun hh => absurd ((hcond10 t0_0).mp hh) (by decide)) (iblk m c 0 t0_0) (iblk m c 1 t0_0) (iblk m c 2 t0_0) (iblk m c 3 t0_0) (iblk m c 4 t0_0) (iblk m c 5 t0_0) (iblk m c 6 t0_0)
def U0 (c : Dev nD) : Vec F S256x2880 .f32 := outA10 c (grid0.coords t0_0) (ms0 t0_0) (hs0 t0_0) (ms1 t0_0) (hs1 t0_0) (ms2 t0_0) (hs2 t0_0) (ms3 t0_0) (hs3 t0_0) (ms4 t0_0) (hs4 t0_0) (ms5 t0_0) (hs5 t0_0) (ms6 t0_0) (hs6 t0_0) (ms7 t0_0) (hs7 t0_0) scG (Memref.isWhole_whole _) scU (Memref.isWhole_whole _) scH (Memref.isWhole_whole _) ((hcond0 t0_0).mpr (by decide)) (fun hh => absurd ((hcond1 t0_0).mp hh) (by decide)) (fun hh => absurd ((hcond2 t0_0).mp hh) (by decide)) (fun hh => absurd ((hcond3 t0_0).mp hh) (by decide)) (fun hh => absurd ((hcond4 t0_0).mp hh) (by decide)) (fun hh => absurd ((hcond5 t0_0).mp hh) (by decide)) (fun hh => absurd ((hcond6 t0_0).mp hh) (by decide)) (fun hh => absurd ((hcond7 t0_0).mp hh) (by decide)) (fun hh => absurd ((hcond8 t0_0).mp hh) (by decide)) (fun hh => absurd ((hcond9 t0_0).mp hh) (by decide)) (fun hh => absurd ((hcond10 t0_0).mp hh) (by decide)) (iblk m c 0 t0_0) (iblk m c 1 t0_0) (iblk m c 2 t0_0) (iblk m c 3 t0_0) (iblk m c 4 t0_0) (iblk m c 5 t0_0) (iblk m c 6 t0_0)
/-- The accumulators after point 1: what the point before left, plus this slab's products. -/
def G1 (c : Dev nD) : Vec F S256x2880 .f32 := outB9 c (grid0.coords t0_1) (ms0 t0_1) (hs0 t0_1) (ms1 t0_1) (hs1 t0_1) (ms2 t0_1) (hs2 t0_1) (ms3 t0_1) (hs3 t0_1) (ms4 t0_1) (hs4 t0_1) (ms5 t0_1) (hs5 t0_1) (ms6 t0_1) (hs6 t0_1) (ms7 t0_1) (hs7 t0_1) scG (Memref.isWhole_whole _) scU (Memref.isWhole_whole _) scH (Memref.isWhole_whole _) (fun hh => absurd ((hcond0 t0_1).mp hh) (by decide)) ((hcond1 t0_1).mpr (by decide)) (fun hh => absurd ((hcond2 t0_1).mp hh) (by decide)) (fun hh => absurd ((hcond3 t0_1).mp hh) (by decide)) (fun hh => absurd ((hcond4 t0_1).mp hh) (by decide)) (fun hh => absurd ((hcond5 t0_1).mp hh) (by decide)) (fun hh => absurd ((hcond6 t0_1).mp hh) (by decide)) (fun hh => absurd ((hcond7 t0_1).mp hh) (by decide)) (fun hh => absurd ((hcond8 t0_1).mp hh) (by decide)) (fun hh => absurd ((hcond9 t0_1).mp hh) (by decide)) (fun hh => absurd ((hcond10 t0_1).mp hh) (by decide)) (iblk m c 0 t0_1) (iblk m c 1 t0_1) (iblk m c 2 t0_1) (iblk m c 3 t0_1) (iblk m c 4 t0_1) (iblk m c 5 t0_1) (iblk m c 6 t0_1) (G0 m c) (U0 m c)
def U1 (c : Dev nD) : Vec F S256x2880 .f32 := outB10 c (grid0.coords t0_1) (ms0 t0_1) (hs0 t0_1) (ms1 t0_1) (hs1 t0_1) (ms2 t0_1) (hs2 t0_1) (ms3 t0_1) (hs3 t0_1) (ms4 t0_1) (hs4 t0_1) (ms5 t0_1) (hs5 t0_1) (ms6 t0_1) (hs6 t0_1) (ms7 t0_1) (hs7 t0_1) scG (Memref.isWhole_whole _) scU (Memref.isWhole_whole _) scH (Memref.isWhole_whole _) (fun hh => absurd ((hcond0 t0_1).mp hh) (by decide)) ((hcond1 t0_1).mpr (by decide)) (fun hh => absurd ((hcond2 t0_1).mp hh) (by decide)) (fun hh => absurd ((hcond3 t0_1).mp hh) (by decide)) (fun hh => absurd ((hcond4 t0_1).mp hh) (by decide)) (fun hh => absurd ((hcond5 t0_1).mp hh) (by decide)) (fun hh => absurd ((hcond6 t0_1).mp hh) (by decide)) (fun hh => absurd ((hcond7 t0_1).mp hh) (by decide)) (fun hh => absurd ((hcond8 t0_1).mp hh) (by decide)) (fun hh => absurd ((hcond9 t0_1).mp hh) (by decide)) (fun hh => absurd ((hcond10 t0_1).mp hh) (by decide)) (iblk m c 0 t0_1) (iblk m c 1 t0_1) (iblk m c 2 t0_1) (iblk m c 3 t0_1) (iblk m c 4 t0_1) (iblk m c 5 t0_1) (iblk m c 6 t0_1) (G0 m c) (U0 m c)
/-- The accumulators after point 2: what the point before left, plus this slab's products. -/
def G2 (c : Dev nD) : Vec F S256x2880 .f32 := outC9 c (grid0.coords t0_2) (ms0 t0_2) (hs0 t0_2) (ms1 t0_2) (hs1 t0_2) (ms2 t0_2) (hs2 t0_2) (ms3 t0_2) (hs3 t0_2) (ms4 t0_2) (hs4 t0_2) (ms5 t0_2) (hs5 t0_2) (ms6 t0_2) (hs6 t0_2) (ms7 t0_2) (hs7 t0_2) scG (Memref.isWhole_whole _) scU (Memref.isWhole_whole _) scH (Memref.isWhole_whole _) (fun hh => absurd ((hcond0 t0_2).mp hh) (by decide)) (fun hh => absurd ((hcond1 t0_2).mp hh) (by decide)) ((hcond2 t0_2).mpr (by decide)) (fun hh => absurd ((hcond3 t0_2).mp hh) (by decide)) (fun hh => absurd ((hcond4 t0_2).mp hh) (by decide)) (fun hh => absurd ((hcond5 t0_2).mp hh) (by decide)) (fun hh => absurd ((hcond6 t0_2).mp hh) (by decide)) (fun hh => absurd ((hcond7 t0_2).mp hh) (by decide)) (fun hh => absurd ((hcond8 t0_2).mp hh) (by decide)) (fun hh => absurd ((hcond9 t0_2).mp hh) (by decide)) (fun hh => absurd ((hcond10 t0_2).mp hh) (by decide)) (iblk m c 0 t0_2) (iblk m c 1 t0_2) (iblk m c 2 t0_2) (iblk m c 3 t0_2) (iblk m c 4 t0_2) (iblk m c 5 t0_2) (iblk m c 6 t0_2) (G1 m c) (U1 m c)
def U2 (c : Dev nD) : Vec F S256x2880 .f32 := outC10 c (grid0.coords t0_2) (ms0 t0_2) (hs0 t0_2) (ms1 t0_2) (hs1 t0_2) (ms2 t0_2) (hs2 t0_2) (ms3 t0_2) (hs3 t0_2) (ms4 t0_2) (hs4 t0_2) (ms5 t0_2) (hs5 t0_2) (ms6 t0_2) (hs6 t0_2) (ms7 t0_2) (hs7 t0_2) scG (Memref.isWhole_whole _) scU (Memref.isWhole_whole _) scH (Memref.isWhole_whole _) (fun hh => absurd ((hcond0 t0_2).mp hh) (by decide)) (fun hh => absurd ((hcond1 t0_2).mp hh) (by decide)) ((hcond2 t0_2).mpr (by decide)) (fun hh => absurd ((hcond3 t0_2).mp hh) (by decide)) (fun hh => absurd ((hcond4 t0_2).mp hh) (by decide)) (fun hh => absurd ((hcond5 t0_2).mp hh) (by decide)) (fun hh => absurd ((hcond6 t0_2).mp hh) (by decide)) (fun hh => absurd ((hcond7 t0_2).mp hh) (by decide)) (fun hh => absurd ((hcond8 t0_2).mp hh) (by decide)) (fun hh => absurd ((hcond9 t0_2).mp hh) (by decide)) (fun hh => absurd ((hcond10 t0_2).mp hh) (by decide)) (iblk m c 0 t0_2) (iblk m c 1 t0_2) (iblk m c 2 t0_2) (iblk m c 3 t0_2) (iblk m c 4 t0_2) (iblk m c 5 t0_2) (iblk m c 6 t0_2) (G1 m c) (U1 m c)
/-- The accumulators after point 3: what the point before left, plus this slab's products. -/
def G3 (c : Dev nD) : Vec F S256x2880 .f32 := outD9 c (grid0.coords t0_3) (ms0 t0_3) (hs0 t0_3) (ms1 t0_3) (hs1 t0_3) (ms2 t0_3) (hs2 t0_3) (ms3 t0_3) (hs3 t0_3) (ms4 t0_3) (hs4 t0_3) (ms5 t0_3) (hs5 t0_3) (ms6 t0_3) (hs6 t0_3) (ms7 t0_3) (hs7 t0_3) scG (Memref.isWhole_whole _) scU (Memref.isWhole_whole _) scH (Memref.isWhole_whole _) (fun hh => absurd ((hcond0 t0_3).mp hh) (by decide)) (fun hh => absurd ((hcond1 t0_3).mp hh) (by decide)) (fun hh => absurd ((hcond2 t0_3).mp hh) (by decide)) ((hcond3 t0_3).mpr (by decide)) (fun hh => absurd ((hcond4 t0_3).mp hh) (by decide)) (fun hh => absurd ((hcond5 t0_3).mp hh) (by decide)) (fun hh => absurd ((hcond6 t0_3).mp hh) (by decide)) (fun hh => absurd ((hcond7 t0_3).mp hh) (by decide)) (fun hh => absurd ((hcond8 t0_3).mp hh) (by decide)) (fun hh => absurd ((hcond9 t0_3).mp hh) (by decide)) (fun hh => absurd ((hcond10 t0_3).mp hh) (by decide)) (iblk m c 0 t0_3) (iblk m c 1 t0_3) (iblk m c 2 t0_3) (iblk m c 3 t0_3) (iblk m c 4 t0_3) (iblk m c 5 t0_3) (iblk m c 6 t0_3) (G2 m c) (U2 m c)
def U3 (c : Dev nD) : Vec F S256x2880 .f32 := outD10 c (grid0.coords t0_3) (ms0 t0_3) (hs0 t0_3) (ms1 t0_3) (hs1 t0_3) (ms2 t0_3) (hs2 t0_3) (ms3 t0_3) (hs3 t0_3) (ms4 t0_3) (hs4 t0_3) (ms5 t0_3) (hs5 t0_3) (ms6 t0_3) (hs6 t0_3) (ms7 t0_3) (hs7 t0_3) scG (Memref.isWhole_whole _) scU (Memref.isWhole_whole _) scH (Memref.isWhole_whole _) (fun hh => absurd ((hcond0 t0_3).mp hh) (by decide)) (fun hh => absurd ((hcond1 t0_3).mp hh) (by decide)) (fun hh => absurd ((hcond2 t0_3).mp hh) (by decide)) ((hcond3 t0_3).mpr (by decide)) (fun hh => absurd ((hcond4 t0_3).mp hh) (by decide)) (fun hh => absurd ((hcond5 t0_3).mp hh) (by decide)) (fun hh => absurd ((hcond6 t0_3).mp hh) (by decide)) (fun hh => absurd ((hcond7 t0_3).mp hh) (by decide)) (fun hh => absurd ((hcond8 t0_3).mp hh) (by decide)) (fun hh => absurd ((hcond9 t0_3).mp hh) (by decide)) (fun hh => absurd ((hcond10 t0_3).mp hh) (by decide)) (iblk m c 0 t0_3) (iblk m c 1 t0_3) (iblk m c 2 t0_3) (iblk m c 3 t0_3) (iblk m c 4 t0_3) (iblk m c 5 t0_3) (iblk m c 6 t0_3) (G2 m c) (U2 m c)
/-- The accumulators after point 4: what the point before left, plus this slab's products. -/
def G4 (c : Dev nD) : Vec F S256x2880 .f32 := outE9 c (grid0.coords t0_4) (ms0 t0_4) (hs0 t0_4) (ms1 t0_4) (hs1 t0_4) (ms2 t0_4) (hs2 t0_4) (ms3 t0_4) (hs3 t0_4) (ms4 t0_4) (hs4 t0_4) (ms5 t0_4) (hs5 t0_4) (ms6 t0_4) (hs6 t0_4) (ms7 t0_4) (hs7 t0_4) scG (Memref.isWhole_whole _) scU (Memref.isWhole_whole _) scH (Memref.isWhole_whole _) (fun hh => absurd ((hcond0 t0_4).mp hh) (by decide)) (fun hh => absurd ((hcond1 t0_4).mp hh) (by decide)) (fun hh => absurd ((hcond2 t0_4).mp hh) (by decide)) (fun hh => absurd ((hcond3 t0_4).mp hh) (by decide)) ((hcond4 t0_4).mpr (by decide)) (fun hh => absurd ((hcond5 t0_4).mp hh) (by decide)) (fun hh => absurd ((hcond6 t0_4).mp hh) (by decide)) (fun hh => absurd ((hcond7 t0_4).mp hh) (by decide)) (fun hh => absurd ((hcond8 t0_4).mp hh) (by decide)) (fun hh => absurd ((hcond9 t0_4).mp hh) (by decide)) (fun hh => absurd ((hcond10 t0_4).mp hh) (by decide)) (iblk m c 0 t0_4) (iblk m c 1 t0_4) (iblk m c 2 t0_4) (iblk m c 3 t0_4) (iblk m c 4 t0_4) (iblk m c 5 t0_4) (iblk m c 6 t0_4) (G3 m c) (U3 m c)
def U4 (c : Dev nD) : Vec F S256x2880 .f32 := outE10 c (grid0.coords t0_4) (ms0 t0_4) (hs0 t0_4) (ms1 t0_4) (hs1 t0_4) (ms2 t0_4) (hs2 t0_4) (ms3 t0_4) (hs3 t0_4) (ms4 t0_4) (hs4 t0_4) (ms5 t0_4) (hs5 t0_4) (ms6 t0_4) (hs6 t0_4) (ms7 t0_4) (hs7 t0_4) scG (Memref.isWhole_whole _) scU (Memref.isWhole_whole _) scH (Memref.isWhole_whole _) (fun hh => absurd ((hcond0 t0_4).mp hh) (by decide)) (fun hh => absurd ((hcond1 t0_4).mp hh) (by decide)) (fun hh => absurd ((hcond2 t0_4).mp hh) (by decide)) (fun hh => absurd ((hcond3 t0_4).mp hh) (by decide)) ((hcond4 t0_4).mpr (by decide)) (fun hh => absurd ((hcond5 t0_4).mp hh) (by decide)) (fun hh => absurd ((hcond6 t0_4).mp hh) (by decide)) (fun hh => absurd ((hcond7 t0_4).mp hh) (by decide)) (fun hh => absurd ((hcond8 t0_4).mp hh) (by decide)) (fun hh => absurd ((hcond9 t0_4).mp hh) (by decide)) (fun hh => absurd ((hcond10 t0_4).mp hh) (by decide)) (iblk m c 0 t0_4) (iblk m c 1 t0_4) (iblk m c 2 t0_4) (iblk m c 3 t0_4) (iblk m c 4 t0_4) (iblk m c 5 t0_4) (iblk m c 6 t0_4) (G3 m c) (U3 m c)
/-- The accumulators after point 5: what the point before left, plus this slab's products. -/
def G5 (c : Dev nD) : Vec F S256x2880 .f32 := outF9 c (grid0.coords t0_5) (ms0 t0_5) (hs0 t0_5) (ms1 t0_5) (hs1 t0_5) (ms2 t0_5) (hs2 t0_5) (ms3 t0_5) (hs3 t0_5) (ms4 t0_5) (hs4 t0_5) (ms5 t0_5) (hs5 t0_5) (ms6 t0_5) (hs6 t0_5) (ms7 t0_5) (hs7 t0_5) scG (Memref.isWhole_whole _) scU (Memref.isWhole_whole _) scH (Memref.isWhole_whole _) (fun hh => absurd ((hcond0 t0_5).mp hh) (by decide)) (fun hh => absurd ((hcond1 t0_5).mp hh) (by decide)) (fun hh => absurd ((hcond2 t0_5).mp hh) (by decide)) (fun hh => absurd ((hcond3 t0_5).mp hh) (by decide)) (fun hh => absurd ((hcond4 t0_5).mp hh) (by decide)) ((hcond5 t0_5).mpr (by decide)) (fun hh => absurd ((hcond6 t0_5).mp hh) (by decide)) (fun hh => absurd ((hcond7 t0_5).mp hh) (by decide)) (fun hh => absurd ((hcond8 t0_5).mp hh) (by decide)) (fun hh => absurd ((hcond9 t0_5).mp hh) (by decide)) (fun hh => absurd ((hcond10 t0_5).mp hh) (by decide)) (iblk m c 0 t0_5) (iblk m c 1 t0_5) (iblk m c 2 t0_5) (iblk m c 3 t0_5) (iblk m c 4 t0_5) (iblk m c 5 t0_5) (iblk m c 6 t0_5) (G4 m c) (U4 m c)
def U5 (c : Dev nD) : Vec F S256x2880 .f32 := outF10 c (grid0.coords t0_5) (ms0 t0_5) (hs0 t0_5) (ms1 t0_5) (hs1 t0_5) (ms2 t0_5) (hs2 t0_5) (ms3 t0_5) (hs3 t0_5) (ms4 t0_5) (hs4 t0_5) (ms5 t0_5) (hs5 t0_5) (ms6 t0_5) (hs6 t0_5) (ms7 t0_5) (hs7 t0_5) scG (Memref.isWhole_whole _) scU (Memref.isWhole_whole _) scH (Memref.isWhole_whole _) (fun hh => absurd ((hcond0 t0_5).mp hh) (by decide)) (fun hh => absurd ((hcond1 t0_5).mp hh) (by decide)) (fun hh => absurd ((hcond2 t0_5).mp hh) (by decide)) (fun hh => absurd ((hcond3 t0_5).mp hh) (by decide)) (fun hh => absurd ((hcond4 t0_5).mp hh) (by decide)) ((hcond5 t0_5).mpr (by decide)) (fun hh => absurd ((hcond6 t0_5).mp hh) (by decide)) (fun hh => absurd ((hcond7 t0_5).mp hh) (by decide)) (fun hh => absurd ((hcond8 t0_5).mp hh) (by decide)) (fun hh => absurd ((hcond9 t0_5).mp hh) (by decide)) (fun hh => absurd ((hcond10 t0_5).mp hh) (by decide)) (iblk m c 0 t0_5) (iblk m c 1 t0_5) (iblk m c 2 t0_5) (iblk m c 3 t0_5) (iblk m c 4 t0_5) (iblk m c 5 t0_5) (iblk m c 6 t0_5) (G4 m c) (U4 m c)
/-- The gated activation stored at point 5. -/
def H5 (c : Dev nD) : Vec F S256x2880 .f32 := outF11 c (grid0.coords t0_5) (ms0 t0_5) (hs0 t0_5) (ms1 t0_5) (hs1 t0_5) (ms2 t0_5) (hs2 t0_5) (ms3 t0_5) (hs3 t0_5) (ms4 t0_5) (hs4 t0_5) (ms5 t0_5) (hs5 t0_5) (ms6 t0_5) (hs6 t0_5) (ms7 t0_5) (hs7 t0_5) scG (Memref.isWhole_whole _) scU (Memref.isWhole_whole _) scH (Memref.isWhole_whole _) (fun hh => absurd ((hcond0 t0_5).mp hh) (by decide)) (fun hh => absurd ((hcond1 t0_5).mp hh) (by decide)) (fun hh => absurd ((hcond2 t0_5).mp hh) (by decide)) (fun hh => absurd ((hcond3 t0_5).mp hh) (by decide)) (fun hh => absurd ((hcond4 t0_5).mp hh) (by decide)) ((hcond5 t0_5).mpr (by decide)) (fun hh => absurd ((hcond6 t0_5).mp hh) (by decide)) (fun hh => absurd ((hcond7 t0_5).mp hh) (by decide)) (fun hh => absurd ((hcond8 t0_5).mp hh) (by decide)) (fun hh => absurd ((hcond9 t0_5).mp hh) (by decide)) (fun hh => absurd ((hcond10 t0_5).mp hh) (by decide)) (iblk m c 0 t0_5) (iblk m c 1 t0_5) (iblk m c 2 t0_5) (iblk m c 3 t0_5) (iblk m c 4 t0_5) (iblk m c 5 t0_5) (iblk m c 6 t0_5) (G4 m c) (U4 m c)
/-- The output block after point 6. -/
def O6 (c : Dev nD) : Vec F S256x2880 .f32 := outG8 c (grid0.coords t0_6) (ms0 t0_6) (hs0 t0_6) (ms1 t0_6) (hs1 t0_6) (ms2 t0_6) (hs2 t0_6) (ms3 t0_6) (hs3 t0_6) (ms4 t0_6) (hs4 t0_6) (ms5 t0_6) (hs5 t0_6) (ms6 t0_6) (hs6 t0_6) (ms7 t0_6) (hs7 t0_6) scG (Memref.isWhole_whole _) scU (Memref.isWhole_whole _) scH (Memref.isWhole_whole _) (fun hh => absurd ((hcond0 t0_6).mp hh) (by decide)) (fun hh => absurd ((hcond1 t0_6).mp hh) (by decide)) (fun hh => absurd ((hcond2 t0_6).mp hh) (by decide)) (fun hh => absurd ((hcond3 t0_6).mp hh) (by decide)) (fun hh => absurd ((hcond4 t0_6).mp hh) (by decide)) (fun hh => absurd ((hcond5 t0_6).mp hh) (by decide)) ((hcond6 t0_6).mpr (by decide)) (fun hh => absurd ((hcond7 t0_6).mp hh) (by decide)) (fun hh => absurd ((hcond8 t0_6).mp hh) (by decide)) (fun hh => absurd ((hcond9 t0_6).mp hh) (by decide)) (fun hh => absurd ((hcond10 t0_6).mp hh) (by decide)) (iblk m c 0 t0_6) (iblk m c 1 t0_6) (iblk m c 2 t0_6) (iblk m c 3 t0_6) (iblk m c 4 t0_6) (iblk m c 5 t0_6) (iblk m c 6 t0_6) (H5 m c)
/-- The output block after point 7. -/
def O7 (c : Dev nD) : Vec F S256x2880 .f32 := outH8 c (grid0.coords t0_7) (ms0 t0_7) (hs0 t0_7) (ms1 t0_7) (hs1 t0_7) (ms2 t0_7) (hs2 t0_7) (ms3 t0_7) (hs3 t0_7) (ms4 t0_7) (hs4 t0_7) (ms5 t0_7) (hs5 t0_7) (ms6 t0_7) (hs6 t0_7) (ms7 t0_7) (hs7 t0_7) scG (Memref.isWhole_whole _) scU (Memref.isWhole_whole _) scH (Memref.isWhole_whole _) (fun hh => absurd ((hcond0 t0_7).mp hh) (by decide)) (fun hh => absurd ((hcond1 t0_7).mp hh) (by decide)) (fun hh => absurd ((hcond2 t0_7).mp hh) (by decide)) (fun hh => absurd ((hcond3 t0_7).mp hh) (by decide)) (fun hh => absurd ((hcond4 t0_7).mp hh) (by decide)) (fun hh => absurd ((hcond5 t0_7).mp hh) (by decide)) (fun hh => absurd ((hcond6 t0_7).mp hh) (by decide)) ((hcond7 t0_7).mpr (by decide)) (fun hh => absurd ((hcond8 t0_7).mp hh) (by decide)) (fun hh => absurd ((hcond9 t0_7).mp hh) (by decide)) (fun hh => absurd ((hcond10 t0_7).mp hh) (by decide)) (iblk m c 0 t0_7) (iblk m c 1 t0_7) (iblk m c 2 t0_7) (iblk m c 3 t0_7) (iblk m c 4 t0_7) (iblk m c 5 t0_7) (iblk m c 6 t0_7) (O6 m c) (H5 m c)
/-- The output block after point 8. -/
def O8 (c : Dev nD) : Vec F S256x2880 .f32 := outI8 c (grid0.coords t0_8) (ms0 t0_8) (hs0 t0_8) (ms1 t0_8) (hs1 t0_8) (ms2 t0_8) (hs2 t0_8) (ms3 t0_8) (hs3 t0_8) (ms4 t0_8) (hs4 t0_8) (ms5 t0_8) (hs5 t0_8) (ms6 t0_8) (hs6 t0_8) (ms7 t0_8) (hs7 t0_8) scG (Memref.isWhole_whole _) scU (Memref.isWhole_whole _) scH (Memref.isWhole_whole _) (fun hh => absurd ((hcond0 t0_8).mp hh) (by decide)) (fun hh => absurd ((hcond1 t0_8).mp hh) (by decide)) (fun hh => absurd ((hcond2 t0_8).mp hh) (by decide)) (fun hh => absurd ((hcond3 t0_8).mp hh) (by decide)) (fun hh => absurd ((hcond4 t0_8).mp hh) (by decide)) (fun hh => absurd ((hcond5 t0_8).mp hh) (by decide)) (fun hh => absurd ((hcond6 t0_8).mp hh) (by decide)) (fun hh => absurd ((hcond7 t0_8).mp hh) (by decide)) ((hcond8 t0_8).mpr (by decide)) (fun hh => absurd ((hcond9 t0_8).mp hh) (by decide)) (fun hh => absurd ((hcond10 t0_8).mp hh) (by decide)) (iblk m c 0 t0_8) (iblk m c 1 t0_8) (iblk m c 2 t0_8) (iblk m c 3 t0_8) (iblk m c 4 t0_8) (iblk m c 5 t0_8) (iblk m c 6 t0_8) (O7 m c) (H5 m c)
/-- The output block after point 9. -/
def O9 (c : Dev nD) : Vec F S256x2880 .f32 := outJ8 c (grid0.coords t0_9) (ms0 t0_9) (hs0 t0_9) (ms1 t0_9) (hs1 t0_9) (ms2 t0_9) (hs2 t0_9) (ms3 t0_9) (hs3 t0_9) (ms4 t0_9) (hs4 t0_9) (ms5 t0_9) (hs5 t0_9) (ms6 t0_9) (hs6 t0_9) (ms7 t0_9) (hs7 t0_9) scG (Memref.isWhole_whole _) scU (Memref.isWhole_whole _) scH (Memref.isWhole_whole _) (fun hh => absurd ((hcond0 t0_9).mp hh) (by decide)) (fun hh => absurd ((hcond1 t0_9).mp hh) (by decide)) (fun hh => absurd ((hcond2 t0_9).mp hh) (by decide)) (fun hh => absurd ((hcond3 t0_9).mp hh) (by decide)) (fun hh => absurd ((hcond4 t0_9).mp hh) (by decide)) (fun hh => absurd ((hcond5 t0_9).mp hh) (by decide)) (fun hh => absurd ((hcond6 t0_9).mp hh) (by decide)) (fun hh => absurd ((hcond7 t0_9).mp hh) (by decide)) (fun hh => absurd ((hcond8 t0_9).mp hh) (by decide)) ((hcond9 t0_9).mpr (by decide)) (fun hh => absurd ((hcond10 t0_9).mp hh) (by decide)) (iblk m c 0 t0_9) (iblk m c 1 t0_9) (iblk m c 2 t0_9) (iblk m c 3 t0_9) (iblk m c 4 t0_9) (iblk m c 5 t0_9) (iblk m c 6 t0_9) (O8 m c) (H5 m c)
/-- The output block after point 10. -/
def O10 (c : Dev nD) : Vec F S256x2880 .f32 := outK8 c (grid0.coords t0_10) (ms0 t0_10) (hs0 t0_10) (ms1 t0_10) (hs1 t0_10) (ms2 t0_10) (hs2 t0_10) (ms3 t0_10) (hs3 t0_10) (ms4 t0_10) (hs4 t0_10) (ms5 t0_10) (hs5 t0_10) (ms6 t0_10) (hs6 t0_10) (ms7 t0_10) (hs7 t0_10) scG (Memref.isWhole_whole _) scU (Memref.isWhole_whole _) scH (Memref.isWhole_whole _) (fun hh => absurd ((hcond0 t0_10).mp hh) (by decide)) (fun hh => absurd ((hcond1 t0_10).mp hh) (by decide)) (fun hh => absurd ((hcond2 t0_10).mp hh) (by decide)) (fun hh => absurd ((hcond3 t0_10).mp hh) (by decide)) (fun hh => absurd ((hcond4 t0_10).mp hh) (by decide)) (fun hh => absurd ((hcond5 t0_10).mp hh) (by decide)) (fun hh => absurd ((hcond6 t0_10).mp hh) (by decide)) (fun hh => absurd ((hcond7 t0_10).mp hh) (by decide)) (fun hh => absurd ((hcond8 t0_10).mp hh) (by decide)) (fun hh => absurd ((hcond9 t0_10).mp hh) (by decide)) ((hcond10 t0_10).mpr (by decide)) (iblk m c 0 t0_10) (iblk m c 1 t0_10) (iblk m c 2 t0_10) (iblk m c 3 t0_10) (iblk m c 4 t0_10) (iblk m c 5 t0_10) (iblk m c 6 t0_10) (O9 m c) (H5 m c)

/-- The output block after point `n` of the second phase (at the idle points nothing consults it). -/
def outAt (c : Dev nD) (n : ℕ) : Vec F S256x2880 .f32 :=
  match n with
  | 7 => O7 m c
  | 8 => O8 m c
  | 9 => O9 m c
  | 10 => O10 m c
  | _ => O6 m c

/-- The region invariant before point `n`. -/
def PhiS (c : Dev nD) (n : ℕ) : sProp 𝕄 :=
  match n with
  | 0 => Pipeline.ΦA spec0 c
  | 1 => iprop(iprop(owns (c : Thread nD τ) scG fullShare (G0 m c) ∗ owns (c : Thread nD τ) scU fullShare (U0 m c) ∗ (∃ d, owns (c : Thread nD τ) scH fullShare d)) ∗ (∃ r, prngReg c r))
  | 2 => iprop(iprop(owns (c : Thread nD τ) scG fullShare (G1 m c) ∗ owns (c : Thread nD τ) scU fullShare (U1 m c) ∗ (∃ d, owns (c : Thread nD τ) scH fullShare d)) ∗ (∃ r, prngReg c r))
  | 3 => iprop(iprop(owns (c : Thread nD τ) scG fullShare (G2 m c) ∗ owns (c : Thread nD τ) scU fullShare (U2 m c) ∗ (∃ d, owns (c : Thread nD τ) scH fullShare d)) ∗ (∃ r, prngReg c r))
  | 4 => iprop(iprop(owns (c : Thread nD τ) scG fullShare (G3 m c) ∗ owns (c : Thread nD τ) scU fullShare (U3 m c) ∗ (∃ d, owns (c : Thread nD τ) scH fullShare d)) ∗ (∃ r, prngReg c r))
  | 5 => iprop(iprop(owns (c : Thread nD τ) scG fullShare (G4 m c) ∗ owns (c : Thread nD τ) scU fullShare (U4 m c) ∗ (∃ d, owns (c : Thread nD τ) scH fullShare d)) ∗ (∃ r, prngReg c r))
  | _ => iprop(iprop((∃ d, owns (c : Thread nD τ) scG fullShare d) ∗ (∃ d, owns (c : Thread nD τ) scU fullShare d) ∗ owns (c : Thread nD τ) scH fullShare (H5 m c)) ∗ (∃ r, prngReg c r))

/-- The invariant before each of the points, and after the last. -/
theorem PhiS_0 (c : Dev nD) : PhiS m c 0 = (Pipeline.ΦA spec0 c : sProp 𝕄) := rfl
theorem PhiS_1 (c : Dev nD) : PhiS m c 1 = (iprop(iprop(owns (c : Thread nD τ) scG fullShare (G0 m c) ∗ owns (c : Thread nD τ) scU fullShare (U0 m c) ∗ (∃ d, owns (c : Thread nD τ) scH fullShare d)) ∗ (∃ r, prngReg c r)) : sProp 𝕄) := rfl
theorem PhiS_2 (c : Dev nD) : PhiS m c 2 = (iprop(iprop(owns (c : Thread nD τ) scG fullShare (G1 m c) ∗ owns (c : Thread nD τ) scU fullShare (U1 m c) ∗ (∃ d, owns (c : Thread nD τ) scH fullShare d)) ∗ (∃ r, prngReg c r)) : sProp 𝕄) := rfl
theorem PhiS_3 (c : Dev nD) : PhiS m c 3 = (iprop(iprop(owns (c : Thread nD τ) scG fullShare (G2 m c) ∗ owns (c : Thread nD τ) scU fullShare (U2 m c) ∗ (∃ d, owns (c : Thread nD τ) scH fullShare d)) ∗ (∃ r, prngReg c r)) : sProp 𝕄) := rfl
theorem PhiS_4 (c : Dev nD) : PhiS m c 4 = (iprop(iprop(owns (c : Thread nD τ) scG fullShare (G3 m c) ∗ owns (c : Thread nD τ) scU fullShare (U3 m c) ∗ (∃ d, owns (c : Thread nD τ) scH fullShare d)) ∗ (∃ r, prngReg c r)) : sProp 𝕄) := rfl
theorem PhiS_5 (c : Dev nD) : PhiS m c 5 = (iprop(iprop(owns (c : Thread nD τ) scG fullShare (G4 m c) ∗ owns (c : Thread nD τ) scU fullShare (U4 m c) ∗ (∃ d, owns (c : Thread nD τ) scH fullShare d)) ∗ (∃ r, prngReg c r)) : sProp 𝕄) := rfl
theorem PhiS_6 (c : Dev nD) : PhiS m c 6 = (iprop(iprop((∃ d, owns (c : Thread nD τ) scG fullShare d) ∗ (∃ d, owns (c : Thread nD τ) scU fullShare d) ∗ owns (c : Thread nD τ) scH fullShare (H5 m c)) ∗ (∃ r, prngReg c r)) : sProp 𝕄) := rfl
theorem PhiS_7 (c : Dev nD) : PhiS m c 7 = (iprop(iprop((∃ d, owns (c : Thread nD τ) scG fullShare d) ∗ (∃ d, owns (c : Thread nD τ) scU fullShare d) ∗ owns (c : Thread nD τ) scH fullShare (H5 m c)) ∗ (∃ r, prngReg c r)) : sProp 𝕄) := rfl
theorem PhiS_8 (c : Dev nD) : PhiS m c 8 = (iprop(iprop((∃ d, owns (c : Thread nD τ) scG fullShare d) ∗ (∃ d, owns (c : Thread nD τ) scU fullShare d) ∗ owns (c : Thread nD τ) scH fullShare (H5 m c)) ∗ (∃ r, prngReg c r)) : sProp 𝕄) := rfl
theorem PhiS_9 (c : Dev nD) : PhiS m c 9 = (iprop(iprop((∃ d, owns (c : Thread nD τ) scG fullShare d) ∗ (∃ d, owns (c : Thread nD τ) scU fullShare d) ∗ owns (c : Thread nD τ) scH fullShare (H5 m c)) ∗ (∃ r, prngReg c r)) : sProp 𝕄) := rfl
theorem PhiS_10 (c : Dev nD) : PhiS m c 10 = (iprop(iprop((∃ d, owns (c : Thread nD τ) scG fullShare d) ∗ (∃ d, owns (c : Thread nD τ) scU fullShare d) ∗ owns (c : Thread nD τ) scH fullShare (H5 m c)) ∗ (∃ r, prngReg c r)) : sProp 𝕄) := rfl
theorem PhiS_11 (c : Dev nD) : PhiS m c 11 = (iprop(iprop((∃ d, owns (c : Thread nD τ) scG fullShare d) ∗ (∃ d, owns (c : Thread nD τ) scU fullShare d) ∗ owns (c : Thread nD τ) scH fullShare (H5 m c)) ∗ (∃ r, prngReg c r)) : sProp 𝕄) := rfl
theorem outAt_6 (c : Dev nD) : outAt m c 6 = O6 m c := rfl
theorem outAt_7 (c : Dev nD) : outAt m c 7 = O7 m c := rfl
theorem outAt_8 (c : Dev nD) : outAt m c 8 = O8 m c := rfl
theorem outAt_9 (c : Dev nD) : outAt m c 9 = O9 m c := rfl
theorem outAt_10 (c : Dev nD) : outAt m c 10 = O10 m c := rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t.val
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outAt m c t.val := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-- An input's buffer is handed back at its block. -/
theorem leaves0 (c : Dev nD) (t : Fin cfg0.N) : (dats m 0 c).leavesExact 0 t = owns (c : Thread nD τ) (ms0 t) fullShare (iblk m c 0 t) := by
  unfold Dat.leavesExact; rw [live_in 0 (by decide) t, after0]
theorem leaves1 (c : Dev nD) (t : Fin cfg0.N) : (dats m 0 c).leavesExact 1 t = owns (c : Thread nD τ) (ms1 t) fullShare (iblk m c 1 t) := by
  unfold Dat.leavesExact; rw [live_in 1 (by decide) t, after1]
theorem leaves2 (c : Dev nD) (t : Fin cfg0.N) : (dats m 0 c).leavesExact 2 t = owns (c : Thread nD τ) (ms2 t) fullShare (iblk m c 2 t) := by
  unfold Dat.leavesExact; rw [live_in 2 (by decide) t, after2]
theorem leaves3 (c : Dev nD) (t : Fin cfg0.N) : (dats m 0 c).leavesExact 3 t = owns (c : Thread nD τ) (ms3 t) fullShare (iblk m c 3 t) := by
  unfold Dat.leavesExact; rw [live_in 3 (by decide) t, after3]
theorem leaves4 (c : Dev nD) (t : Fin cfg0.N) : (dats m 0 c).leavesExact 4 t = owns (c : Thread nD τ) (ms4 t) fullShare (iblk m c 4 t) := by
  unfold Dat.leavesExact; rw [live_in 4 (by decide) t, after4]
theorem leaves5 (c : Dev nD) (t : Fin cfg0.N) : (dats m 0 c).leavesExact 5 t = owns (c : Thread nD τ) (ms5 t) fullShare (iblk m c 5 t) := by
  unfold Dat.leavesExact; rw [live_in 5 (by decide) t, after5]
theorem leaves6 (c : Dev nD) (t : Fin cfg0.N) : (dats m 0 c).leavesExact 6 t = owns (c : Thread nD τ) (ms6 t) fullShare (iblk m c 6 t) := by
  unfold Dat.leavesExact; rw [live_in 6 (by decide) t, after6]

/-! ## The output window's buffer, point by point -/

theorem idle_lt : ∀ t : Fin cfg0.N, t.val < 6 → cfg0.idle 7 (grid0.coords t) = true := by decide +kernel
theorem idle_ge : ∀ t : Fin cfg0.N, 6 ≤ t.val → cfg0.idle 7 (grid0.coords t) = false := by decide +kernel
theorem flush_ne : ∀ t : Fin cfg0.N, t.val ≠ 10 → (cfg0.win 7).flush t = false := by decide +kernel
theorem flush_last : ∀ t : Fin cfg0.N, t.val = 10 → (cfg0.win 7).flush t = true := by decide +kernel

/-- Up to point 6 the output's buffer holds what it held when the region began: nothing fetches into it, nothing
    writes it back, and the body leaves it alone at the idle points. -/
theorem before7_early (c : Dev nD) : ∀ (n : ℕ) (hn : n < cfg0.N), n ≤ 6 → ∀ d, (dats m 0 c).before 7 ⟨n, hn⟩ d = d
  | 0, hn, _, d => by
    unfold Dat.before
    rw [(cfg0.win 7).fetch_out rfl, if_neg Bool.false_ne_true, if_pos rfl]
  | n + 1, hn, h6, d => by
    rw [(dats m 0 c).before_of_pos 7 ⟨n + 1, hn⟩ (Nat.succ_ne_zero n) ((cfg0.win 7).fetch_out rfl _)]
    rw [flush_ne ⟨n + 1 - 1, _⟩ (by show n + 1 - 1 ≠ 10; omega), if_neg Bool.false_ne_true]
    unfold Dat.left
    rw [idle_lt ⟨n + 1 - 1, _⟩ (by show n + 1 - 1 < 6; omega)]
    exact before7_early c n (Nat.lt_of_succ_lt hn) (by omega) d

theorem before7_early' (c : Dev nD) (t : Fin cfg0.N) (h6 : t.val ≤ 6) (d) : (dats m 0 c).before 7 t d = d :=
  before7_early m c t.val t.isLt h6 d

/-- From point 7 on it holds what the body left at the point before: that point stored the whole block and did not
    write it back. -/
theorem before7_late (c : Dev nD) (t : Fin cfg0.N) (h7 : 7 ≤ t.val) (d) :
    (dats m 0 c).before 7 t d = outAt m c (t.val - 1) := by
  have hN : t.val < 11 := lt_of_lt_of_eq t.isLt (show cfg0.N = 11 from N_0)
  rw [(dats m 0 c).before_of_pos 7 t (by omega) ((cfg0.win 7).fetch_out rfl _)]
  rw [flush_ne ⟨t.val - 1, _⟩ (by show t.val - 1 ≠ 10; omega), if_neg Bool.false_ne_true]
  unfold Dat.left
  rw [idle_ge ⟨t.val - 1, _⟩ (by show 6 ≤ t.val - 1; omega)]
  dsimp only
  unfold Dat.kept
  rw [Pipeline.fill_of_clip_none (cfg := cfg0) 7 _ (fun _ => rfl) d ((dats m 0 c).after 7 _), Window.fill_cut]
  dsimp only [dats]

/-- At a live point the output's buffer is handed back at what the step left. -/
theorem leaves7_live (c : Dev nD) (t : Fin cfg0.N) (h6 : 6 ≤ t.val) :
    (dats m 0 c).leavesExact 7 t = owns (c : Thread nD τ) (ms7 t) fullShare (outAt m c t.val) := by
  unfold Dat.leavesExact; rw [idle_ge t h6, after7]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 1600000 in
/-- The body at point 0. -/
theorem sound0 (c : Dev nD) :
    bodyPre m c t0_0 ⊢ wp frame (wpE (defs₀ (F := F)) Variants.none c none) Set.univ (bodyAt0 t0_0) (fun _ => bodyPost m c t0_0) := by
  unfold bodyPre bodyPost bodyAt0
  simp only [before0, before1, before2, before3, before4, before5, before6]
  rw [show (dats m 0 c).owesAt () (t0_0 : Fin cfg0.N).succ = (dats m 0 c).owesAt () (t0_0 : Fin cfg0.N).castSucc from rfl]
  rw [show (dats m 0 c).Φ (t0_0 : Fin cfg0.N).succ = PhiS m c 1 from rfl, show (dats m 0 c).Φ (t0_0 : Fin cfg0.N).castSucc = PhiS m c 0 from rfl]
  rw [leaves0, leaves1, leaves2, leaves3, leaves4, leaves5, leaves6]
  rw [Dat.leavesExact_idle (dats m 0 c) 7 t0_0 (idle_lt _ (by decide)) (flush_ne _ (by decide))]
  simp only [before7_early' m c t0_0 (by decide)]
  rw [PhiS_0, PhiS_1]
  rw [PhiA_eq]
  unfold G0 U0
  unfold outA9 outA10
  iintro ⟨⟨⟨HG, HU, HH⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runA c (grid0.coords t0_0) (ms0 t0_0) (hs0 t0_0) (ms1 t0_0) (hs1 t0_0) (ms2 t0_0) (hs2 t0_0) (ms3 t0_0) (hs3 t0_0) (ms4 t0_0) (hs4 t0_0) (ms5 t0_0) (hs5 t0_0) (ms6 t0_0) (hs6 t0_0) (ms7 t0_0) (hs7 t0_0) scG (Memref.isWhole_whole _) scU (Memref.isWhole_whole _) scH (Memref.isWhole_whole _) ((hcond0 t0_0).mpr (by decide)) (fun hh => absurd ((hcond1 t0_0).mp hh) (by decide)) (fun hh => absurd ((hcond2 t0_0).mp hh) (by decide)) (fun hh => absurd ((hcond3 t0_0).mp hh) (by decide)) (fun hh => absurd ((hcond4 t0_0).mp hh) (by decide)) (fun hh => absurd ((hcond5 t0_0).mp hh) (by decide)) (fun hh => absurd ((hcond6 t0_0).mp hh) (by decide)) (fun hh => absurd ((hcond7 t0_0).mp hh) (by decide)) (fun hh => absurd ((hcond8 t0_0).mp hh) (by decide)) (fun hh => absurd ((hcond9 t0_0).mp hh) (by decide)) (fun hh => absurd ((hcond10 t0_0).mp hh) (by decide)) (iblk m c 0 t0_0) (iblk m c 1 t0_0) (iblk m c 2 t0_0) (iblk m c 3 t0_0) (iblk m c 4 t0_0) (iblk m c 5 t0_0) (iblk m c 6 t0_0) ).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HG]; · iexact HG
  isplitl [HU]; · iexact HU
  isplitl [HH]; · iexact HH
  iintro ⟨H0, H1, H2, H3, H4, H5, H6, R8, ⟨%eR9, R9⟩, ⟨%eR10, R10⟩, R11⟩
  isplitl [R9 R10 R11 Hg]
  · isplitl [R9 R10 R11]
    · isplitl [R9]
      · unfold owns; iexists _; isplitr
        swap; · iexact R9
        ipureintro; exact View.read_writes_of_cover _ _ _ _ _ (covA9 c _ _ _ _ _ _ _ _ _ _ _ _ _ _ _ _ _ _ _ _ _ _ _ _ _ _ _ _ _ _ _ _ _ _ _ _ _ _ _ _ _)
      isplitl [R10]
      · unfold owns; iexists _; isplitr
        swap; · iexact R10
        ipureintro; exact View.read_writes_of_cover _ _ _ _ _ (covA10 c _ _ _ _ _ _ _ _ _ _ _ _ _ _ _ _ _ _ _ _ _ _ _ _ _ _ _ _ _ _ _ _ _ _ _ _ _ _ _ _ _)
      iexact R11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact R8

set_option maxHeartbeats 1600000 in
/-- The body at point 1. -/
theorem sound1 (c : Dev nD) :
    bodyPre m c t0_1 ⊢ wp frame (wpE (defs₀ (F := F)) Variants.none c none) Set.univ (bodyAt0 t0_1) (fun _ => bodyPost m c t0_1) := by
  unfold bodyPre bodyPost bodyAt0
  simp only [before0, before1, before2, before3, before4, before5, before6]
  rw [show (dats m 0 c).owesAt () (t0_1 : Fin cfg0.N).succ = (dats m 0 c).owesAt () (t0_1 : Fin cfg0.N).castSucc from rfl]
  rw [show (dats m 0 c).Φ (t0_1 : Fin cfg0.N).succ = PhiS m c 2 from rfl, show (dats m 0 c).Φ (t0_1 : Fin cfg0.N).castSucc = PhiS m c 1 from rfl]
  rw [leaves0, leaves1, leaves2, leaves3, leaves4, leaves5, leaves6]
  rw [Dat.leavesExact_idle (dats m 0 c) 7 t0_1 (idle_lt _ (by decide)) (flush_ne _ (by decide))]
  simp only [before7_early' m c t0_1 (by decide)]
  rw [PhiS_1, PhiS_2]
  unfold G1 U1
  unfold outB9 outB10
  iintro ⟨⟨⟨HG, HU, HH⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runB c (grid0.coords t0_1) (ms0 t0_1) (hs0 t0_1) (ms1 t0_1) (hs1 t0_1) (ms2 t0_1) (hs2 t0_1) (ms3 t0_1) (hs3 t0_1) (ms4 t0_1) (hs4 t0_1) (ms5 t0_1) (hs5 t0_1) (ms6 t0_1) (hs6 t0_1) (ms7 t0_1) (hs7 t0_1) scG (Memref.isWhole_whole _) scU (Memref.isWhole_whole _) scH (Memref.isWhole_whole _) (fun hh => absurd ((hcond0 t0_1).mp hh) (by decide)) ((hcond1 t0_1).mpr (by decide)) (fun hh => absurd ((hcond2 t0_1).mp hh) (by decide)) (fun hh => absurd ((hcond3 t0_1).mp hh) (by decide)) (fun hh => absurd ((hcond4 t0_1).mp hh) (by decide)) (fun hh => absurd ((hcond5 t0_1).mp hh) (by decide)) (fun hh => absurd ((hcond6 t0_1).mp hh) (by decide)) (fun hh => absurd ((hcond7 t0_1).mp hh) (by decide)) (fun hh => absurd ((hcond8 t0_1).mp hh) (by decide)) (fun hh => absurd ((hcond9 t0_1).mp hh) (by decide)) (fun hh => absurd ((hcond10 t0_1).mp hh) (by decide)) (iblk m c 0 t0_1) (iblk m c 1 t0_1) (iblk m c 2 t0_1) (iblk m c 3 t0_1) (iblk m c 4 t0_1) (iblk m c 5 t0_1) (iblk m c 6 t0_1) (G0 m c) (U0 m c)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HG]; · iexact HG
  isplitl [HU]; · iexact HU
  isplitl [HH]; · iexact HH
  iintro ⟨H0, H1, H2, H3, H4, H5, H6, R8, ⟨%eR9, R9⟩, ⟨%eR10, R10⟩, R11⟩
  isplitl [R9 R10 R11 Hg]
  · isplitl [R9 R10 R11]
    · isplitl [R9]
      · unfold owns; iexists _; isplitr
        swap; · iexact R9
        ipureintro; exact View.read_writes_of_cover _ _ _ _ _ (covB9 c _ _ _ _ _ _ _ _ _ _ _ _ _ _ _ _ _ _ _ _ _ _ _ _ _ _ _ _ _ _ _ _ _ _ _ _ _ _ _ _ _ _ _)
      isplitl [R10]
      · unfold owns; iexists _; isplitr
        swap; · iexact R10
        ipureintro; exact View.read_writes_of_cover _ _ _ _ _ (covB10 c _ _ _ _ _ _ _ _ _ _ _ _ _ _ _ _ _ _ _ _ _ _ _ _ _ _ _ _ _ _ _ _ _ _ _ _ _ _ _ _ _ _ _)
      iexact R11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact R8

set_option maxHeartbeats 1600000 in
/-- The body at point 2. -/
theorem sound2 (c : Dev nD) :
    bodyPre m c t0_2 ⊢ wp frame (wpE (defs₀ (F := F)) Variants.none c none) Set.univ (bodyAt0 t0_2) (fun _ => bodyPost m c t0_2) := by
  unfold bodyPre bodyPost bodyAt0
  simp only [before0, before1, before2, before3, before4, before5, before6]
  rw [show (dats m 0 c).owesAt () (t0_2 : Fin cfg0.N).succ = (dats m 0 c).owesAt () (t0_2 : Fin cfg0.N).castSucc from rfl]
  rw [show (dats m 0 c).Φ (t0_2 : Fin cfg0.N).succ = PhiS m c 3 from rfl, show (dats m 0 c).Φ (t0_2 : Fin cfg0.N).castSucc = PhiS m c 2 from rfl]
  rw [leaves0, leaves1, leaves2, leaves3, leaves4, leaves5, leaves6]
  rw [Dat.leavesExact_idle (dats m 0 c) 7 t0_2 (idle_lt _ (by decide)) (flush_ne _ (by decide))]
  simp only [before7_early' m c t0_2 (by decide)]
  rw [PhiS_2, PhiS_3]
  unfold G2 U2
  unfold outC9 outC10
  iintro ⟨⟨⟨HG, HU, HH⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runC c (grid0.coords t0_2) (ms0 t0_2) (hs0 t0_2) (ms1 t0_2) (hs1 t0_2) (ms2 t0_2) (hs2 t0_2) (ms3 t0_2) (hs3 t0_2) (ms4 t0_2) (hs4 t0_2) (ms5 t0_2) (hs5 t0_2) (ms6 t0_2) (hs6 t0_2) (ms7 t0_2) (hs7 t0_2) scG (Memref.isWhole_whole _) scU (Memref.isWhole_whole _) scH (Memref.isWhole_whole _) (fun hh => absurd ((hcond0 t0_2).mp hh) (by decide)) (fun hh => absurd ((hcond1 t0_2).mp hh) (by decide)) ((hcond2 t0_2).mpr (by decide)) (fun hh => absurd ((hcond3 t0_2).mp hh) (by decide)) (fun hh => absurd ((hcond4 t0_2).mp hh) (by decide)) (fun hh => absurd ((hcond5 t0_2).mp hh) (by decide)) (fun hh => absurd ((hcond6 t0_2).mp hh) (by decide)) (fun hh => absurd ((hcond7 t0_2).mp hh) (by decide)) (fun hh => absurd ((hcond8 t0_2).mp hh) (by decide)) (fun hh => absurd ((hcond9 t0_2).mp hh) (by decide)) (fun hh => absurd ((hcond10 t0_2).mp hh) (by decide)) (iblk m c 0 t0_2) (iblk m c 1 t0_2) (iblk m c 2 t0_2) (iblk m c 3 t0_2) (iblk m c 4 t0_2) (iblk m c 5 t0_2) (iblk m c 6 t0_2) (G1 m c) (U1 m c)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HG]; · iexact HG
  isplitl [HU]; · iexact HU
  isplitl [HH]; · iexact HH
  iintro ⟨H0, H1, H2, H3, H4, H5, H6, R8, ⟨%eR9, R9⟩, ⟨%eR10, R10⟩, R11⟩
  isplitl [R9 R10 R11 Hg]
  · isplitl [R9 R10 R11]
    · isplitl [R9]
      · unfold owns; iexists _; isplitr
        swap; · iexact R9
        ipureintro; exact View.read_writes_of_cover _ _ _ _ _ (covC9 c _ _ _ _ _ _ _ _ _ _ _ _ _ _ _ _ _ _ _ _ _ _ _ _ _ _ _ _ _ _ _ _ _ _ _ _ _ _ _ _ _ _ _)
      isplitl [R10]
      · unfold owns; iexists _; isplitr
        swap; · iexact R10
        ipureintro; exact View.read_writes_of_cover _ _ _ _ _ (covC10 c _ _ _ _ _ _ _ _ _ _ _ _ _ _ _ _ _ _ _ _ _ _ _ _ _ _ _ _ _ _ _ _ _ _ _ _ _ _ _ _ _ _ _)
      iexact R11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact R8

set_option maxHeartbeats 1600000 in
/-- The body at point 3. -/
theorem sound3 (c : Dev nD) :
    bodyPre m c t0_3 ⊢ wp frame (wpE (defs₀ (F := F)) Variants.none c none) Set.univ (bodyAt0 t0_3) (fun _ => bodyPost m c t0_3) := by
  unfold bodyPre bodyPost bodyAt0
  simp only [before0, before1, before2, before3, before4, before5, before6]
  rw [show (dats m 0 c).owesAt () (t0_3 : Fin cfg0.N).succ = (dats m 0 c).owesAt () (t0_3 : Fin cfg0.N).castSucc from rfl]
  rw [show (dats m 0 c).Φ (t0_3 : Fin cfg0.N).succ = PhiS m c 4 from rfl, show (dats m 0 c).Φ (t0_3 : Fin cfg0.N).castSucc = PhiS m c 3 from rfl]
  rw [leaves0, leaves1, leaves2, leaves3, leaves4, leaves5, leaves6]
  rw [Dat.leavesExact_idle (dats m 0 c) 7 t0_3 (idle_lt _ (by decide)) (flush_ne _ (by decide))]
  simp only [before7_early' m c t0_3 (by decide)]
  rw [PhiS_3, PhiS_4]
  unfold G3 U3
  unfold outD9 outD10
  iintro ⟨⟨⟨HG, HU, HH⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runD c (grid0.coords t0_3) (ms0 t0_3) (hs0 t0_3) (ms1 t0_3) (hs1 t0_3) (ms2 t0_3) (hs2 t0_3) (ms3 t0_3) (hs3 t0_3) (ms4 t0_3) (hs4 t0_3) (ms5 t0_3) (hs5 t0_3) (ms6 t0_3) (hs6 t0_3) (ms7 t0_3) (hs7 t0_3) scG (Memref.isWhole_whole _) scU (Memref.isWhole_whole _) scH (Memref.isWhole_whole _) (fun hh => absurd ((hcond0 t0_3).mp hh) (by decide)) (fun hh => absurd ((hcond1 t0_3).mp hh) (by decide)) (fun hh => absurd ((hcond2 t0_3).mp hh) (by decide)) ((hcond3 t0_3).mpr (by decide)) (fun hh => absurd ((hcond4 t0_3).mp hh) (by decide)) (fun hh => absurd ((hcond5 t0_3).mp hh) (by decide)) (fun hh => absurd ((hcond6 t0_3).mp hh) (by decide)) (fun hh => absurd ((hcond7 t0_3).mp hh) (by decide)) (fun hh => absurd ((hcond8 t0_3).mp hh) (by decide)) (fun hh => absurd ((hcond9 t0_3).mp hh) (by decide)) (fun hh => absurd ((hcond10 t0_3).mp hh) (by decide)) (iblk m c 0 t0_3) (iblk m c 1 t0_3) (iblk m c 2 t0_3) (iblk m c 3 t0_3) (iblk m c 4 t0_3) (iblk m c 5 t0_3) (iblk m c 6 t0_3) (G2 m c) (U2 m c)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HG]; · iexact HG
  isplitl [HU]; · iexact HU
  isplitl [HH]; · iexact HH
  iintro ⟨H0, H1, H2, H3, H4, H5, H6, R8, ⟨%eR9, R9⟩, ⟨%eR10, R10⟩, R11⟩
  isplitl [R9 R10 R11 Hg]
  · isplitl [R9 R10 R11]
    · isplitl [R9]
      · unfold owns; iexists _; isplitr
        swap; · iexact R9
        ipureintro; exact View.read_writes_of_cover _ _ _ _ _ (covD9 c _ _ _ _ _ _ _ _ _ _ _ _ _ _ _ _ _ _ _ _ _ _ _ _ _ _ _ _ _ _ _ _ _ _ _ _ _ _ _ _ _ _ _)
      isplitl [R10]
      · unfold owns; iexists _; isplitr
        swap; · iexact R10
        ipureintro; exact View.read_writes_of_cover _ _ _ _ _ (covD10 c _ _ _ _ _ _ _ _ _ _ _ _ _ _ _ _ _ _ _ _ _ _ _ _ _ _ _ _ _ _ _ _ _ _ _ _ _ _ _ _ _ _ _)
      iexact R11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact R8

set_option maxHeartbeats 1600000 in
/-- The body at point 4. -/
theorem sound4 (c : Dev nD) :
    bodyPre m c t0_4 ⊢ wp frame (wpE (defs₀ (F := F)) Variants.none c none) Set.univ (bodyAt0 t0_4) (fun _ => bodyPost m c t0_4) := by
  unfold bodyPre bodyPost bodyAt0
  simp only [before0, before1, before2, before3, before4, before5, before6]
  rw [show (dats m 0 c).owesAt () (t0_4 : Fin cfg0.N).succ = (dats m 0 c).owesAt () (t0_4 : Fin cfg0.N).castSucc from rfl]
  rw [show (dats m 0 c).Φ (t0_4 : Fin cfg0.N).succ = PhiS m c 5 from rfl, show (dats m 0 c).Φ (t0_4 : Fin cfg0.N).castSucc = PhiS m c 4 from rfl]
  rw [leaves0, leaves1, leaves2, leaves3, leaves4, leaves5, leaves6]
  rw [Dat.leavesExact_idle (dats m 0 c) 7 t0_4 (idle_lt _ (by decide)) (flush_ne _ (by decide))]
  simp only [before7_early' m c t0_4 (by decide)]
  rw [PhiS_4, PhiS_5]
  unfold G4 U4
  unfold outE9 outE10
  iintro ⟨⟨⟨HG, HU, HH⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runE c (grid0.coords t0_4) (ms0 t0_4) (hs0 t0_4) (ms1 t0_4) (hs1 t0_4) (ms2 t0_4) (hs2 t0_4) (ms3 t0_4) (hs3 t0_4) (ms4 t0_4) (hs4 t0_4) (ms5 t0_4) (hs5 t0_4) (ms6 t0_4) (hs6 t0_4) (ms7 t0_4) (hs7 t0_4) scG (Memref.isWhole_whole _) scU (Memref.isWhole_whole _) scH (Memref.isWhole_whole _) (fun hh => absurd ((hcond0 t0_4).mp hh) (by decide)) (fun hh => absurd ((hcond1 t0_4).mp hh) (by decide)) (fun hh => absurd ((hcond2 t0_4).mp hh) (by decide)) (fun hh => absurd ((hcond3 t0_4).mp hh) (by decide)) ((hcond4 t0_4).mpr (by decide)) (fun hh => absurd ((hcond5 t0_4).mp hh) (by decide)) (fun hh => absurd ((hcond6 t0_4).mp hh) (by decide)) (fun hh => absurd ((hcond7 t0_4).mp hh) (by decide)) (fun hh => absurd ((hcond8 t0_4).mp hh) (by decide)) (fun hh => absurd ((hcond9 t0_4).mp hh) (by decide)) (fun hh => absurd ((hcond10 t0_4).mp hh) (by decide)) (iblk m c 0 t0_4) (iblk m c 1 t0_4) (iblk m c 2 t0_4) (iblk m c 3 t0_4) (iblk m c 4 t0_4) (iblk m c 5 t0_4) (iblk m c 6 t0_4) (G3 m c) (U3 m c)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HG]; · iexact HG
  isplitl [HU]; · iexact HU
  isplitl [HH]; · iexact HH
  iintro ⟨H0, H1, H2, H3, H4, H5, H6, R8, ⟨%eR9, R9⟩, ⟨%eR10, R10⟩, R11⟩
  isplitl [R9 R10 R11 Hg]
  · isplitl [R9 R10 R11]
    · isplitl [R9]
      · unfold owns; iexists _; isplitr
        swap; · iexact R9
        ipureintro; exact View.read_writes_of_cover _ _ _ _ _ (covE9 c _ _ _ _ _ _ _ _ _ _ _ _ _ _ _ _ _ _ _ _ _ _ _ _ _ _ _ _ _ _ _ _ _ _ _ _ _ _ _ _ _ _ _)
      isplitl [R10]
      · unfold owns; iexists _; isplitr
        swap; · iexact R10
        ipureintro; exact View.read_writes_of_cover _ _ _ _ _ (covE10 c _ _ _ _ _ _ _ _ _ _ _ _ _ _ _ _ _ _ _ _ _ _ _ _ _ _ _ _ _ _ _ _ _ _ _ _ _ _ _ _ _ _ _)
      iexact R11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact R8

set_option maxHeartbeats 1600000 in
/-- The body at point 5. -/
theorem sound5 (c : Dev nD) :
    bodyPre m c t0_5 ⊢ wp frame (wpE (defs₀ (F := F)) Variants.none c none) Set.univ (bodyAt0 t0_5) (fun _ => bodyPost m c t0_5) := by
  unfold bodyPre bodyPost bodyAt0
  simp only [before0, before1, before2, before3, before4, before5, before6]
  rw [show (dats m 0 c).owesAt () (t0_5 : Fin cfg0.N).succ = (dats m 0 c).owesAt () (t0_5 : Fin cfg0.N).castSucc from rfl]
  rw [show (dats m 0 c).Φ (t0_5 : Fin cfg0.N).succ = PhiS m c 6 from rfl, show (dats m 0 c).Φ (t0_5 : Fin cfg0.N).castSucc = PhiS m c 5 from rfl]
  rw [leaves0, leaves1, leaves2, leaves3, leaves4, leaves5, leaves6]
  rw [Dat.leavesExact_idle (dats m 0 c) 7 t0_5 (idle_lt _ (by decide)) (flush_ne _ (by decide))]
  simp only [before7_early' m c t0_5 (by decide)]
  rw [PhiS_5, PhiS_6]
  unfold H5
  unfold outF11
  iintro ⟨⟨⟨HG, HU, HH⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runF c (grid0.coords t0_5) (ms0 t0_5) (hs0 t0_5) (ms1 t0_5) (hs1 t0_5) (ms2 t0_5) (hs2 t0_5) (ms3 t0_5) (hs3 t0_5) (ms4 t0_5) (hs4 t0_5) (ms5 t0_5) (hs5 t0_5) (ms6 t0_5) (hs6 t0_5) (ms7 t0_5) (hs7 t0_5) scG (Memref.isWhole_whole _) scU (Memref.isWhole_whole _) scH (Memref.isWhole_whole _) (fun hh => absurd ((hcond0 t0_5).mp hh) (by decide)) (fun hh => absurd ((hcond1 t0_5).mp hh) (by decide)) (fun hh => absurd ((hcond2 t0_5).mp hh) (by decide)) (fun hh => absurd ((hcond3 t0_5).mp hh) (by decide)) (fun hh => absurd ((hcond4 t0_5).mp hh) (by decide)) ((hcond5 t0_5).mpr (by decide)) (fun hh => absurd ((hcond6 t0_5).mp hh) (by decide)) (fun hh => absurd ((hcond7 t0_5).mp hh) (by decide)) (fun hh => absurd ((hcond8 t0_5).mp hh) (by decide)) (fun hh => absurd ((hcond9 t0_5).mp hh) (by decide)) (fun hh => absurd ((hcond10 t0_5).mp hh) (by decide)) (iblk m c 0 t0_5) (iblk m c 1 t0_5) (iblk m c 2 t0_5) (iblk m c 3 t0_5) (iblk m c 4 t0_5) (iblk m c 5 t0_5) (iblk m c 6 t0_5) (G4 m c) (U4 m c)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HG]; · iexact HG
  isplitl [HU]; · iexact HU
  isplitl [HH]; · iexact HH
  iintro ⟨H0, H1, H2, H3, H4, H5, H6, R8, ⟨%eR9, R9⟩, ⟨%eR10, R10⟩, ⟨%eR11, R11⟩⟩
  isplitl [R9 R10 R11 Hg]
  · isplitl [R9 R10 R11]
    · isplitl [R9]
      · iexists _; unfold owns; iexists _; isplitr
        swap; · iexact R9
        ipureintro; rfl
      isplitl [R10]
      · iexists _; unfold owns; iexists _; isplitr
        swap; · iexact R10
        ipureintro; rfl
      unfold owns; iexists _; isplitr
      swap; · iexact R11
      ipureintro; exact View.read_writes_of_cover _ _ _ _ _ (covF11 c _ _ _ _ _ _ _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact R8

set_option maxHeartbeats 1600000 in
/-- The body at point 6. -/
theorem sound6 (c : Dev nD) :
    bodyPre m c t0_6 ⊢ wp frame (wpE (defs₀ (F := F)) Variants.none c none) Set.univ (bodyAt0 t0_6) (fun _ => bodyPost m c t0_6) := by
  unfold bodyPre bodyPost bodyAt0
  simp only [before0, before1, before2, before3, before4, before5, before6]
  rw [show (dats m 0 c).owesAt () (t0_6 : Fin cfg0.N).succ = (dats m 0 c).owesAt () (t0_6 : Fin cfg0.N).castSucc from rfl]
  rw [show (dats m 0 c).Φ (t0_6 : Fin cfg0.N).succ = PhiS m c 7 from rfl, show (dats m 0 c).Φ (t0_6 : Fin cfg0.N).castSucc = PhiS m c 6 from rfl]
  rw [leaves0, leaves1, leaves2, leaves3, leaves4, leaves5, leaves6]
  rw [leaves7_live m c t0_6 (by decide)]
  simp only [before7_early' m c t0_6 (by decide)]
  rw [show (t0_6 : Fin cfg0.N).val = 6 from rfl, outAt_6]
  rw [PhiS_6, PhiS_7]
  unfold O6
  unfold outG8
  iintro ⟨⟨⟨HG, HU, HH⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runG c (grid0.coords t0_6) (ms0 t0_6) (hs0 t0_6) (ms1 t0_6) (hs1 t0_6) (ms2 t0_6) (hs2 t0_6) (ms3 t0_6) (hs3 t0_6) (ms4 t0_6) (hs4 t0_6) (ms5 t0_6) (hs5 t0_6) (ms6 t0_6) (hs6 t0_6) (ms7 t0_6) (hs7 t0_6) scG (Memref.isWhole_whole _) scU (Memref.isWhole_whole _) scH (Memref.isWhole_whole _) (fun hh => absurd ((hcond0 t0_6).mp hh) (by decide)) (fun hh => absurd ((hcond1 t0_6).mp hh) (by decide)) (fun hh => absurd ((hcond2 t0_6).mp hh) (by decide)) (fun hh => absurd ((hcond3 t0_6).mp hh) (by decide)) (fun hh => absurd ((hcond4 t0_6).mp hh) (by decide)) (fun hh => absurd ((hcond5 t0_6).mp hh) (by decide)) ((hcond6 t0_6).mpr (by decide)) (fun hh => absurd ((hcond7 t0_6).mp hh) (by decide)) (fun hh => absurd ((hcond8 t0_6).mp hh) (by decide)) (fun hh => absurd ((hcond9 t0_6).mp hh) (by decide)) (fun hh => absurd ((hcond10 t0_6).mp hh) (by decide)) (iblk m c 0 t0_6) (iblk m c 1 t0_6) (iblk m c 2 t0_6) (iblk m c 3 t0_6) (iblk m c 4 t0_6) (iblk m c 5 t0_6) (iblk m c 6 t0_6) (H5 m c)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HG]; · iexact HG
  isplitl [HU]; · iexact HU
  isplitl [HH]; · iexact HH
  iintro ⟨H0, H1, H2, H3, H4, H5, H6, ⟨%eR8, R8⟩, R9, R10, R11⟩
  isplitl [R9 R10 R11 Hg]
  · isplitl [R9 R10 R11]
    · isplitl [R9]
      · iexact R9
      isplitl [R10]
      · iexact R10
      iexact R11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact R8
  ipureintro; exact View.read_writes_of_cover _ _ _ _ _ (covG8 c _ _ _ _ _ _ _ _ _ _ _ _ _ _ _ _ _ _ _ _ _ _ _ _ _ _ _ _ _ _ _ _ _ _ _ _ _ _ _ _ _ _)

set_option maxHeartbeats 1600000 in
/-- The body at point 7. -/
theorem sound7 (c : Dev nD) :
    bodyPre m c t0_7 ⊢ wp frame (wpE (defs₀ (F := F)) Variants.none c none) Set.univ (bodyAt0 t0_7) (fun _ => bodyPost m c t0_7) := by
  unfold bodyPre bodyPost bodyAt0
  simp only [before0, before1, before2, before3, before4, before5, before6]
  rw [show (dats m 0 c).owesAt () (t0_7 : Fin cfg0.N).succ = (dats m 0 c).owesAt () (t0_7 : Fin cfg0.N).castSucc from rfl]
  rw [show (dats m 0 c).Φ (t0_7 : Fin cfg0.N).succ = PhiS m c 8 from rfl, show (dats m 0 c).Φ (t0_7 : Fin cfg0.N).castSucc = PhiS m c 7 from rfl]
  rw [leaves0, leaves1, leaves2, leaves3, leaves4, leaves5, leaves6]
  rw [leaves7_live m c t0_7 (by decide)]
  simp only [before7_late m c t0_7 (by decide)]
  rw [show (t0_7 : Fin cfg0.N).val - 1 = 6 from rfl, show (t0_7 : Fin cfg0.N).val = 7 from rfl, outAt_6, outAt_7]
  rw [PhiS_7, PhiS_8]
  unfold O7
  unfold outH8
  iintro ⟨⟨⟨HG, HU, HH⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runH c (grid0.coords t0_7) (ms0 t0_7) (hs0 t0_7) (ms1 t0_7) (hs1 t0_7) (ms2 t0_7) (hs2 t0_7) (ms3 t0_7) (hs3 t0_7) (ms4 t0_7) (hs4 t0_7) (ms5 t0_7) (hs5 t0_7) (ms6 t0_7) (hs6 t0_7) (ms7 t0_7) (hs7 t0_7) scG (Memref.isWhole_whole _) scU (Memref.isWhole_whole _) scH (Memref.isWhole_whole _) (fun hh => absurd ((hcond0 t0_7).mp hh) (by decide)) (fun hh => absurd ((hcond1 t0_7).mp hh) (by decide)) (fun hh => absurd ((hcond2 t0_7).mp hh) (by decide)) (fun hh => absurd ((hcond3 t0_7).mp hh) (by decide)) (fun hh => absurd ((hcond4 t0_7).mp hh) (by decide)) (fun hh => absurd ((hcond5 t0_7).mp hh) (by decide)) (fun hh => absurd ((hcond6 t0_7).mp hh) (by decide)) ((hcond7 t0_7).mpr (by decide)) (fun hh => absurd ((hcond8 t0_7).mp hh) (by decide)) (fun hh => absurd ((hcond9 t0_7).mp hh) (by decide)) (fun hh => absurd ((hcond10 t0_7).mp hh) (by decide)) (iblk m c 0 t0_7) (iblk m c 1 t0_7) (iblk m c 2 t0_7) (iblk m c 3 t0_7) (iblk m c 4 t0_7) (iblk m c 5 t0_7) (iblk m c 6 t0_7) (O6 m c) (H5 m c)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HG]; · iexact HG
  isplitl [HU]; · iexact HU
  isplitl [HH]; · iexact HH
  iintro ⟨H0, H1, H2, H3, H4, H5, H6, ⟨%eR8, R8⟩, R9, R10, R11⟩
  isplitl [R9 R10 R11 Hg]
  · isplitl [R9 R10 R11]
    · isplitl [R9]
      · iexact R9
      isplitl [R10]
      · iexact R10
      iexact R11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact R8
  ipureintro; exact View.read_writes_of_cover _ _ _ _ _ (covH8 c _ _ _ _ _ _ _ _ _ _ _ _ _ _ _ _ _ _ _ _ _ _ _ _ _ _ _ _ _ _ _ _ _ _ _ _ _ _ _ _ _ _ _)

set_option maxHeartbeats 1600000 in
/-- The body at point 8. -/
theorem sound8 (c : Dev nD) :
    bodyPre m c t0_8 ⊢ wp frame (wpE (defs₀ (F := F)) Variants.none c none) Set.univ (bodyAt0 t0_8) (fun _ => bodyPost m c t0_8) := by
  unfold bodyPre bodyPost bodyAt0
  simp only [before0, before1, before2, before3, before4, before5, before6]
  rw [show (dats m 0 c).owesAt () (t0_8 : Fin cfg0.N).succ = (dats m 0 c).owesAt () (t0_8 : Fin cfg0.N).castSucc from rfl]
  rw [show (dats m 0 c).Φ (t0_8 : Fin cfg0.N).succ = PhiS m c 9 from rfl, show (dats m 0 c).Φ (t0_8 : Fin cfg0.N).castSucc = PhiS m c 8 from rfl]
  rw [leaves0, leaves1, leaves2, leaves3, leaves4, leaves5, leaves6]
  rw [leaves7_live m c t0_8 (by decide)]
  simp only [before7_late m c t0_8 (by decide)]
  rw [show (t0_8 : Fin cfg0.N).val - 1 = 7 from rfl, show (t0_8 : Fin cfg0.N).val = 8 from rfl, outAt_7, outAt_8]
  rw [PhiS_8, PhiS_9]
  unfold O8
  unfold outI8
  iintro ⟨⟨⟨HG, HU, HH⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runI c (grid0.coords t0_8) (ms0 t0_8) (hs0 t0_8) (ms1 t0_8) (hs1 t0_8) (ms2 t0_8) (hs2 t0_8) (ms3 t0_8) (hs3 t0_8) (ms4 t0_8) (hs4 t0_8) (ms5 t0_8) (hs5 t0_8) (ms6 t0_8) (hs6 t0_8) (ms7 t0_8) (hs7 t0_8) scG (Memref.isWhole_whole _) scU (Memref.isWhole_whole _) scH (Memref.isWhole_whole _) (fun hh => absurd ((hcond0 t0_8).mp hh) (by decide)) (fun hh => absurd ((hcond1 t0_8).mp hh) (by decide)) (fun hh => absurd ((hcond2 t0_8).mp hh) (by decide)) (fun hh => absurd ((hcond3 t0_8).mp hh) (by decide)) (fun hh => absurd ((hcond4 t0_8).mp hh) (by decide)) (fun hh => absurd ((hcond5 t0_8).mp hh) (by decide)) (fun hh => absurd ((hcond6 t0_8).mp hh) (by decide)) (fun hh => absurd ((hcond7 t0_8).mp hh) (by decide)) ((hcond8 t0_8).mpr (by decide)) (fun hh => absurd ((hcond9 t0_8).mp hh) (by decide)) (fun hh => absurd ((hcond10 t0_8).mp hh) (by decide)) (iblk m c 0 t0_8) (iblk m c 1 t0_8) (iblk m c 2 t0_8) (iblk m c 3 t0_8) (iblk m c 4 t0_8) (iblk m c 5 t0_8) (iblk m c 6 t0_8) (O7 m c) (H5 m c)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HG]; · iexact HG
  isplitl [HU]; · iexact HU
  isplitl [HH]; · iexact HH
  iintro ⟨H0, H1, H2, H3, H4, H5, H6, ⟨%eR8, R8⟩, R9, R10, R11⟩
  isplitl [R9 R10 R11 Hg]
  · isplitl [R9 R10 R11]
    · isplitl [R9]
      · iexact R9
      isplitl [R10]
      · iexact R10
      iexact R11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact R8
  ipureintro; exact View.read_writes_of_cover _ _ _ _ _ (covI8 c _ _ _ _ _ _ _ _ _ _ _ _ _ _ _ _ _ _ _ _ _ _ _ _ _ _ _ _ _ _ _ _ _ _ _ _ _ _ _ _ _ _ _)

set_option maxHeartbeats 1600000 in
/-- The body at point 9. -/
theorem sound9 (c : Dev nD) :
    bodyPre m c t0_9 ⊢ wp frame (wpE (defs₀ (F := F)) Variants.none c none) Set.univ (bodyAt0 t0_9) (fun _ => bodyPost m c t0_9) := by
  unfold bodyPre bodyPost bodyAt0
  simp only [before0, before1, before2, before3, before4, before5, before6]
  rw [show (dats m 0 c).owesAt () (t0_9 : Fin cfg0.N).succ = (dats m 0 c).owesAt () (t0_9 : Fin cfg0.N).castSucc from rfl]
  rw [show (dats m 0 c).Φ (t0_9 : Fin cfg0.N).succ = PhiS m c 10 from rfl, show (dats m 0 c).Φ (t0_9 : Fin cfg0.N).castSucc = PhiS m c 9 from rfl]
  rw [leaves0, leaves1, leaves2, leaves3, leaves4, leaves5, leaves6]
  rw [leaves7_live m c t0_9 (by decide)]
  simp only [before7_late m c t0_9 (by decide)]
  rw [show (t0_9 : Fin cfg0.N).val - 1 = 8 from rfl, show (t0_9 : Fin cfg0.N).val = 9 from rfl, outAt_8, outAt_9]
  rw [PhiS_9, PhiS_10]
  unfold O9
  unfold outJ8
  iintro ⟨⟨⟨HG, HU, HH⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runJ c (grid0.coords t0_9) (ms0 t0_9) (hs0 t0_9) (ms1 t0_9) (hs1 t0_9) (ms2 t0_9) (hs2 t0_9) (ms3 t0_9) (hs3 t0_9) (ms4 t0_9) (hs4 t0_9) (ms5 t0_9) (hs5 t0_9) (ms6 t0_9) (hs6 t0_9) (ms7 t0_9) (hs7 t0_9) scG (Memref.isWhole_whole _) scU (Memref.isWhole_whole _) scH (Memref.isWhole_whole _) (fun hh => absurd ((hcond0 t0_9).mp hh) (by decide)) (fun hh => absurd ((hcond1 t0_9).mp hh) (by decide)) (fun hh => absurd ((hcond2 t0_9).mp hh) (by decide)) (fun hh => absurd ((hcond3 t0_9).mp hh) (by decide)) (fun hh => absurd ((hcond4 t0_9).mp hh) (by decide)) (fun hh => absurd ((hcond5 t0_9).mp hh) (by decide)) (fun hh => absurd ((hcond6 t0_9).mp hh) (by decide)) (fun hh => absurd ((hcond7 t0_9).mp hh) (by decide)) (fun hh => absurd ((hcond8 t0_9).mp hh) (by decide)) ((hcond9 t0_9).mpr (by decide)) (fun hh => absurd ((hcond10 t0_9).mp hh) (by decide)) (iblk m c 0 t0_9) (iblk m c 1 t0_9) (iblk m c 2 t0_9) (iblk m c 3 t0_9) (iblk m c 4 t0_9) (iblk m c 5 t0_9) (iblk m c 6 t0_9) (O8 m c) (H5 m c)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HG]; · iexact HG
  isplitl [HU]; · iexact HU
  isplitl [HH]; · iexact HH
  iintro ⟨H0, H1, H2, H3, H4, H5, H6, ⟨%eR8, R8⟩, R9, R10, R11⟩
  isplitl [R9 R10 R11 Hg]
  · isplitl [R9 R10 R11]
    · isplitl [R9]
      · iexact R9
      isplitl [R10]
      · iexact R10
      iexact R11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact R8
  ipureintro; exact View.read_writes_of_cover _ _ _ _ _ (covJ8 c _ _ _ _ _ _ _ _ _ _ _ _ _ _ _ _ _ _ _ _ _ _ _ _ _ _ _ _ _ _ _ _ _ _ _ _ _ _ _ _ _ _ _)

set_option maxHeartbeats 1600000 in
/-- The body at point 10. -/
theorem sound10 (c : Dev nD) :
    bodyPre m c t0_10 ⊢ wp frame (wpE (defs₀ (F := F)) Variants.none c none) Set.univ (bodyAt0 t0_10) (fun _ => bodyPost m c t0_10) := by
  unfold bodyPre bodyPost bodyAt0
  simp only [before0, before1, before2, before3, before4, before5, before6]
  rw [show (dats m 0 c).owesAt () (t0_10 : Fin cfg0.N).succ = (dats m 0 c).owesAt () (t0_10 : Fin cfg0.N).castSucc from rfl]
  rw [show (dats m 0 c).Φ (t0_10 : Fin cfg0.N).succ = PhiS m c 11 from rfl, show (dats m 0 c).Φ (t0_10 : Fin cfg0.N).castSucc = PhiS m c 10 from rfl]
  rw [leaves0, leaves1, leaves2, leaves3, leaves4, leaves5, leaves6]
  rw [leaves7_live m c t0_10 (by decide)]
  simp only [before7_late m c t0_10 (by decide)]
  rw [show (t0_10 : Fin cfg0.N).val - 1 = 9 from rfl, show (t0_10 : Fin cfg0.N).val = 10 from rfl, outAt_9, outAt_10]
  rw [PhiS_10, PhiS_11]
  unfold O10
  unfold outK8
  iintro ⟨⟨⟨HG, HU, HH⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runK c (grid0.coords t0_10) (ms0 t0_10) (hs0 t0_10) (ms1 t0_10) (hs1 t0_10) (ms2 t0_10) (hs2 t0_10) (ms3 t0_10) (hs3 t0_10) (ms4 t0_10) (hs4 t0_10) (ms5 t0_10) (hs5 t0_10) (ms6 t0_10) (hs6 t0_10) (ms7 t0_10) (hs7 t0_10) scG (Memref.isWhole_whole _) scU (Memref.isWhole_whole _) scH (Memref.isWhole_whole _) (fun hh => absurd ((hcond0 t0_10).mp hh) (by decide)) (fun hh => absurd ((hcond1 t0_10).mp hh) (by decide)) (fun hh => absurd ((hcond2 t0_10).mp hh) (by decide)) (fun hh => absurd ((hcond3 t0_10).mp hh) (by decide)) (fun hh => absurd ((hcond4 t0_10).mp hh) (by decide)) (fun hh => absurd ((hcond5 t0_10).mp hh) (by decide)) (fun hh => absurd ((hcond6 t0_10).mp hh) (by decide)) (fun hh => absurd ((hcond7 t0_10).mp hh) (by decide)) (fun hh => absurd ((hcond8 t0_10).mp hh) (by decide)) (fun hh => absurd ((hcond9 t0_10).mp hh) (by decide)) ((hcond10 t0_10).mpr (by decide)) (iblk m c 0 t0_10) (iblk m c 1 t0_10) (iblk m c 2 t0_10) (iblk m c 3 t0_10) (iblk m c 4 t0_10) (iblk m c 5 t0_10) (iblk m c 6 t0_10) (O9 m c) (H5 m c)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HG]; · iexact HG
  isplitl [HU]; · iexact HU
  isplitl [HH]; · iexact HH
  iintro ⟨H0, H1, H2, H3, H4, H5, H6, ⟨%eR8, R8⟩, R9, R10, R11⟩
  isplitl [R9 R10 R11 Hg]
  · isplitl [R9 R10 R11]
    · isplitl [R9]
      · iexact R9
      isplitl [R10]
      · iexact R10
      iexact R11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact R8
  ipureintro; exact View.read_writes_of_cover _ _ _ _ _ (covK8 c _ _ _ _ _ _ _ _ _ _ _ _ _ _ _ _ _ _ _ _ _ _ _ _ _ _ _ _ _ _ _ _ _ _ _ _ _ _ _ _ _ _ _)

/-- The library's body obligation, at every point: the grid's eleven points one by one. -/
theorem body_obligation (c : Dev nD) : BodyObligation (dats (F := F) m 0 c) (defs₀ (F := F)) Variants.none () Set.univ := fun t => by
  rw [bigSep_W0, bigSep_W0]
  show bodyPre m c t ⊢ wp frame (wpE (defs₀ (F := F)) Variants.none c none) Set.univ (bodyAt0 t) (fun _ => bodyPost m c t)
  rcases fin_N0 t with rfl | rfl | rfl | rfl | rfl | rfl | rfl | rfl | rfl | rfl | rfl
  · exact sound0 m c
  · exact sound1 m c
  · exact sound2 m c
  · exact sound3 m c
  · exact sound4 m c
  · exact sound5 m c
  · exact sound6 m c
  · exact sound7 m c
  · exact sound8 m c
  · exact sound9 m c
  · exact sound10 m c

/-- What the launch hands the region is the invariant before the first point. -/
theorem hin (c : Dev nD) : Pipeline.ΦA spec0 c ⊢ (dats m 0 c).Φ 0 := by
  rw [show (dats m 0 c).Φ 0 = Pipeline.ΦA spec0 c from rfl]

/-- After the last point the invariant gives the class invariant back: the gated activation's contents forgotten. -/
theorem hout (c : Dev nD) : (dats m 0 c).Φ (Fin.last cfg0.N) ⊢ Pipeline.ΦA spec0 c := by
  rw [show (dats m 0 c).Φ (Fin.last cfg0.N) = PhiS m c 11 from rfl, PhiA_eq, PhiS_11]
  iintro ⟨⟨HG, HU, HH⟩, Hg⟩
  isplitl [HG HU HH]
  · isplitl [HG]; · iexact HG
    isplitl [HU]; · iexact HU
    iexists _; iexact HH
  iexact Hg

/-! ## The run and the frame -/

set_option backward.isDefEq.respectTransparency.types false in
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every weakly fair execution terminates without a fault and leaves the argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Body

end
-- ==== Proof.BodyKI.Shared.lean ====
/-
  The kernel body's setting, shared by the eleven steps of the grid.

  The grid has eleven points. At point k < 6 the body multiplies columns [480k, 480k+480) of the resident
  activation block by the k-th row slab of the gate and of the up weights and adds the products into two
  accumulators kept in scratch (point 0 stores instead of adding); point 5 also adds the biases, clips, and
  stores the gated activation h into a third scratch. At point 6 + j the body multiplies columns
  [576j, 576j+576) of h by the j-th row slab of the down weights and adds the product into the output block
  (point 6 stores the product plus the bias). Exactly one branch is taken at each point: the conditions are
  decided over the grid here, once.
-/
import proofs.«128237_g74105365725337_cont_9to1c4b_446_16_alg».proof.Proof.Gen.KernelIdeal.Frame
import proofs.«128237_g74105365725337_cont_9to1c4b_446_16_alg».proof.Proof.Gen.KernelIdeal.Skeleton
import proofs.«128237_g74105365725337_cont_9to1c4b_446_16_alg».proof.Proof.Gen.KernelIdeal.Points
import proofs.«128237_g74105365725337_cont_9to1c4b_446_16_alg».proof.Proof.Gen.KernelIdeal.Launch
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, decided over the grid -/

/-- The condition of the branch for step 0: the grid coordinate equals 0. -/
abbrev cond0 (i : grid0.Coords) : Prop := (Scalar.cmpi .ne (Scalar.extui (Scalar.cmpi .eq (BitVec.ofNat 32 (i 0).val) 0#32)) 0#32) = 1#1
theorem hcond0 : ∀ t : Fin cfg0.N, cond0 (grid0.coords t) ↔ t.val % 11 = 0 :=
  (by decide +kernel : ∀ t : Fin grid0.N, cond0 (grid0.coords t) ↔ t.val % 11 = 0)

/-- The condition of the branch for step 1: the grid coordinate equals 1. -/
abbrev cond1 (i : grid0.Coords) : Prop := (Scalar.cmpi .ne (Scalar.extui (Scalar.cmpi .eq (BitVec.ofNat 32 (i 0).val) 1#32)) 0#32) = 1#1
theorem hcond1 : ∀ t : Fin cfg0.N, cond1 (grid0.coords t) ↔ t.val % 11 = 1 :=
  (by decide +kernel : ∀ t : Fin grid0.N, cond1 (grid0.coords t) ↔ t.val % 11 = 1)

/-- The condition of the branch for step 2: the grid coordinate equals 2. -/
abbrev cond2 (i : grid0.Coords) : Prop := (Scalar.cmpi .ne (Scalar.extui (Scalar.cmpi .eq (BitVec.ofNat 32 (i 0).val) 2#32)) 0#32) = 1#1
theorem hcond2 : ∀ t : Fin cfg0.N, cond2 (grid0.coords t) ↔ t.val % 11 = 2 :=
  (by decide +kernel : ∀ t : Fin grid0.N, cond2 (grid0.coords t) ↔ t.val % 11 = 2)

/-- The condition of the branch for step 3: the grid coordinate equals 3. -/
abbrev cond3 (i : grid0.Coords) : Prop := (Scalar.cmpi .ne (Scalar.extui (Scalar.cmpi .eq (BitVec.ofNat 32 (i 0).val) 3#32)) 0#32) = 1#1
theorem hcond3 : ∀ t : Fin cfg0.N, cond3 (grid0.coords t) ↔ t.val % 11 = 3 :=
  (by decide +kernel : ∀ t : Fin grid0.N, cond3 (grid0.coords t) ↔ t.val % 11 = 3)

/-- The condition of the branch for step 4: the grid coordinate equals 4. -/
abbrev cond4 (i : grid0.Coords) : Prop := (Scalar.cmpi .ne (Scalar.extui (Scalar.cmpi .eq (BitVec.ofNat 32 (i 0).val) 4#32)) 0#32) = 1#1
theorem hcond4 : ∀ t : Fin cfg0.N, cond4 (grid0.coords t) ↔ t.val % 11 = 4 :=
  (by decide +kernel : ∀ t : Fin grid0.N, cond4 (grid0.coords t) ↔ t.val % 11 = 4)

/-- The condition of the branch for step 5: the grid coordinate equals 5. -/
abbrev cond5 (i : grid0.Coords) : Prop := (Scalar.cmpi .ne (Scalar.extui (Scalar.cmpi .eq (BitVec.ofNat 32 (i 0).val) 5#32)) 0#32) = 1#1
theorem hcond5 : ∀ t : Fin cfg0.N, cond5 (grid0.coords t) ↔ t.val % 11 = 5 :=
  (by decide +kernel : ∀ t : Fin grid0.N, cond5 (grid0.coords t) ↔ t.val % 11 = 5)

/-- The condition of the branch for step 6: the grid coordinate equals 6. -/
abbrev cond6 (i : grid0.Coords) : Prop := k0_cond7 i = 1#1
theorem hcond6 : ∀ t : Fin cfg0.N, cond6 (grid0.coords t) ↔ t.val % 11 = 6 :=
  (by decide +kernel : ∀ t : Fin grid0.N, cond6 (grid0.coords t) ↔ t.val % 11 = 6)

/-- The condition of the branch for step 7: the grid coordinate equals 7. -/
abbrev cond7 (i : grid0.Coords) : Prop := k0_cond8 i = 1#1
theorem hcond7 : ∀ t : Fin cfg0.N, cond7 (grid0.coords t) ↔ t.val % 11 = 7 :=
  (by decide +kernel : ∀ t : Fin grid0.N, cond7 (grid0.coords t) ↔ t.val % 11 = 7)

/-- The condition of the branch for step 8: the grid coordinate equals 8. -/
abbrev cond8 (i : grid0.Coords) : Prop := k0_cond9 i = 1#1
theorem hcond8 : ∀ t : Fin cfg0.N, cond8 (grid0.coords t) ↔ t.val % 11 = 8 :=
  (by decide +kernel : ∀ t : Fin grid0.N, cond8 (grid0.coords t) ↔ t.val % 11 = 8)

/-- The condition of the branch for step 9: the grid coordinate equals 9. -/
abbrev cond9 (i : grid0.Coords) : Prop := k0_cond10 i = 1#1
theorem hcond9 : ∀ t : Fin cfg0.N, cond9 (grid0.coords t) ↔ t.val % 11 = 9 :=
  (by decide +kernel : ∀ t : Fin grid0.N, cond9 (grid0.coords t) ↔ t.val % 11 = 9)

/-- The condition of the branch for step 10: the grid coordinate equals 10. -/
abbrev cond10 (i : grid0.Coords) : Prop := k0_cond11 i = 1#1
theorem hcond10 : ∀ t : Fin cfg0.N, cond10 (grid0.coords t) ↔ t.val % 11 = 10 :=
  (by decide +kernel : ∀ t : Fin grid0.N, cond10 (grid0.coords t) ↔ t.val % 11 = 10)

/-! ## Where the output window is idle -/

/-- The input windows are never idle. -/
theorem live_in : ∀ (w : Fin 8), w.val < 7 → ∀ t : Fin cfg0.N, cfg0.idle w (grid0.coords t) = false := by decide +kernel
/-- The output window is idle exactly at the six points of the first phase, -/
theorem idle_out : ∀ t : Fin cfg0.N, cfg0.idle 7 (grid0.coords t) = decide (t.val < 6) := by decide +kernel
/-- and it is written back at the last point only. -/
theorem flush_out : ∀ t : Fin cfg0.N, (cfg0.win 7).flush t = decide (t.val = 10) := by decide +kernel

/-! ## The memrefs the body is called with -/

abbrev ms0 (t : Fin cfg0.N) : Memref sig .tc .vmem S256x2880 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S480x2880 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S480x2880 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2880 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x2880 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S576x2880 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x2880 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S256x2880 .f32 := win0_7.stage (cfg0.slots t 7)
abbrev hs7 (t : Fin cfg0.N) : (ms7 t).IsWhole := hstage0_7 ((cfg0.slots t 7).cast nbuf0_7)
/-- The three scratch operands: the gate accumulator, the up accumulator, the gated activation. -/
abbrev scG : Memref sig .tc .vmem S256x2880 .f32 := Memref.whole cc0_scratch0
abbrev scU : Memref sig .tc .vmem S256x2880 .f32 := Memref.whole cc0_scratch1
abbrev scH : Memref sig .tc .vmem S256x2880 .f32 := Memref.whole cc0_scratch2
/-- One canonical view of the common shape [256, 2880], through which what the stores leave is read back. -/
abbrev VW : View sig .tc .vmem S256x2880 .f32 := scG.view

/-- The class invariant with the three scratch operands as memrefs owned at some contents. -/
theorem PhiA_eq (c : Dev nD) :
    (Pipeline.ΦA spec0 c : sProp 𝕄)
      = iprop(iprop((∃ d, owns (c : Thread nD τ) scG fullShare d) ∗ (∃ d, owns (c : Thread nD τ) scU fullShare d) ∗ (∃ d, owns (c : Thread nD τ) scH fullShare d)) ∗ (∃ r, prngReg c r)) := by
  unfold Pipeline.ΦA; rw [scopedRest0_eq]; simp only [scG, scU, scH, owns_whole]; try rfl

end Cert.KernelIdeal.Body

end
-- ==== Proof.BodyKI.RunA.lean ====
/-
  The body at grid point 0, run whole: only the branch for step 0 is taken, and it stores the first partial products into the two accumulators.
  A buffer the branch stores into comes back with the stored pieces written (the lists are found by the run);
  a buffer whose contents matter later and that the branch only reads comes back at the contents it was handed;
  the others are handed over and taken back at some contents.
-/
import proofs.«128237_g74105365725337_cont_9to1c4b_446_16_alg».proof.Proof.BodyKI.Shared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runA (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : cond0 i) (hc1 : ¬cond1 i) (hc2 : ¬cond2 i) (hc3 : ¬cond3 i) (hc4 : ¬cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) :
    Σ' (L9 : List (View.Piece (Elt F) S256x2880 .f32)), { L10 : List (View.Piece (Elt F) S256x2880 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ d, owns (c : Thread nD τ) arg11 fullShare d)) -∗ K ⟨⟩))
          ⊢ wp frame (wpE (defs₀ (F := F)) Variants.none c none) E (cc0__mlp_body i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__mlp_body_eq_skeleton]; unfold cc0__mlp_body_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0 | exact hc1 | exact hc2 | exact hc3 | exact hc4 | exact hc5 | exact hc6 | exact hc7 | exact hc8 | exact hc9 | exact hc10)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [H8]; · iexists _; iexact H8
    isplitl [H9]; · iexists _; iexact H9
    iexists _, _; isplitr; swap; · iexact H10
    ipureintro; rfl

end Cert.KernelIdeal.Body

end
-- ==== Proof.BodyKI.RunB.lean ====
/-
  The body at grid point 1, run whole: only the branch for step 1 is taken, and it adds the partial products of slab 1 into the two accumulators.
  A buffer the branch stores into comes back with the stored pieces written (the lists are found by the run);
  a buffer whose contents matter later and that the branch only reads comes back at the contents it was handed;
  the others are handed over and taken back at some contents.
-/
import proofs.«128237_g74105365725337_cont_9to1c4b_446_16_alg».proof.Proof.BodyKI.RunA

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runB (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : cond1 i) (hc2 : ¬cond2 i) (hc3 : ¬cond3 i) (hc4 : ¬cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) :
    Σ' (L9 : List (View.Piece (Elt F) S256x2880 .f32)), { L10 : List (View.Piece (Elt F) S256x2880 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare g ∗ owns (c : Thread nD τ) arg10 fullShare u ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ d, owns (c : Thread nD τ) arg11 fullShare d)) -∗ K ⟨⟩))
          ⊢ wp frame (wpE (defs₀ (F := F)) Variants.none c none) E (cc0__mlp_body i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__mlp_body_eq_skeleton]; unfold cc0__mlp_body_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%d10, %f10, -, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9
    sl_exec (disch := first | exact hc0 | exact hc1 | exact hc2 | exact hc3 | exact hc4 | exact hc5 | exact hc6 | exact hc7 | exact hc8 | exact hc9 | exact hc10)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [H8]; · iexists _; iexact H8
    isplitl [H9]; · iexists _; iexact H9
    iexists _, _; isplitr; swap; · iexact H10
    ipureintro; rfl

end Cert.KernelIdeal.Body

end
-- ==== Proof.BodyKI.RunC.lean ====
/-
  The body at grid point 2, run whole: only the branch for step 2 is taken, and it adds the partial products of slab 2 into the two accumulators.
  A buffer the branch stores into comes back with the stored pieces written (the lists are found by the run);
  a buffer whose contents matter later and that the branch only reads comes back at the contents it was handed;
  the others are handed over and taken back at some contents.
-/
import proofs.«128237_g74105365725337_cont_9to1c4b_446_16_alg».proof.Proof.BodyKI.RunB

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runC (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : cond2 i) (hc3 : ¬cond3 i) (hc4 : ¬cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) :
    Σ' (L9 : List (View.Piece (Elt F) S256x2880 .f32)), { L10 : List (View.Piece (Elt F) S256x2880 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare g ∗ owns (c : Thread nD τ) arg10 fullShare u ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ d, owns (c : Thread nD τ) arg11 fullShare d)) -∗ K ⟨⟩))
          ⊢ wp frame (wpE (defs₀ (F := F)) Variants.none c none) E (cc0__mlp_body i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__mlp_body_eq_skeleton]; unfold cc0__mlp_body_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%d10, %f10, -, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9
    sl_exec (disch := first | exact hc0 | exact hc1 | exact hc2 | exact hc3 | exact hc4 | exact hc5 | exact hc6 | exact hc7 | exact hc8 | exact hc9 | exact hc10)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [H8]; · iexists _; iexact H8
    isplitl [H9]; · iexists _; iexact H9
    iexists _, _; isplitr; swap; · iexact H10
    ipureintro; rfl

end Cert.KernelIdeal.Body

end
-- ==== Proof.BodyKI.RunD.lean ====
/-
  The body at grid point 3, run whole: only the branch for step 3 is taken, and it adds the partial products of slab 3 into the two accumulators.
  A buffer the branch stores into comes back with the stored pieces written (the lists are found by the run);
  a buffer whose contents matter later and that the branch only reads comes back at the contents it was handed;
  the others are handed over and taken back at some contents.
-/
import proofs.«128237_g74105365725337_cont_9to1c4b_446_16_alg».proof.Proof.BodyKI.RunC

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runD (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : cond3 i) (hc4 : ¬cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) :
    Σ' (L9 : List (View.Piece (Elt F) S256x2880 .f32)), { L10 : List (View.Piece (Elt F) S256x2880 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare g ∗ owns (c : Thread nD τ) arg10 fullShare u ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ d, owns (c : Thread nD τ) arg11 fullShare d)) -∗ K ⟨⟩))
          ⊢ wp frame (wpE (defs₀ (F := F)) Variants.none c none) E (cc0__mlp_body i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__mlp_body_eq_skeleton]; unfold cc0__mlp_body_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%d10, %f10, -, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9
    sl_exec (disch := first | exact hc0 | exact hc1 | exact hc2 | exact hc3 | exact hc4 | exact hc5 | exact hc6 | exact hc7 | exact hc8 | exact hc9 | exact hc10)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [H8]; · iexists _; iexact H8
    isplitl [H9]; · iexists _; iexact H9
    iexists _, _; isplitr; swap; · iexact H10
    ipureintro; rfl

end Cert.KernelIdeal.Body

end
-- ==== Proof.BodyKI.RunE.lean ====
/-
  The body at grid point 4, run whole: only the branch for step 4 is taken, and it adds the partial products of slab 4 into the two accumulators.
  A buffer the branch stores into comes back with the stored pieces written (the lists are found by the run);
  a buffer whose contents matter later and that the branch only reads comes back at the contents it was handed;
  the others are handed over and taken back at some contents.
-/
import proofs.«128237_g74105365725337_cont_9to1c4b_446_16_alg».proof.Proof.BodyKI.RunD

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runE (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) :
    Σ' (L9 : List (View.Piece (Elt F) S256x2880 .f32)), { L10 : List (View.Piece (Elt F) S256x2880 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare g ∗ owns (c : Thread nD τ) arg10 fullShare u ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ d, owns (c : Thread nD τ) arg11 fullShare d)) -∗ K ⟨⟩))
          ⊢ wp frame (wpE (defs₀ (F := F)) Variants.none c none) E (cc0__mlp_body i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__mlp_body_eq_skeleton]; unfold cc0__mlp_body_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%d10, %f10, -, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9
    sl_exec (disch := first | exact hc0 | exact hc1 | exact hc2 | exact hc3 | exact hc4 | exact hc5 | exact hc6 | exact hc7 | exact hc8 | exact hc9 | exact hc10)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [H8]; · iexists _; iexact H8
    isplitl [H9]; · iexists _; iexact H9
    iexists _, _; isplitr; swap; · iexact H10
    ipureintro; rfl

end Cert.KernelIdeal.Body

end
-- ==== Proof.BodyKI.RunF.lean ====
/-
  The body at grid point 5, run whole: only the branch for step 5 is taken, and it adds the last partial products into the two accumulators, then stores the gated activation.
  A buffer the branch stores into comes back with the stored pieces written (the lists are found by the run);
  a buffer whose contents matter later and that the branch only reads comes back at the contents it was handed;
  the others are handed over and taken back at some contents.
-/
import proofs.«128237_g74105365725337_cont_9to1c4b_446_16_alg».proof.Proof.BodyKI.RunE

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runF (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : ¬cond4 i) (hc5 : cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) :
    Σ' (L9 : List (View.Piece (Elt F) S256x2880 .f32)) (L10 : List (View.Piece (Elt F) S256x2880 .f32)), { L11 : List (View.Piece (Elt F) S256x2880 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare g ∗ owns (c : Thread nD τ) arg10 fullShare u ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11)) -∗ K ⟨⟩))
          ⊢ wp frame (wpE (defs₀ (F := F)) Variants.none c none) E (cc0__mlp_body i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__mlp_body_eq_skeleton]; unfold cc0__mlp_body_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%d10, %f10, -, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9
    sl_exec (disch := first | exact hc0 | exact hc1 | exact hc2 | exact hc3 | exact hc4 | exact hc5 | exact hc6 | exact hc7 | exact hc8 | exact hc9 | exact hc10)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [H8]; · iexists _; iexact H8
    isplitl [H9]; · iexists _; iexact H9
    iexists _; iexact H10

end Cert.KernelIdeal.Body

end
-- ==== Proof.BodyKI.RunG.lean ====
/-
  The body at grid point 6, run whole: only the branch for step 6 is taken, and it stores the first partial product of the down projection, plus its bias, into the output block.
  A buffer the branch stores into comes back with the stored pieces written (the lists are found by the run);
  a buffer whose contents matter later and that the branch only reads comes back at the contents it was handed;
  the others are handed over and taken back at some contents.
-/
import proofs.«128237_g74105365725337_cont_9to1c4b_446_16_alg».proof.Proof.BodyKI.RunF

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runG (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : ¬cond4 i) (hc5 : ¬cond5 i) (hc6 : cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (h : Vec F S256x2880 .f32) :
    { L8 : List (View.Piece (Elt F) S256x2880 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare h
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L8) ∗ (∃ d, owns (c : Thread nD τ) arg9 fullShare d) ∗ (∃ d, owns (c : Thread nD τ) arg10 fullShare d) ∗ owns (c : Thread nD τ) arg11 fullShare h) -∗ K ⟨⟩))
          ⊢ wp frame (wpE (defs₀ (F := F)) Variants.none c none) E (cc0__mlp_body i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__mlp_body_eq_skeleton]; unfold cc0__mlp_body_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg11.eq_unread hf10
    sl_exec (disch := first | exact hc0 | exact hc1 | exact hc2 | exact hc3 | exact hc4 | exact hc5 | exact hc6 | exact hc7 | exact hc8 | exact hc9 | exact hc10)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]
    · iexists _, _; isplitr; swap; · iexact H8
      ipureintro; rfl
    isplitl [H9]
    · iexists _, _; isplitr; swap; · iexact H9
      ipureintro; rfl
    iexists _; isplitr; · ipureintro; exact harg11.read_unread _
    iexact H10

end Cert.KernelIdeal.Body

end
-- ==== Proof.BodyKI.RunH.lean ====
/-
  The body at grid point 7, run whole: only the branch for step 7 is taken, and it adds the partial product of slab 1 of the down projection into the output block.
  A buffer the branch stores into comes back with the stored pieces written (the lists are found by the run);
  a buffer whose contents matter later and that the branch only reads comes back at the contents it was handed;
  the others are handed over and taken back at some contents.
-/
import proofs.«128237_g74105365725337_cont_9to1c4b_446_16_alg».proof.Proof.BodyKI.RunG

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runH (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : ¬cond4 i) (hc5 : ¬cond5 i) (hc6 : ¬cond6 i) (hc7 : cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (y : Vec F S256x2880 .f32) (h : Vec F S256x2880 .f32) :
    { L8 : List (View.Piece (Elt F) S256x2880 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y ∗ (∃ d, owns (c : Thread nD τ) arg9 fullShare d) ∗ (∃ d, owns (c : Thread nD τ) arg10 fullShare d) ∗ owns (c : Thread nD τ) arg11 fullShare h
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L8) ∗ (∃ d, owns (c : Thread nD τ) arg9 fullShare d) ∗ (∃ d, owns (c : Thread nD τ) arg10 fullShare d) ∗ owns (c : Thread nD τ) arg11 fullShare h) -∗ K ⟨⟩))
          ⊢ wp frame (wpE (defs₀ (F := F)) Variants.none c none) E (cc0__mlp_body i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__mlp_body_eq_skeleton]; unfold cc0__mlp_body_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hf10
    sl_exec (disch := first | exact hc0 | exact hc1 | exact hc2 | exact hc3 | exact hc4 | exact hc5 | exact hc6 | exact hc7 | exact hc8 | exact hc9 | exact hc10)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]
    · iexists _, _; isplitr; swap; · iexact H8
      ipureintro; rfl
    isplitl [H9]
    · iexists _, _; isplitr; swap; · iexact H9
      ipureintro; rfl
    iexists _; isplitr; · ipureintro; exact harg11.read_unread _
    iexact H10

end Cert.KernelIdeal.Body

end
-- ==== Proof.BodyKI.RunI.lean ====
/-
  The body at grid point 8, run whole: only the branch for step 8 is taken, and it adds the partial product of slab 2 of the down projection into the output block.
  A buffer the branch stores into comes back with the stored pieces written (the lists are found by the run);
  a buffer whose contents matter later and that the branch only reads comes back at the contents it was handed;
  the others are handed over and taken back at some contents.
-/
import proofs.«128237_g74105365725337_cont_9to1c4b_446_16_alg».proof.Proof.BodyKI.RunH

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runI (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : ¬cond4 i) (hc5 : ¬cond5 i) (hc6 : ¬cond6 i) (hc7 : ¬cond7 i) (hc8 : cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (y : Vec F S256x2880 .f32) (h : Vec F S256x2880 .f32) :
    { L8 : List (View.Piece (Elt F) S256x2880 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y ∗ (∃ d, owns (c : Thread nD τ) arg9 fullShare d) ∗ (∃ d, owns (c : Thread nD τ) arg10 fullShare d) ∗ owns (c : Thread nD τ) arg11 fullShare h
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L8) ∗ (∃ d, owns (c : Thread nD τ) arg9 fullShare d) ∗ (∃ d, owns (c : Thread nD τ) arg10 fullShare d) ∗ owns (c : Thread nD τ) arg11 fullShare h) -∗ K ⟨⟩))
          ⊢ wp frame (wpE (defs₀ (F := F)) Variants.none c none) E (cc0__mlp_body i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__mlp_body_eq_skeleton]; unfold cc0__mlp_body_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hf10
    sl_exec (disch := first | exact hc0 | exact hc1 | exact hc2 | exact hc3 | exact hc4 | exact hc5 | exact hc6 | exact hc7 | exact hc8 | exact hc9 | exact hc10)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]
    · iexists _, _; isplitr; swap; · iexact H8
      ipureintro; rfl
    isplitl [H9]
    · iexists _, _; isplitr; swap; · iexact H9
      ipureintro; rfl
    iexists _; isplitr; · ipureintro; exact harg11.read_unread _
    iexact H10

end Cert.KernelIdeal.Body

end
-- ==== Proof.BodyKI.RunJ.lean ====
/-
  The body at grid point 9, run whole: only the branch for step 9 is taken, and it adds the partial product of slab 3 of the down projection into the output block.
  A buffer the branch stores into comes back with the stored pieces written (the lists are found by the run);
  a buffer whose contents matter later and that the branch only reads comes back at the contents it was handed;
  the others are handed over and taken back at some contents.
-/
import proofs.«128237_g74105365725337_cont_9to1c4b_446_16_alg».proof.Proof.BodyKI.RunI

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runJ (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : ¬cond4 i) (hc5 : ¬cond5 i) (hc6 : ¬cond6 i) (hc7 : ¬cond7 i) (hc8 : ¬cond8 i) (hc9 : cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (y : Vec F S256x2880 .f32) (h : Vec F S256x2880 .f32) :
    { L8 : List (View.Piece (Elt F) S256x2880 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y ∗ (∃ d, owns (c : Thread nD τ) arg9 fullShare d) ∗ (∃ d, owns (c : Thread nD τ) arg10 fullShare d) ∗ owns (c : Thread nD τ) arg11 fullShare h
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L8) ∗ (∃ d, owns (c : Thread nD τ) arg9 fullShare d) ∗ (∃ d, owns (c : Thread nD τ) arg10 fullShare d) ∗ owns (c : Thread nD τ) arg11 fullShare h) -∗ K ⟨⟩))
          ⊢ wp frame (wpE (defs₀ (F := F)) Variants.none c none) E (cc0__mlp_body i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__mlp_body_eq_skeleton]; unfold cc0__mlp_body_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hf10
    sl_exec (disch := first | exact hc0 | exact hc1 | exact hc2 | exact hc3 | exact hc4 | exact hc5 | exact hc6 | exact hc7 | exact hc8 | exact hc9 | exact hc10)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]
    · iexists _, _; isplitr; swap; · iexact H8
      ipureintro; rfl
    isplitl [H9]
    · iexists _, _; isplitr; swap; · iexact H9
      ipureintro; rfl
    iexists _; isplitr; · ipureintro; exact harg11.read_unread _
    iexact H10

end Cert.KernelIdeal.Body

end
-- ==== Proof.BodyKI.RunK.lean ====
/-
  The body at grid point 10, run whole: only the branch for step 10 is taken, and it adds the partial product of slab 4 of the down projection into the output block.
  A buffer the branch stores into comes back with the stored pieces written (the lists are found by the run);
  a buffer whose contents matter later and that the branch only reads comes back at the contents it was handed;
  the others are handed over and taken back at some contents.
-/
import proofs.«128237_g74105365725337_cont_9to1c4b_446_16_alg».proof.Proof.BodyKI.RunJ

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runK (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : ¬cond4 i) (hc5 : ¬cond5 i) (hc6 : ¬cond6 i) (hc7 : ¬cond7 i) (hc8 : ¬cond8 i) (hc9 : ¬cond9 i) (hc10 : cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (y : Vec F S256x2880 .f32) (h : Vec F S256x2880 .f32) :
    { L8 : List (View.Piece (Elt F) S256x2880 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y ∗ (∃ d, owns (c : Thread nD τ) arg9 fullShare d) ∗ (∃ d, owns (c : Thread nD τ) arg10 fullShare d) ∗ owns (c : Thread nD τ) arg11 fullShare h
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L8) ∗ (∃ d, owns (c : Thread nD τ) arg9 fullShare d) ∗ (∃ d, owns (c : Thread nD τ) arg10 fullShare d) ∗ owns (c : Thread nD τ) arg11 fullShare h) -∗ K ⟨⟩))
          ⊢ wp frame (wpE (defs₀ (F := F)) Variants.none c none) E (cc0__mlp_body i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__mlp_body_eq_skeleton]; unfold cc0__mlp_body_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hf10
    sl_exec (disch := first | exact hc0 | exact hc1 | exact hc2 | exact hc3 | exact hc4 | exact hc5 | exact hc6 | exact hc7 | exact hc8 | exact hc9 | exact hc10)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]
    · iexists _, _; isplitr; swap; · iexact H8
      ipureintro; rfl
    isplitl [H9]
    · iexists _, _; isplitr; swap; · iexact H9
      ipureintro; rfl
    iexists _; isplitr; · ipureintro; exact harg11.read_unread _
    iexact H10

end Cert.KernelIdeal.Body

end
-- ==== Proof.BodyKI.Data.lean ====
/-
  What the eleven steps leave, and the pipeline's run.

  Each step's stores are read back through one canonical view (the stored pieces cover the buffer). The states
  are named point by point: the gate and up accumulators after points 0 to 5, the gated activation after
  point 5, the output block after points 6 to 10. The output window is idle during the first phase (its buffer
  passes through untouched), is stored whole at point 6, and from point 7 on is read back — it was not written
  back in between — and stored whole again. The scratch buffers ride in the region invariant: before point
  n ≤ 5 the two accumulators hold what point n - 1 left; from point 6 on the third scratch holds the gated
  activation. The run concludes with every argument array unchanged and the result array at what the write-back
  at the last point wrote.
-/
import proofs.«128237_g74105365725337_cont_9to1c4b_446_16_alg».proof.Proof.BodyKI.RunK
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each step leaves in the buffers it stores into -/

/-- Step 0's pieces for argument 9 cover the buffer. -/
theorem covA9 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : cond0 i) (hc1 : ¬cond1 i) (hc2 : ¬cond2 i) (hc3 : ¬cond3 i) (hc4 : ¬cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (yy : S256x2880.Idx) :
    ∃ pc ∈ (runA c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6).1, yy ∈ pc.1.set :=
  View.cover_of_tiledL (runA c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6).1 S256x2880.size (by sl_kernel_rfl) yy
/-- What step 0 leaves in argument 9: its pieces read back. -/
def outA9 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : cond0 i) (hc1 : ¬cond1 i) (hc2 : ¬cond2 i) (hc3 : ¬cond3 i) (hc4 : ¬cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) : Vec F S256x2880 .f32 :=
  VW.read (Elt F) (VW.writes (Elt F) VW.junk (runA c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6).1)

/-- Step 0's pieces for argument 10 cover the buffer. -/
theorem covA10 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : cond0 i) (hc1 : ¬cond1 i) (hc2 : ¬cond2 i) (hc3 : ¬cond3 i) (hc4 : ¬cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (yy : S256x2880.Idx) :
    ∃ pc ∈ (runA c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6).2.1, yy ∈ pc.1.set :=
  View.cover_of_tiledL (runA c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6).2.1 S256x2880.size (by sl_kernel_rfl) yy
/-- What step 0 leaves in argument 10: its pieces read back. -/
def outA10 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : cond0 i) (hc1 : ¬cond1 i) (hc2 : ¬cond2 i) (hc3 : ¬cond3 i) (hc4 : ¬cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) : Vec F S256x2880 .f32 :=
  VW.read (Elt F) (VW.writes (Elt F) VW.junk (runA c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6).2.1)

/-- Step 1's pieces for argument 9 cover the buffer. -/
theorem covB9 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : cond1 i) (hc2 : ¬cond2 i) (hc3 : ¬cond3 i) (hc4 : ¬cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) (yy : S256x2880.Idx) :
    ∃ pc ∈ (runB c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).1, yy ∈ pc.1.set :=
  View.cover_of_tiledL (runB c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).1 S256x2880.size (by sl_kernel_rfl) yy
/-- What step 1 leaves in argument 9: its pieces read back. -/
def outB9 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : cond1 i) (hc2 : ¬cond2 i) (hc3 : ¬cond3 i) (hc4 : ¬cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) : Vec F S256x2880 .f32 :=
  VW.read (Elt F) (VW.writes (Elt F) VW.junk (runB c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).1)

/-- Step 1's pieces for argument 10 cover the buffer. -/
theorem covB10 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : cond1 i) (hc2 : ¬cond2 i) (hc3 : ¬cond3 i) (hc4 : ¬cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) (yy : S256x2880.Idx) :
    ∃ pc ∈ (runB c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).2.1, yy ∈ pc.1.set :=
  View.cover_of_tiledL (runB c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).2.1 S256x2880.size (by sl_kernel_rfl) yy
/-- What step 1 leaves in argument 10: its pieces read back. -/
def outB10 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : cond1 i) (hc2 : ¬cond2 i) (hc3 : ¬cond3 i) (hc4 : ¬cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) : Vec F S256x2880 .f32 :=
  VW.read (Elt F) (VW.writes (Elt F) VW.junk (runB c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).2.1)

/-- Step 2's pieces for argument 9 cover the buffer. -/
theorem covC9 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : cond2 i) (hc3 : ¬cond3 i) (hc4 : ¬cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) (yy : S256x2880.Idx) :
    ∃ pc ∈ (runC c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).1, yy ∈ pc.1.set :=
  View.cover_of_tiledL (runC c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).1 S256x2880.size (by sl_kernel_rfl) yy
/-- What step 2 leaves in argument 9: its pieces read back. -/
def outC9 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : cond2 i) (hc3 : ¬cond3 i) (hc4 : ¬cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) : Vec F S256x2880 .f32 :=
  VW.read (Elt F) (VW.writes (Elt F) VW.junk (runC c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).1)

/-- Step 2's pieces for argument 10 cover the buffer. -/
theorem covC10 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : cond2 i) (hc3 : ¬cond3 i) (hc4 : ¬cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) (yy : S256x2880.Idx) :
    ∃ pc ∈ (runC c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).2.1, yy ∈ pc.1.set :=
  View.cover_of_tiledL (runC c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).2.1 S256x2880.size (by sl_kernel_rfl) yy
/-- What step 2 leaves in argument 10: its pieces read back. -/
def outC10 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : cond2 i) (hc3 : ¬cond3 i) (hc4 : ¬cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) : Vec F S256x2880 .f32 :=
  VW.read (Elt F) (VW.writes (Elt F) VW.junk (runC c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).2.1)

/-- Step 3's pieces for argument 9 cover the buffer. -/
theorem covD9 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : cond3 i) (hc4 : ¬cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) (yy : S256x2880.Idx) :
    ∃ pc ∈ (runD c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).1, yy ∈ pc.1.set :=
  View.cover_of_tiledL (runD c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).1 S256x2880.size (by sl_kernel_rfl) yy
/-- What step 3 leaves in argument 9: its pieces read back. -/
def outD9 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : cond3 i) (hc4 : ¬cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) : Vec F S256x2880 .f32 :=
  VW.read (Elt F) (VW.writes (Elt F) VW.junk (runD c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).1)

/-- Step 3's pieces for argument 10 cover the buffer. -/
theorem covD10 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : cond3 i) (hc4 : ¬cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) (yy : S256x2880.Idx) :
    ∃ pc ∈ (runD c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).2.1, yy ∈ pc.1.set :=
  View.cover_of_tiledL (runD c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).2.1 S256x2880.size (by sl_kernel_rfl) yy
/-- What step 3 leaves in argument 10: its pieces read back. -/
def outD10 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : cond3 i) (hc4 : ¬cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) : Vec F S256x2880 .f32 :=
  VW.read (Elt F) (VW.writes (Elt F) VW.junk (runD c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).2.1)

/-- Step 4's pieces for argument 9 cover the buffer. -/
theorem covE9 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) (yy : S256x2880.Idx) :
    ∃ pc ∈ (runE c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).1, yy ∈ pc.1.set :=
  View.cover_of_tiledL (runE c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).1 S256x2880.size (by sl_kernel_rfl) yy
/-- What step 4 leaves in argument 9: its pieces read back. -/
def outE9 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) : Vec F S256x2880 .f32 :=
  VW.read (Elt F) (VW.writes (Elt F) VW.junk (runE c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).1)

/-- Step 4's pieces for argument 10 cover the buffer. -/
theorem covE10 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) (yy : S256x2880.Idx) :
    ∃ pc ∈ (runE c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).2.1, yy ∈ pc.1.set :=
  View.cover_of_tiledL (runE c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).2.1 S256x2880.size (by sl_kernel_rfl) yy
/-- What step 4 leaves in argument 10: its pieces read back. -/
def outE10 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) : Vec F S256x2880 .f32 :=
  VW.read (Elt F) (VW.writes (Elt F) VW.junk (runE c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).2.1)

/-- Step 5's pieces for argument 9 cover the buffer. -/
theorem covF9 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : ¬cond4 i) (hc5 : cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) (yy : S256x2880.Idx) :
    ∃ pc ∈ (runF c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).1, yy ∈ pc.1.set :=
  View.cover_of_tiledL (runF c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).1 S256x2880.size (by sl_kernel_rfl) yy
/-- What step 5 leaves in argument 9: its pieces read back. -/
def outF9 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : ¬cond4 i) (hc5 : cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) : Vec F S256x2880 .f32 :=
  VW.read (Elt F) (VW.writes (Elt F) VW.junk (runF c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).1)

/-- Step 5's pieces for argument 10 cover the buffer. -/
theorem covF10 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : ¬cond4 i) (hc5 : cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) (yy : S256x2880.Idx) :
    ∃ pc ∈ (runF c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).2.1, yy ∈ pc.1.set :=
  View.cover_of_tiledL (runF c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).2.1 S256x2880.size (by sl_kernel_rfl) yy
/-- What step 5 leaves in argument 10: its pieces read back. -/
def outF10 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : ¬cond4 i) (hc5 : cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) : Vec F S256x2880 .f32 :=
  VW.read (Elt F) (VW.writes (Elt F) VW.junk (runF c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).2.1)

/-- Step 5's pieces for argument 11 cover the buffer. -/
theorem covF11 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : ¬cond4 i) (hc5 : cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) (yy : S256x2880.Idx) :
    ∃ pc ∈ (runF c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).2.2.1, yy ∈ pc.1.set :=
  View.cover_of_tiledL (runF c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).2.2.1 S256x2880.size (by sl_kernel_rfl) yy
/-- What step 5 leaves in argument 11: its pieces read back. -/
def outF11 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : ¬cond4 i) (hc5 : cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) : Vec F S256x2880 .f32 :=
  VW.read (Elt F) (VW.writes (Elt F) VW.junk (runF c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u).2.2.1)

/-- Step 6's pieces for argument 8 cover the buffer. -/
theorem covG8 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : ¬cond4 i) (hc5 : ¬cond5 i) (hc6 : cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (h : Vec F S256x2880 .f32) (yy : S256x2880.Idx) :
    ∃ pc ∈ (runG c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 h).1, yy ∈ pc.1.set :=
  View.cover_of_tiledL (runG c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 h).1 S256x2880.size (by sl_kernel_rfl) yy
/-- What step 6 leaves in argument 8: its pieces read back. -/
def outG8 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : ¬cond4 i) (hc5 : ¬cond5 i) (hc6 : cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (h : Vec F S256x2880 .f32) : Vec F S256x2880 .f32 :=
  VW.read (Elt F) (VW.writes (Elt F) VW.junk (runG c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 h).1)

/-- Step 7's pieces for argument 8 cover the buffer. -/
theorem covH8 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : ¬cond4 i) (hc5 : ¬cond5 i) (hc6 : ¬cond6 i) (hc7 : cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (y : Vec F S256x2880 .f32) (h : Vec F S256x2880 .f32) (yy : S256x2880.Idx) :
    ∃ pc ∈ (runH c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 y h).1, yy ∈ pc.1.set :=
  View.cover_of_tiledL (runH c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 y h).1 S256x2880.size (by sl_kernel_rfl) yy
/-- What step 7 leaves in argument 8: its pieces read back. -/
def outH8 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : ¬cond4 i) (hc5 : ¬cond5 i) (hc6 : ¬cond6 i) (hc7 : cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (y : Vec F S256x2880 .f32) (h : Vec F S256x2880 .f32) : Vec F S256x2880 .f32 :=
  VW.read (Elt F) (VW.writes (Elt F) VW.junk (runH c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 y h).1)

/-- Step 8's pieces for argument 8 cover the buffer. -/
theorem covI8 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : ¬cond4 i) (hc5 : ¬cond5 i) (hc6 : ¬cond6 i) (hc7 : ¬cond7 i) (hc8 : cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (y : Vec F S256x2880 .f32) (h : Vec F S256x2880 .f32) (yy : S256x2880.Idx) :
    ∃ pc ∈ (runI c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 y h).1, yy ∈ pc.1.set :=
  View.cover_of_tiledL (runI c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 y h).1 S256x2880.size (by sl_kernel_rfl) yy
/-- What step 8 leaves in argument 8: its pieces read back. -/
def outI8 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : ¬cond4 i) (hc5 : ¬cond5 i) (hc6 : ¬cond6 i) (hc7 : ¬cond7 i) (hc8 : cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (y : Vec F S256x2880 .f32) (h : Vec F S256x2880 .f32) : Vec F S256x2880 .f32 :=
  VW.read (Elt F) (VW.writes (Elt F) VW.junk (runI c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 y h).1)

/-- Step 9's pieces for argument 8 cover the buffer. -/
theorem covJ8 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : ¬cond4 i) (hc5 : ¬cond5 i) (hc6 : ¬cond6 i) (hc7 : ¬cond7 i) (hc8 : ¬cond8 i) (hc9 : cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (y : Vec F S256x2880 .f32) (h : Vec F S256x2880 .f32) (yy : S256x2880.Idx) :
    ∃ pc ∈ (runJ c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 y h).1, yy ∈ pc.1.set :=
  View.cover_of_tiledL (runJ c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 y h).1 S256x2880.size (by sl_kernel_rfl) yy
/-- What step 9 leaves in argument 8: its pieces read back. -/
def outJ8 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : ¬cond4 i) (hc5 : ¬cond5 i) (hc6 : ¬cond6 i) (hc7 : ¬cond7 i) (hc8 : ¬cond8 i) (hc9 : cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (y : Vec F S256x2880 .f32) (h : Vec F S256x2880 .f32) : Vec F S256x2880 .f32 :=
  VW.read (Elt F) (VW.writes (Elt F) VW.junk (runJ c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 y h).1)

/-- Step 10's pieces for argument 8 cover the buffer. -/
theorem covK8 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : ¬cond4 i) (hc5 : ¬cond5 i) (hc6 : ¬cond6 i) (hc7 : ¬cond7 i) (hc8 : ¬cond8 i) (hc9 : ¬cond9 i) (hc10 : cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (y : Vec F S256x2880 .f32) (h : Vec F S256x2880 .f32) (yy : S256x2880.Idx) :
    ∃ pc ∈ (runK c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 y h).1, yy ∈ pc.1.set :=
  View.cover_of_tiledL (runK c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 y h).1 S256x2880.size (by sl_kernel_rfl) yy
/-- What step 10 leaves in argument 8: its pieces read back. -/
def outK8 (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : ¬cond4 i) (hc5 : ¬cond5 i) (hc6 : ¬cond6 i) (hc7 : ¬cond7 i) (hc8 : ¬cond8 i) (hc9 : ¬cond9 i) (hc10 : cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (y : Vec F S256x2880 .f32) (h : Vec F S256x2880 .f32) : Vec F S256x2880 .f32 :=
  VW.read (Elt F) (VW.writes (Elt F) VW.junk (runK c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 y h).1)

/-! ## The states, point by point -/

/-- The gate and up accumulators after point 0. -/
def G0 (c : Dev nD) : Vec F S256x2880 .f32 := outA9 c (grid0.coords t0_0) (ms0 t0_0) (hs0 t0_0) (ms1 t0_0) (hs1 t0_0) (ms2 t0_0) (hs2 t0_0) (ms3 t0_0) (hs3 t0_0) (ms4 t0_0) (hs4 t0_0) (ms5 t0_0) (hs5 t0_0) (ms6 t0_0) (hs6 t0_0) (ms7 t0_0) (hs7 t0_0) scG (Memref.isWhole_whole _) scU (Memref.isWhole_whole _) scH (Memref.isWhole_whole _) ((hcond0 t0_0).mpr (by decide)) (fun hh => absurd ((hcond1 t0_0).mp hh) (by decide)) (fun hh => absurd ((hcond2 t0_0).mp hh) (by decide)) (fun hh => absurd ((hcond3 t0_0).mp hh) (by decide)) (fun hh => absurd ((hcond4 t0_0).mp hh) (by decide)) (fun hh => absurd ((hcond5 t0_0).mp hh) (by decide)) (fun hh => absurd ((hcond6 t0_0).mp hh) (by decide)) (fun hh => absurd ((hcond7 t0_0).mp hh) (by decide)) (fun hh => absurd ((hcond8 t0_0).mp hh) (by decide)) (fun hh => absurd ((hcond9 t0_0).mp hh) (by decide)) (fun hh => absurd ((hcond10 t0_0).mp hh) (by decide)) (iblk m c 0 t0_0) (iblk m c 1 t0_0) (iblk m c 2 t0_0) (iblk m c 3 t0_0) (iblk m c 4 t0_0) (iblk m c 5 t0_0) (iblk m c 6 t0_0)
def U0 (c : Dev nD) : Vec F S256x2880 .f32 := outA10 c (grid0.coords t0_0) (ms0 t0_0) (hs0 t0_0) (ms1 t0_0) (hs1 t0_0) (ms2 t0_0) (hs2 t0_0) (ms3 t0_0) (hs3 t0_0) (ms4 t0_0) (hs4 t0_0) (ms5 t0_0) (hs5 t0_0) (ms6 t0_0) (hs6 t0_0) (ms7 t0_0) (hs7 t0_0) scG (Memref.isWhole_whole _) scU (Memref.isWhole_whole _) scH (Memref.isWhole_whole _) ((hcond0 t0_0).mpr (by decide)) (fun hh => absurd ((hcond1 t0_0).mp hh) (by decide)) (fun hh => absurd ((hcond2 t0_0).mp hh) (by decide)) (fun hh => absurd ((hcond3 t0_0).mp hh) (by decide)) (fun hh => absurd ((hcond4 t0_0).mp hh) (by decide)) (fun hh => absurd ((hcond5 t0_0).mp hh) (by decide)) (fun hh => absurd ((hcond6 t0_0).mp hh) (by decide)) (fun hh => absurd ((hcond7 t0_0).mp hh) (by decide)) (fun hh => absurd ((hcond8 t0_0).mp hh) (by decide)) (fun hh => absurd ((hcond9 t0_0).mp hh) (by decide)) (fun hh => absurd ((hcond10 t0_0).mp hh) (by decide)) (iblk m c 0 t0_0) (iblk m c 1 t0_0) (iblk m c 2 t0_0) (iblk m c 3 t0_0) (iblk m c 4 t0_0) (iblk m c 5 t0_0) (iblk m c 6 t0_0)
/-- The accumulators after point 1: what the point before left, plus this slab's products. -/
def G1 (c : Dev nD) : Vec F S256x2880 .f32 := outB9 c (grid0.coords t0_1) (ms0 t0_1) (hs0 t0_1) (ms1 t0_1) (hs1 t0_1) (ms2 t0_1) (hs2 t0_1) (ms3 t0_1) (hs3 t0_1) (ms4 t0_1) (hs4 t0_1) (ms5 t0_1) (hs5 t0_1) (ms6 t0_1) (hs6 t0_1) (ms7 t0_1) (hs7 t0_1) scG (Memref.isWhole_whole _) scU (Memref.isWhole_whole _) scH (Memref.isWhole_whole _) (fun hh => absurd ((hcond0 t0_1).mp hh) (by decide)) ((hcond1 t0_1).mpr (by decide)) (fun hh => absurd ((hcond2 t0_1).mp hh) (by decide)) (fun hh => absurd ((hcond3 t0_1).mp hh) (by decide)) (fun hh => absurd ((hcond4 t0_1).mp hh) (by decide)) (fun hh => absurd ((hcond5 t0_1).mp hh) (by decide)) (fun hh => absurd ((hcond6 t0_1).mp hh) (by decide)) (fun hh => absurd ((hcond7 t0_1).mp hh) (by decide)) (fun hh => absurd ((hcond8 t0_1).mp hh) (by decide)) (fun hh => absurd ((hcond9 t0_1).mp hh) (by decide)) (fun hh => absurd ((hcond10 t0_1).mp hh) (by decide)) (iblk m c 0 t0_1) (iblk m c 1 t0_1) (iblk m c 2 t0_1) (iblk m c 3 t0_1) (iblk m c 4 t0_1) (iblk m c 5 t0_1) (iblk m c 6 t0_1) (G0 m c) (U0 m c)
def U1 (c : Dev nD) : Vec F S256x2880 .f32 := outB10 c (grid0.coords t0_1) (ms0 t0_1) (hs0 t0_1) (ms1 t0_1) (hs1 t0_1) (ms2 t0_1) (hs2 t0_1) (ms3 t0_1) (hs3 t0_1) (ms4 t0_1) (hs4 t0_1) (ms5 t0_1) (hs5 t0_1) (ms6 t0_1) (hs6 t0_1) (ms7 t0_1) (hs7 t0_1) scG (Memref.isWhole_whole _) scU (Memref.isWhole_whole _) scH (Memref.isWhole_whole _) (fun hh => absurd ((hcond0 t0_1).mp hh) (by decide)) ((hcond1 t0_1).mpr (by decide)) (fun hh => absurd ((hcond2 t0_1).mp hh) (by decide)) (fun hh => absurd ((hcond3 t0_1).mp hh) (by decide)) (fun hh => absurd ((hcond4 t0_1).mp hh) (by decide)) (fun hh => absurd ((hcond5 t0_1).mp hh) (by decide)) (fun hh => absurd ((hcond6 t0_1).mp hh) (by decide)) (fun hh => absurd ((hcond7 t0_1).mp hh) (by decide)) (fun hh => absurd ((hcond8 t0_1).mp hh) (by decide)) (fun hh => absurd ((hcond9 t0_1).mp hh) (by decide)) (fun hh => absurd ((hcond10 t0_1).mp hh) (by decide)) (iblk m c 0 t0_1) (iblk m c 1 t0_1) (iblk m c 2 t0_1) (iblk m c 3 t0_1) (iblk m c 4 t0_1) (iblk m c 5 t0_1) (iblk m c 6 t0_1) (G0 m c) (U0 m c)
/-- The accumulators after point 2: what the point before left, plus this slab's products. -/
def G2 (c : Dev nD) : Vec F S256x2880 .f32 := outC9 c (grid0.coords t0_2) (ms0 t0_2) (hs0 t0_2) (ms1 t0_2) (hs1 t0_2) (ms2 t0_2) (hs2 t0_2) (ms3 t0_2) (hs3 t0_2) (ms4 t0_2) (hs4 t0_2) (ms5 t0_2) (hs5 t0_2) (ms6 t0_2) (hs6 t0_2) (ms7 t0_2) (hs7 t0_2) scG (Memref.isWhole_whole _) scU (Memref.isWhole_whole _) scH (Memref.isWhole_whole _) (fun hh => absurd ((hcond0 t0_2).mp hh) (by decide)) (fun hh => absurd ((hcond1 t0_2).mp hh) (by decide)) ((hcond2 t0_2).mpr (by decide)) (fun hh => absurd ((hcond3 t0_2).mp hh) (by decide)) (fun hh => absurd ((hcond4 t0_2).mp hh) (by decide)) (fun hh => absurd ((hcond5 t0_2).mp hh) (by decide)) (fun hh => absurd ((hcond6 t0_2).mp hh) (by decide)) (fun hh => absurd ((hcond7 t0_2).mp hh) (by decide)) (fun hh => absurd ((hcond8 t0_2).mp hh) (by decide)) (fun hh => absurd ((hcond9 t0_2).mp hh) (by decide)) (fun hh => absurd ((hcond10 t0_2).mp hh) (by decide)) (iblk m c 0 t0_2) (iblk m c 1 t0_2) (iblk m c 2 t0_2) (iblk m c 3 t0_2) (iblk m c 4 t0_2) (iblk m c 5 t0_2) (iblk m c 6 t0_2) (G1 m c) (U1 m c)
def U2 (c : Dev nD) : Vec F S256x2880 .f32 := outC10 c (grid0.coords t0_2) (ms0 t0_2) (hs0 t0_2) (ms1 t0_2) (hs1 t0_2) (ms2 t0_2) (hs2 t0_2) (ms3 t0_2) (hs3 t0_2) (ms4 t0_2) (hs4 t0_2) (ms5 t0_2) (hs5 t0_2) (ms6 t0_2) (hs6 t0_2) (ms7 t0_2) (hs7 t0_2) scG (Memref.isWhole_whole _) scU (Memref.isWhole_whole _) scH (Memref.isWhole_whole _) (fun hh => absurd ((hcond0 t0_2).mp hh) (by decide)) (fun hh => absurd ((hcond1 t0_2).mp hh) (by decide)) ((hcond2 t0_2).mpr (by decide)) (fun hh => absurd ((hcond3 t0_2).mp hh) (by decide)) (fun hh => absurd ((hcond4 t0_2).mp hh) (by decide)) (fun hh => absurd ((hcond5 t0_2).mp hh) (by decide)) (fun hh => absurd ((hcond6 t0_2).mp hh) (by decide)) (fun hh => absurd ((hcond7 t0_2).mp hh) (by decide)) (fun hh => absurd ((hcond8 t0_2).mp hh) (by decide)) (fun hh => absurd ((hcond9 t0_2).mp hh) (by decide)) (fun hh => absurd ((hcond10 t0_2).mp hh) (by decide)) (iblk m c 0 t0_2) (iblk m c 1 t0_2) (iblk m c 2 t0_2) (iblk m c 3 t0_2) (iblk m c 4 t0_2) (iblk m c 5 t0_2) (iblk m c 6 t0_2) (G1 m c) (U1 m c)
/-- The accumulators after point 3: what the point before left, plus this slab's products. -/
def G3 (c : Dev nD) : Vec F S256x2880 .f32 := outD9 c (grid0.coords t0_3) (ms0 t0_3) (hs0 t0_3) (ms1 t0_3) (hs1 t0_3) (ms2 t0_3) (hs2 t0_3) (ms3 t0_3) (hs3 t0_3) (ms4 t0_3) (hs4 t0_3) (ms5 t0_3) (hs5 t0_3) (ms6 t0_3) (hs6 t0_3) (ms7 t0_3) (hs7 t0_3) scG (Memref.isWhole_whole _) scU (Memref.isWhole_whole _) scH (Memref.isWhole_whole _) (fun hh => absurd ((hcond0 t0_3).mp hh) (by decide)) (fun hh => absurd ((hcond1 t0_3).mp hh) (by decide)) (fun hh => absurd ((hcond2 t0_3).mp hh) (by decide)) ((hcond3 t0_3).mpr (by decide)) (fun hh => absurd ((hcond4 t0_3).mp hh) (by decide)) (fun hh => absurd ((hcond5 t0_3).mp hh) (by decide)) (fun hh => absurd ((hcond6 t0_3).mp hh) (by decide)) (fun hh => absurd ((hcond7 t0_3).mp hh) (by decide)) (fun hh => absurd ((hcond8 t0_3).mp hh) (by decide)) (fun hh => absurd ((hcond9 t0_3).mp hh) (by decide)) (fun hh => absurd ((hcond10 t0_3).mp hh) (by decide)) (iblk m c 0 t0_3) (iblk m c 1 t0_3) (iblk m c 2 t0_3) (iblk m c 3 t0_3) (iblk m c 4 t0_3) (iblk m c 5 t0_3) (iblk m c 6 t0_3) (G2 m c) (U2 m c)
def U3 (c : Dev nD) : Vec F S256x2880 .f32 := outD10 c (grid0.coords t0_3) (ms0 t0_3) (hs0 t0_3) (ms1 t0_3) (hs1 t0_3) (ms2 t0_3) (hs2 t0_3) (ms3 t0_3) (hs3 t0_3) (ms4 t0_3) (hs4 t0_3) (ms5 t0_3) (hs5 t0_3) (ms6 t0_3) (hs6 t0_3) (ms7 t0_3) (hs7 t0_3) scG (Memref.isWhole_whole _) scU (Memref.isWhole_whole _) scH (Memref.isWhole_whole _) (fun hh => absurd ((hcond0 t0_3).mp hh) (by decide)) (fun hh => absurd ((hcond1 t0_3).mp hh) (by decide)) (fun hh => absurd ((hcond2 t0_3).mp hh) (by decide)) ((hcond3 t0_3).mpr (by decide)) (fun hh => absurd ((hcond4 t0_3).mp hh) (by decide)) (fun hh => absurd ((hcond5 t0_3).mp hh) (by decide)) (fun hh => absurd ((hcond6 t0_3).mp hh) (by decide)) (fun hh => absurd ((hcond7 t0_3).mp hh) (by decide)) (fun hh => absurd ((hcond8 t0_3).mp hh) (by decide)) (fun hh => absurd ((hcond9 t0_3).mp hh) (by decide)) (fun hh => absurd ((hcond10 t0_3).mp hh) (by decide)) (iblk m c 0 t0_3) (iblk m c 1 t0_3) (iblk m c 2 t0_3) (iblk m c 3 t0_3) (iblk m c 4 t0_3) (iblk m c 5 t0_3) (iblk m c 6 t0_3) (G2 m c) (U2 m c)
/-- The accumulators after point 4: what the point before left, plus this slab's products. -/
def G4 (c : Dev nD) : Vec F S256x2880 .f32 := outE9 c (grid0.coords t0_4) (ms0 t0_4) (hs0 t0_4) (ms1 t0_4) (hs1 t0_4) (ms2 t0_4) (hs2 t0_4) (ms3 t0_4) (hs3 t0_4) (ms4 t0_4) (hs4 t0_4) (ms5 t0_4) (hs5 t0_4) (ms6 t0_4) (hs6 t0_4) (ms7 t0_4) (hs7 t0_4) scG (Memref.isWhole_whole _) scU (Memref.isWhole_whole _) scH (Memref.isWhole_whole _) (fun hh => absurd ((hcond0 t0_4).mp hh) (by decide)) (fun hh => absurd ((hcond1 t0_4).mp hh) (by decide)) (fun hh => absurd ((hcond2 t0_4).mp hh) (by decide)) (fun hh => absurd ((hcond3 t0_4).mp hh) (by decide)) ((hcond4 t0_4).mpr (by decide)) (fun hh => absurd ((hcond5 t0_4).mp hh) (by decide)) (fun hh => absurd ((hcond6 t0_4).mp hh) (by decide)) (fun hh => absurd ((hcond7 t0_4).mp hh) (by decide)) (fun hh => absurd ((hcond8 t0_4).mp hh) (by decide)) (fun hh => absurd ((hcond9 t0_4).mp hh) (by decide)) (fun hh => absurd ((hcond10 t0_4).mp hh) (by decide)) (iblk m c 0 t0_4) (iblk m c 1 t0_4) (iblk m c 2 t0_4) (iblk m c 3 t0_4) (iblk m c 4 t0_4) (iblk m c 5 t0_4) (iblk m c 6 t0_4) (G3 m c) (U3 m c)
def U4 (c : Dev nD) : Vec F S256x2880 .f32 := outE10 c (grid0.coords t0_4) (ms0 t0_4) (hs0 t0_4) (ms1 t0_4) (hs1 t0_4) (ms2 t0_4) (hs2 t0_4) (ms3 t0_4) (hs3 t0_4) (ms4 t0_4) (hs4 t0_4) (ms5 t0_4) (hs5 t0_4) (ms6 t0_4) (hs6 t0_4) (ms7 t0_4) (hs7 t0_4) scG (Memref.isWhole_whole _) scU (Memref.isWhole_whole _) scH (Memref.isWhole_whole _) (fun hh => absurd ((hcond0 t0_4).mp hh) (by decide)) (fun hh => absurd ((hcond1 t0_4).mp hh) (by decide)) (fun hh => absurd ((hcond2 t0_4).mp hh) (by decide)) (fun hh => absurd ((hcond3 t0_4).mp hh) (by decide)) ((hcond4 t0_4).mpr (by decide)) (fun hh => absurd ((hcond5 t0_4).mp hh) (by decide)) (fun hh => absurd ((hcond6 t0_4).mp hh) (by decide)) (fun hh => absurd ((hcond7 t0_4).mp hh) (by decide)) (fun hh => absurd ((hcond8 t0_4).mp hh) (by decide)) (fun hh => absurd ((hcond9 t0_4).mp hh) (by decide)) (fun hh => absurd ((hcond10 t0_4).mp hh) (by decide)) (iblk m c 0 t0_4) (iblk m c 1 t0_4) (iblk m c 2 t0_4) (iblk m c 3 t0_4) (iblk m c 4 t0_4) (iblk m c 5 t0_4) (iblk m c 6 t0_4) (G3 m c) (U3 m c)
/-- The accumulators after point 5: what the point before left, plus this slab's products. -/
def G5 (c : Dev nD) : Vec F S256x2880 .f32 := outF9 c (grid0.coords t0_5) (ms0 t0_5) (hs0 t0_5) (ms1 t0_5) (hs1 t0_5) (ms2 t0_5) (hs2 t0_5) (ms3 t0_5) (hs3 t0_5) (ms4 t0_5) (hs4 t0_5) (ms5 t0_5) (hs5 t0_5) (ms6 t0_5) (hs6 t0_5) (ms7 t0_5) (hs7 t0_5) scG (Memref.isWhole_whole _) scU (Memref.isWhole_whole _) scH (Memref.isWhole_whole _) (fun hh => absurd ((hcond0 t0_5).mp hh) (by decide)) (fun hh => absurd ((hcond1 t0_5).mp hh) (by decide)) (fun hh => absurd ((hcond2 t0_5).mp hh) (by decide)) (fun hh => absurd ((hcond3 t0_5).mp hh) (by decide)) (fun hh => absurd ((hcond4 t0_5).mp hh) (by decide)) ((hcond5 t0_5).mpr (by decide)) (fun hh => absurd ((hcond6 t0_5).mp hh) (by decide)) (fun hh => absurd ((hcond7 t0_5).mp hh) (by decide)) (fun hh => absurd ((hcond8 t0_5).mp hh) (by decide)) (fun hh => absurd ((hcond9 t0_5).mp hh) (by decide)) (fun hh => absurd ((hcond10 t0_5).mp hh) (by decide)) (iblk m c 0 t0_5) (iblk m c 1 t0_5) (iblk m c 2 t0_5) (iblk m c 3 t0_5) (iblk m c 4 t0_5) (iblk m c 5 t0_5) (iblk m c 6 t0_5) (G4 m c) (U4 m c)
def U5 (c : Dev nD) : Vec F S256x2880 .f32 := outF10 c (grid0.coords t0_5) (ms0 t0_5) (hs0 t0_5) (ms1 t0_5) (hs1 t0_5) (ms2 t0_5) (hs2 t0_5) (ms3 t0_5) (hs3 t0_5) (ms4 t0_5) (hs4 t0_5) (ms5 t0_5) (hs5 t0_5) (ms6 t0_5) (hs6 t0_5) (ms7 t0_5) (hs7 t0_5) scG (Memref.isWhole_whole _) scU (Memref.isWhole_whole _) scH (Memref.isWhole_whole _) (fun hh => absurd ((hcond0 t0_5).mp hh) (by decide)) (fun hh => absurd ((hcond1 t0_5).mp hh) (by decide)) (fun hh => absurd ((hcond2 t0_5).mp hh) (by decide)) (fun hh => absurd ((hcond3 t0_5).mp hh) (by decide)) (fun hh => absurd ((hcond4 t0_5).mp hh) (by decide)) ((hcond5 t0_5).mpr (by decide)) (fun hh => absurd ((hcond6 t0_5).mp hh) (by decide)) (fun hh => absurd ((hcond7 t0_5).mp hh) (by decide)) (fun hh => absurd ((hcond8 t0_5).mp hh) (by decide)) (fun hh => absurd ((hcond9 t0_5).mp hh) (by decide)) (fun hh => absurd ((hcond10 t0_5).mp hh) (by decide)) (iblk m c 0 t0_5) (iblk m c 1 t0_5) (iblk m c 2 t0_5) (iblk m c 3 t0_5) (iblk m c 4 t0_5) (iblk m c 5 t0_5) (iblk m c 6 t0_5) (G4 m c) (U4 m c)
/-- The gated activation stored at point 5. -/
def H5 (c : Dev nD) : Vec F S256x2880 .f32 := outF11 c (grid0.coords t0_5) (ms0 t0_5) (hs0 t0_5) (ms1 t0_5) (hs1 t0_5) (ms2 t0_5) (hs2 t0_5) (ms3 t0_5) (hs3 t0_5) (ms4 t0_5) (hs4 t0_5) (ms5 t0_5) (hs5 t0_5) (ms6 t0_5) (hs6 t0_5) (ms7 t0_5) (hs7 t0_5) scG (Memref.isWhole_whole _) scU (Memref.isWhole_whole _) scH (Memref.isWhole_whole _) (fun hh => absurd ((hcond0 t0_5).mp hh) (by decide)) (fun hh => absurd ((hcond1 t0_5).mp hh) (by decide)) (fun hh => absurd ((hcond2 t0_5).mp hh) (by decide)) (fun hh => absurd ((hcond3 t0_5).mp hh) (by decide)) (fun hh => absurd ((hcond4 t0_5).mp hh) (by decide)) ((hcond5 t0_5).mpr (by decide)) (fun hh => absurd ((hcond6 t0_5).mp hh) (by decide)) (fun hh => absurd ((hcond7 t0_5).mp hh) (by decide)) (fun hh => absurd ((hcond8 t0_5).mp hh) (by decide)) (fun hh => absurd ((hcond9 t0_5).mp hh) (by decide)) (fun hh => absurd ((hcond10 t0_5).mp hh) (by decide)) (iblk m c 0 t0_5) (iblk m c 1 t0_5) (iblk m c 2 t0_5) (iblk m c 3 t0_5) (iblk m c 4 t0_5) (iblk m c 5 t0_5) (iblk m c 6 t0_5) (G4 m c) (U4 m c)
/-- The output block after point 6. -/
def O6 (c : Dev nD) : Vec F S256x2880 .f32 := outG8 c (grid0.coords t0_6) (ms0 t0_6) (hs0 t0_6) (ms1 t0_6) (hs1 t0_6) (ms2 t0_6) (hs2 t0_6) (ms3 t0_6) (hs3 t0_6) (ms4 t0_6) (hs4 t0_6) (ms5 t0_6) (hs5 t0_6) (ms6 t0_6) (hs6 t0_6) (ms7 t0_6) (hs7 t0_6) scG (Memref.isWhole_whole _) scU (Memref.isWhole_whole _) scH (Memref.isWhole_whole _) (fun hh => absurd ((hcond0 t0_6).mp hh) (by decide)) (fun hh => absurd ((hcond1 t0_6).mp hh) (by decide)) (fun hh => absurd ((hcond2 t0_6).mp hh) (by decide)) (fun hh => absurd ((hcond3 t0_6).mp hh) (by decide)) (fun hh => absurd ((hcond4 t0_6).mp hh) (by decide)) (fun hh => absurd ((hcond5 t0_6).mp hh) (by decide)) ((hcond6 t0_6).mpr (by decide)) (fun hh => absurd ((hcond7 t0_6).mp hh) (by decide)) (fun hh => absurd ((hcond8 t0_6).mp hh) (by decide)) (fun hh => absurd ((hcond9 t0_6).mp hh) (by decide)) (fun hh => absurd ((hcond10 t0_6).mp hh) (by decide)) (iblk m c 0 t0_6) (iblk m c 1 t0_6) (iblk m c 2 t0_6) (iblk m c 3 t0_6) (iblk m c 4 t0_6) (iblk m c 5 t0_6) (iblk m c 6 t0_6) (H5 m c)
/-- The output block after point 7. -/
def O7 (c : Dev nD) : Vec F S256x2880 .f32 := outH8 c (grid0.coords t0_7) (ms0 t0_7) (hs0 t0_7) (ms1 t0_7) (hs1 t0_7) (ms2 t0_7) (hs2 t0_7) (ms3 t0_7) (hs3 t0_7) (ms4 t0_7) (hs4 t0_7) (ms5 t0_7) (hs5 t0_7) (ms6 t0_7) (hs6 t0_7) (ms7 t0_7) (hs7 t0_7) scG (Memref.isWhole_whole _) scU (Memref.isWhole_whole _) scH (Memref.isWhole_whole _) (fun hh => absurd ((hcond0 t0_7).mp hh) (by decide)) (fun hh => absurd ((hcond1 t0_7).mp hh) (by decide)) (fun hh => absurd ((hcond2 t0_7).mp hh) (by decide)) (fun hh => absurd ((hcond3 t0_7).mp hh) (by decide)) (fun hh => absurd ((hcond4 t0_7).mp hh) (by decide)) (fun hh => absurd ((hcond5 t0_7).mp hh) (by decide)) (fun hh => absurd ((hcond6 t0_7).mp hh) (by decide)) ((hcond7 t0_7).mpr (by decide)) (fun hh => absurd ((hcond8 t0_7).mp hh) (by decide)) (fun hh => absurd ((hcond9 t0_7).mp hh) (by decide)) (fun hh => absurd ((hcond10 t0_7).mp hh) (by decide)) (iblk m c 0 t0_7) (iblk m c 1 t0_7) (iblk m c 2 t0_7) (iblk m c 3 t0_7) (iblk m c 4 t0_7) (iblk m c 5 t0_7) (iblk m c 6 t0_7) (O6 m c) (H5 m c)
/-- The output block after point 8. -/
def O8 (c : Dev nD) : Vec F S256x2880 .f32 := outI8 c (grid0.coords t0_8) (ms0 t0_8) (hs0 t0_8) (ms1 t0_8) (hs1 t0_8) (ms2 t0_8) (hs2 t0_8) (ms3 t0_8) (hs3 t0_8) (ms4 t0_8) (hs4 t0_8) (ms5 t0_8) (hs5 t0_8) (ms6 t0_8) (hs6 t0_8) (ms7 t0_8) (hs7 t0_8) scG (Memref.isWhole_whole _) scU (Memref.isWhole_whole _) scH (Memref.isWhole_whole _) (fun hh => absurd ((hcond0 t0_8).mp hh) (by decide)) (fun hh => absurd ((hcond1 t0_8).mp hh) (by decide)) (fun hh => absurd ((hcond2 t0_8).mp hh) (by decide)) (fun hh => absurd ((hcond3 t0_8).mp hh) (by decide)) (fun hh => absurd ((hcond4 t0_8).mp hh) (by decide)) (fun hh => absurd ((hcond5 t0_8).mp hh) (by decide)) (fun hh => absurd ((hcond6 t0_8).mp hh) (by decide)) (fun hh => absurd ((hcond7 t0_8).mp hh) (by decide)) ((hcond8 t0_8).mpr (by decide)) (fun hh => absurd ((hcond9 t0_8).mp hh) (by decide)) (fun hh => absurd ((hcond10 t0_8).mp hh) (by decide)) (iblk m c 0 t0_8) (iblk m c 1 t0_8) (iblk m c 2 t0_8) (iblk m c 3 t0_8) (iblk m c 4 t0_8) (iblk m c 5 t0_8) (iblk m c 6 t0_8) (O7 m c) (H5 m c)
/-- The output block after point 9. -/
def O9 (c : Dev nD) : Vec F S256x2880 .f32 := outJ8 c (grid0.coords t0_9) (ms0 t0_9) (hs0 t0_9) (ms1 t0_9) (hs1 t0_9) (ms2 t0_9) (hs2 t0_9) (ms3 t0_9) (hs3 t0_9) (ms4 t0_9) (hs4 t0_9) (ms5 t0_9) (hs5 t0_9) (ms6 t0_9) (hs6 t0_9) (ms7 t0_9) (hs7 t0_9) scG (Memref.isWhole_whole _) scU (Memref.isWhole_whole _) scH (Memref.isWhole_whole _) (fun hh => absurd ((hcond0 t0_9).mp hh) (by decide)) (fun hh => absurd ((hcond1 t0_9).mp hh) (by decide)) (fun hh => absurd ((hcond2 t0_9).mp hh) (by decide)) (fun hh => absurd ((hcond3 t0_9).mp hh) (by decide)) (fun hh => absurd ((hcond4 t0_9).mp hh) (by decide)) (fun hh => absurd ((hcond5 t0_9).mp hh) (by decide)) (fun hh => absurd ((hcond6 t0_9).mp hh) (by decide)) (fun hh => absurd ((hcond7 t0_9).mp hh) (by decide)) (fun hh => absurd ((hcond8 t0_9).mp hh) (by decide)) ((hcond9 t0_9).mpr (by decide)) (fun hh => absurd ((hcond10 t0_9).mp hh) (by decide)) (iblk m c 0 t0_9) (iblk m c 1 t0_9) (iblk m c 2 t0_9) (iblk m c 3 t0_9) (iblk m c 4 t0_9) (iblk m c 5 t0_9) (iblk m c 6 t0_9) (O8 m c) (H5 m c)
/-- The output block after point 10. -/
def O10 (c : Dev nD) : Vec F S256x2880 .f32 := outK8 c (grid0.coords t0_10) (ms0 t0_10) (hs0 t0_10) (ms1 t0_10) (hs1 t0_10) (ms2 t0_10) (hs2 t0_10) (ms3 t0_10) (hs3 t0_10) (ms4 t0_10) (hs4 t0_10) (ms5 t0_10) (hs5 t0_10) (ms6 t0_10) (hs6 t0_10) (ms7 t0_10) (hs7 t0_10) scG (Memref.isWhole_whole _) scU (Memref.isWhole_whole _) scH (Memref.isWhole_whole _) (fun hh => absurd ((hcond0 t0_10).mp hh) (by decide)) (fun hh => absurd ((hcond1 t0_10).mp hh) (by decide)) (fun hh => absurd ((hcond2 t0_10).mp hh) (by decide)) (fun hh => absurd ((hcond3 t0_10).mp hh) (by decide)) (fun hh => absurd ((hcond4 t0_10).mp hh) (by decide)) (fun hh => absurd ((hcond5 t0_10).mp hh) (by decide)) (fun hh => absurd ((hcond6 t0_10).mp hh) (by decide)) (fun hh => absurd ((hcond7 t0_10).mp hh) (by decide)) (fun hh => absurd ((hcond8 t0_10).mp hh) (by decide)) (fun hh => absurd ((hcond9 t0_10).mp hh) (by decide)) ((hcond10 t0_10).mpr (by decide)) (iblk m c 0 t0_10) (iblk m c 1 t0_10) (iblk m c 2 t0_10) (iblk m c 3 t0_10) (iblk m c 4 t0_10) (iblk m c 5 t0_10) (iblk m c 6 t0_10) (O9 m c) (H5 m c)

/-- The output block after point `n` of the second phase (at the idle points nothing consults it). -/
def outAt (c : Dev nD) (n : ℕ) : Vec F S256x2880 .f32 :=
  match n with
  | 7 => O7 m c
  | 8 => O8 m c
  | 9 => O9 m c
  | 10 => O10 m c
  | _ => O6 m c

/-- The region invariant before point `n`. -/
def PhiS (c : Dev nD) (n : ℕ) : sProp 𝕄 :=
  match n with
  | 0 => Pipeline.ΦA spec0 c
  | 1 => iprop(iprop(owns (c : Thread nD τ) scG fullShare (G0 m c) ∗ owns (c : Thread nD τ) scU fullShare (U0 m c) ∗ (∃ d, owns (c : Thread nD τ) scH fullShare d)) ∗ (∃ r, prngReg c r))
  | 2 => iprop(iprop(owns (c : Thread nD τ) scG fullShare (G1 m c) ∗ owns (c : Thread nD τ) scU fullShare (U1 m c) ∗ (∃ d, owns (c : Thread nD τ) scH fullShare d)) ∗ (∃ r, prngReg c r))
  | 3 => iprop(iprop(owns (c : Thread nD τ) scG fullShare (G2 m c) ∗ owns (c : Thread nD τ) scU fullShare (U2 m c) ∗ (∃ d, owns (c : Thread nD τ) scH fullShare d)) ∗ (∃ r, prngReg c r))
  | 4 => iprop(iprop(owns (c : Thread nD τ) scG fullShare (G3 m c) ∗ owns (c : Thread nD τ) scU fullShare (U3 m c) ∗ (∃ d, owns (c : Thread nD τ) scH fullShare d)) ∗ (∃ r, prngReg c r))
  | 5 => iprop(iprop(owns (c : Thread nD τ) scG fullShare (G4 m c) ∗ owns (c : Thread nD τ) scU fullShare (U4 m c) ∗ (∃ d, owns (c : Thread nD τ) scH fullShare d)) ∗ (∃ r, prngReg c r))
  | _ => iprop(iprop((∃ d, owns (c : Thread nD τ) scG fullShare d) ∗ (∃ d, owns (c : Thread nD τ) scU fullShare d) ∗ owns (c : Thread nD τ) scH fullShare (H5 m c)) ∗ (∃ r, prngReg c r))

/-- The invariant before each of the points, and after the last. -/
theorem PhiS_0 (c : Dev nD) : PhiS m c 0 = (Pipeline.ΦA spec0 c : sProp 𝕄) := rfl
theorem PhiS_1 (c : Dev nD) : PhiS m c 1 = (iprop(iprop(owns (c : Thread nD τ) scG fullShare (G0 m c) ∗ owns (c : Thread nD τ) scU fullShare (U0 m c) ∗ (∃ d, owns (c : Thread nD τ) scH fullShare d)) ∗ (∃ r, prngReg c r)) : sProp 𝕄) := rfl
theorem PhiS_2 (c : Dev nD) : PhiS m c 2 = (iprop(iprop(owns (c : Thread nD τ) scG fullShare (G1 m c) ∗ owns (c : Thread nD τ) scU fullShare (U1 m c) ∗ (∃ d, owns (c : Thread nD τ) scH fullShare d)) ∗ (∃ r, prngReg c r)) : sProp 𝕄) := rfl
theorem PhiS_3 (c : Dev nD) : PhiS m c 3 = (iprop(iprop(owns (c : Thread nD τ) scG fullShare (G2 m c) ∗ owns (c : Thread nD τ) scU fullShare (U2 m c) ∗ (∃ d, owns (c : Thread nD τ) scH fullShare d)) ∗ (∃ r, prngReg c r)) : sProp 𝕄) := rfl
theorem PhiS_4 (c : Dev nD) : PhiS m c 4 = (iprop(iprop(owns (c : Thread nD τ) scG fullShare (G3 m c) ∗ owns (c : Thread nD τ) scU fullShare (U3 m c) ∗ (∃ d, owns (c : Thread nD τ) scH fullShare d)) ∗ (∃ r, prngReg c r)) : sProp 𝕄) := rfl
theorem PhiS_5 (c : Dev nD) : PhiS m c 5 = (iprop(iprop(owns (c : Thread nD τ) scG fullShare (G4 m c) ∗ owns (c : Thread nD τ) scU fullShare (U4 m c) ∗ (∃ d, owns (c : Thread nD τ) scH fullShare d)) ∗ (∃ r, prngReg c r)) : sProp 𝕄) := rfl
theorem PhiS_6 (c : Dev nD) : PhiS m c 6 = (iprop(iprop((∃ d, owns (c : Thread nD τ) scG fullShare d) ∗ (∃ d, owns (c : Thread nD τ) scU fullShare d) ∗ owns (c : Thread nD τ) scH fullShare (H5 m c)) ∗ (∃ r, prngReg c r)) : sProp 𝕄) := rfl
theorem PhiS_7 (c : Dev nD) : PhiS m c 7 = (iprop(iprop((∃ d, owns (c : Thread nD τ) scG fullShare d) ∗ (∃ d, owns (c : Thread nD τ) scU fullShare d) ∗ owns (c : Thread nD τ) scH fullShare (H5 m c)) ∗ (∃ r, prngReg c r)) : sProp 𝕄) := rfl
theorem PhiS_8 (c : Dev nD) : PhiS m c 8 = (iprop(iprop((∃ d, owns (c : Thread nD τ) scG fullShare d) ∗ (∃ d, owns (c : Thread nD τ) scU fullShare d) ∗ owns (c : Thread nD τ) scH fullShare (H5 m c)) ∗ (∃ r, prngReg c r)) : sProp 𝕄) := rfl
theorem PhiS_9 (c : Dev nD) : PhiS m c 9 = (iprop(iprop((∃ d, owns (c : Thread nD τ) scG fullShare d) ∗ (∃ d, owns (c : Thread nD τ) scU fullShare d) ∗ owns (c : Thread nD τ) scH fullShare (H5 m c)) ∗ (∃ r, prngReg c r)) : sProp 𝕄) := rfl
theorem PhiS_10 (c : Dev nD) : PhiS m c 10 = (iprop(iprop((∃ d, owns (c : Thread nD τ) scG fullShare d) ∗ (∃ d, owns (c : Thread nD τ) scU fullShare d) ∗ owns (c : Thread nD τ) scH fullShare (H5 m c)) ∗ (∃ r, prngReg c r)) : sProp 𝕄) := rfl
theorem PhiS_11 (c : Dev nD) : PhiS m c 11 = (iprop(iprop((∃ d, owns (c : Thread nD τ) scG fullShare d) ∗ (∃ d, owns (c : Thread nD τ) scU fullShare d) ∗ owns (c : Thread nD τ) scH fullShare (H5 m c)) ∗ (∃ r, prngReg c r)) : sProp 𝕄) := rfl
theorem outAt_6 (c : Dev nD) : outAt m c 6 = O6 m c := rfl
theorem outAt_7 (c : Dev nD) : outAt m c 7 = O7 m c := rfl
theorem outAt_8 (c : Dev nD) : outAt m c 8 = O8 m c := rfl
theorem outAt_9 (c : Dev nD) : outAt m c 9 = O9 m c := rfl
theorem outAt_10 (c : Dev nD) : outAt m c 10 = O10 m c := rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t.val
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outAt m c t.val := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-- An input's buffer is handed back at its block. -/
theorem leaves0 (c : Dev nD) (t : Fin cfg0.N) : (dats m 0 c).leavesExact 0 t = owns (c : Thread nD τ) (ms0 t) fullShare (iblk m c 0 t) := by
  unfold Dat.leavesExact; rw [live_in 0 (by decide) t, after0]
theorem leaves1 (c : Dev nD) (t : Fin cfg0.N) : (dats m 0 c).leavesExact 1 t = owns (c : Thread nD τ) (ms1 t) fullShare (iblk m c 1 t) := by
  unfold Dat.leavesExact; rw [live_in 1 (by decide) t, after1]
theorem leaves2 (c : Dev nD) (t : Fin cfg0.N) : (dats m 0 c).leavesExact 2 t = owns (c : Thread nD τ) (ms2 t) fullShare (iblk m c 2 t) := by
  unfold Dat.leavesExact; rw [live_in 2 (by decide) t, after2]
theorem leaves3 (c : Dev nD) (t : Fin cfg0.N) : (dats m 0 c).leavesExact 3 t = owns (c : Thread nD τ) (ms3 t) fullShare (iblk m c 3 t) := by
  unfold Dat.leavesExact; rw [live_in 3 (by decide) t, after3]
theorem leaves4 (c : Dev nD) (t : Fin cfg0.N) : (dats m 0 c).leavesExact 4 t = owns (c : Thread nD τ) (ms4 t) fullShare (iblk m c 4 t) := by
  unfold Dat.leavesExact; rw [live_in 4 (by decide) t, after4]
theorem leaves5 (c : Dev nD) (t : Fin cfg0.N) : (dats m 0 c).leavesExact 5 t = owns (c : Thread nD τ) (ms5 t) fullShare (iblk m c 5 t) := by
  unfold Dat.leavesExact; rw [live_in 5 (by decide) t, after5]
theorem leaves6 (c : Dev nD) (t : Fin cfg0.N) : (dats m 0 c).leavesExact 6 t = owns (c : Thread nD τ) (ms6 t) fullShare (iblk m c 6 t) := by
  unfold Dat.leavesExact; rw [live_in 6 (by decide) t, after6]

/-! ## The output window's buffer, point by point -/

theorem idle_lt : ∀ t : Fin cfg0.N, t.val < 6 → cfg0.idle 7 (grid0.coords t) = true := by decide +kernel
theorem idle_ge : ∀ t : Fin cfg0.N, 6 ≤ t.val → cfg0.idle 7 (grid0.coords t) = false := by decide +kernel
theorem flush_ne : ∀ t : Fin cfg0.N, t.val ≠ 10 → (cfg0.win 7).flush t = false := by decide +kernel
theorem flush_last : ∀ t : Fin cfg0.N, t.val = 10 → (cfg0.win 7).flush t = true := by decide +kernel

/-- Up to point 6 the output's buffer holds what it held when the region began: nothing fetches into it, nothing
    writes it back, and the body leaves it alone at the idle points. -/
theorem before7_early (c : Dev nD) : ∀ (n : ℕ) (hn : n < cfg0.N), n ≤ 6 → ∀ d, (dats m 0 c).before 7 ⟨n, hn⟩ d = d
  | 0, hn, _, d => by
    unfold Dat.before
    rw [(cfg0.win 7).fetch_out rfl, if_neg Bool.false_ne_true, if_pos rfl]
  | n + 1, hn, h6, d => by
    rw [(dats m 0 c).before_of_pos 7 ⟨n + 1, hn⟩ (Nat.succ_ne_zero n) ((cfg0.win 7).fetch_out rfl _)]
    rw [flush_ne ⟨n + 1 - 1, _⟩ (by show n + 1 - 1 ≠ 10; omega), if_neg Bool.false_ne_true]
    unfold Dat.left
    rw [idle_lt ⟨n + 1 - 1, _⟩ (by show n + 1 - 1 < 6; omega)]
    exact before7_early c n (Nat.lt_of_succ_lt hn) (by omega) d

theorem before7_early' (c : Dev nD) (t : Fin cfg0.N) (h6 : t.val ≤ 6) (d) : (dats m 0 c).before 7 t d = d :=
  before7_early m c t.val t.isLt h6 d

/-- From point 7 on it holds what the body left at the point before: that point stored the whole block and did not
    write it back. -/
theorem before7_late (c : Dev nD) (t : Fin cfg0.N) (h7 : 7 ≤ t.val) (d) :
    (dats m 0 c).before 7 t d = outAt m c (t.val - 1) := by
  have hN : t.val < 11 := lt_of_lt_of_eq t.isLt (show cfg0.N = 11 from N_0)
  rw [(dats m 0 c).before_of_pos 7 t (by omega) ((cfg0.win 7).fetch_out rfl _)]
  rw [flush_ne ⟨t.val - 1, _⟩ (by show t.val - 1 ≠ 10; omega), if_neg Bool.false_ne_true]
  unfold Dat.left
  rw [idle_ge ⟨t.val - 1, _⟩ (by show 6 ≤ t.val - 1; omega)]
  dsimp only
  unfold Dat.kept
  rw [Pipeline.fill_of_clip_none (cfg := cfg0) 7 _ (fun _ => rfl) d ((dats m 0 c).after 7 _), Window.fill_cut]
  dsimp only [dats]

/-- At a live point the output's buffer is handed back at what the step left. -/
theorem leaves7_live (c : Dev nD) (t : Fin cfg0.N) (h6 : 6 ≤ t.val) :
    (dats m 0 c).leavesExact 7 t = owns (c : Thread nD τ) (ms7 t) fullShare (outAt m c t.val) := by
  unfold Dat.leavesExact; rw [idle_ge t h6, after7]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 1600000 in
/-- The body at point 0. -/
theorem sound0 (c : Dev nD) :
    bodyPre m c t0_0 ⊢ wp frame (wpE (defs₀ (F := F)) Variants.none c none) Set.univ (bodyAt0 t0_0) (fun _ => bodyPost m c t0_0) := by
  unfold bodyPre bodyPost bodyAt0
  simp only [before0, before1, before2, before3, before4, before5, before6]
  rw [show (dats m 0 c).owesAt () (t0_0 : Fin cfg0.N).succ = (dats m 0 c).owesAt () (t0_0 : Fin cfg0.N).castSucc from rfl]
  rw [show (dats m 0 c).Φ (t0_0 : Fin cfg0.N).succ = PhiS m c 1 from rfl, show (dats m 0 c).Φ (t0_0 : Fin cfg0.N).castSucc = PhiS m c 0 from rfl]
  rw [leaves0, leaves1, leaves2, leaves3, leaves4, leaves5, leaves6]
  rw [Dat.leavesExact_idle (dats m 0 c) 7 t0_0 (idle_lt _ (by decide)) (flush_ne _ (by decide))]
  simp only [before7_early' m c t0_0 (by decide)]
  rw [PhiS_0, PhiS_1]
  rw [PhiA_eq]
  unfold G0 U0
  unfold outA9 outA10
  iintro ⟨⟨⟨HG, HU, HH⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runA c (grid0.coords t0_0) (ms0 t0_0) (hs0 t0_0) (ms1 t0_0) (hs1 t0_0) (ms2 t0_0) (hs2 t0_0) (ms3 t0_0) (hs3 t0_0) (ms4 t0_0) (hs4 t0_0) (ms5 t0_0) (hs5 t0_0) (ms6 t0_0) (hs6 t0_0) (ms7 t0_0) (hs7 t0_0) scG (Memref.isWhole_whole _) scU (Memref.isWhole_whole _) scH (Memref.isWhole_whole _) ((hcond0 t0_0).mpr (by decide)) (fun hh => absurd ((hcond1 t0_0).mp hh) (by decide)) (fun hh => absurd ((hcond2 t0_0).mp hh) (by decide)) (fun hh => absurd ((hcond3 t0_0).mp hh) (by decide)) (fun hh => absurd ((hcond4 t0_0).mp hh) (by decide)) (fun hh => absurd ((hcond5 t0_0).mp hh) (by decide)) (fun hh => absurd ((hcond6 t0_0).mp hh) (by decide)) (fun hh => absurd ((hcond7 t0_0).mp hh) (by decide)) (fun hh => absurd ((hcond8 t0_0).mp hh) (by decide)) (fun hh => absurd ((hcond9 t0_0).mp hh) (by decide)) (fun hh => absurd ((hcond10 t0_0).mp hh) (by decide)) (iblk m c 0 t0_0) (iblk m c 1 t0_0) (iblk m c 2 t0_0) (iblk m c 3 t0_0) (iblk m c 4 t0_0) (iblk m c 5 t0_0) (iblk m c 6 t0_0) ).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HG]; · iexact HG
  isplitl [HU]; · iexact HU
  isplitl [HH]; · iexact HH
  iintro ⟨H0, H1, H2, H3, H4, H5, H6, R8, ⟨%eR9, R9⟩, ⟨%eR10, R10⟩, R11⟩
  isplitl [R9 R10 R11 Hg]
  · isplitl [R9 R10 R11]
    · isplitl [R9]
      · unfold owns; iexists _; isplitr
        swap; · iexact R9
        ipureintro; exact View.read_writes_of_cover _ _ _ _ _ (covA9 c _ _ _ _ _ _ _ _ _ _ _ _ _ _ _ _ _ _ _ _ _ _ _ _ _ _ _ _ _ _ _ _ _ _ _ _ _ _ _ _ _)
      isplitl [R10]
      · unfold owns; iexists _; isplitr
        swap; · iexact R10
        ipureintro; exact View.read_writes_of_cover _ _ _ _ _ (covA10 c _ _ _ _ _ _ _ _ _ _ _ _ _ _ _ _ _ _ _ _ _ _ _ _ _ _ _ _ _ _ _ _ _ _ _ _ _ _ _ _ _)
      iexact R11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact R8

set_option maxHeartbeats 1600000 in
/-- The body at point 1. -/
theorem sound1 (c : Dev nD) :
    bodyPre m c t0_1 ⊢ wp frame (wpE (defs₀ (F := F)) Variants.none c none) Set.univ (bodyAt0 t0_1) (fun _ => bodyPost m c t0_1) := by
  unfold bodyPre bodyPost bodyAt0
  simp only [before0, before1, before2, before3, before4, before5, before6]
  rw [show (dats m 0 c).owesAt () (t0_1 : Fin cfg0.N).succ = (dats m 0 c).owesAt () (t0_1 : Fin cfg0.N).castSucc from rfl]
  rw [show (dats m 0 c).Φ (t0_1 : Fin cfg0.N).succ = PhiS m c 2 from rfl, show (dats m 0 c).Φ (t0_1 : Fin cfg0.N).castSucc = PhiS m c 1 from rfl]
  rw [leaves0, leaves1, leaves2, leaves3, leaves4, leaves5, leaves6]
  rw [Dat.leavesExact_idle (dats m 0 c) 7 t0_1 (idle_lt _ (by decide)) (flush_ne _ (by decide))]
  simp only [before7_early' m c t0_1 (by decide)]
  rw [PhiS_1, PhiS_2]
  unfold G1 U1
  unfold outB9 outB10
  iintro ⟨⟨⟨HG, HU, HH⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runB c (grid0.coords t0_1) (ms0 t0_1) (hs0 t0_1) (ms1 t0_1) (hs1 t0_1) (ms2 t0_1) (hs2 t0_1) (ms3 t0_1) (hs3 t0_1) (ms4 t0_1) (hs4 t0_1) (ms5 t0_1) (hs5 t0_1) (ms6 t0_1) (hs6 t0_1) (ms7 t0_1) (hs7 t0_1) scG (Memref.isWhole_whole _) scU (Memref.isWhole_whole _) scH (Memref.isWhole_whole _) (fun hh => absurd ((hcond0 t0_1).mp hh) (by decide)) ((hcond1 t0_1).mpr (by decide)) (fun hh => absurd ((hcond2 t0_1).mp hh) (by decide)) (fun hh => absurd ((hcond3 t0_1).mp hh) (by decide)) (fun hh => absurd ((hcond4 t0_1).mp hh) (by decide)) (fun hh => absurd ((hcond5 t0_1).mp hh) (by decide)) (fun hh => absurd ((hcond6 t0_1).mp hh) (by decide)) (fun hh => absurd ((hcond7 t0_1).mp hh) (by decide)) (fun hh => absurd ((hcond8 t0_1).mp hh) (by decide)) (fun hh => absurd ((hcond9 t0_1).mp hh) (by decide)) (fun hh => absurd ((hcond10 t0_1).mp hh) (by decide)) (iblk m c 0 t0_1) (iblk m c 1 t0_1) (iblk m c 2 t0_1) (iblk m c 3 t0_1) (iblk m c 4 t0_1) (iblk m c 5 t0_1) (iblk m c 6 t0_1) (G0 m c) (U0 m c)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HG]; · iexact HG
  isplitl [HU]; · iexact HU
  isplitl [HH]; · iexact HH
  iintro ⟨H0, H1, H2, H3, H4, H5, H6, R8, ⟨%eR9, R9⟩, ⟨%eR10, R10⟩, R11⟩
  isplitl [R9 R10 R11 Hg]
  · isplitl [R9 R10 R11]
    · isplitl [R9]
      · unfold owns; iexists _; isplitr
        swap; · iexact R9
        ipureintro; exact View.read_writes_of_cover _ _ _ _ _ (covB9 c _ _ _ _ _ _ _ _ _ _ _ _ _ _ _ _ _ _ _ _ _ _ _ _ _ _ _ _ _ _ _ _ _ _ _ _ _ _ _ _ _ _ _)
      isplitl [R10]
      · unfold owns; iexists _; isplitr
        swap; · iexact R10
        ipureintro; exact View.read_writes_of_cover _ _ _ _ _ (covB10 c _ _ _ _ _ _ _ _ _ _ _ _ _ _ _ _ _ _ _ _ _ _ _ _ _ _ _ _ _ _ _ _ _ _ _ _ _ _ _ _ _ _ _)
      iexact R11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact R8

set_option maxHeartbeats 1600000 in
/-- The body at point 2. -/
theorem sound2 (c : Dev nD) :
    bodyPre m c t0_2 ⊢ wp frame (wpE (defs₀ (F := F)) Variants.none c none) Set.univ (bodyAt0 t0_2) (fun _ => bodyPost m c t0_2) := by
  unfold bodyPre bodyPost bodyAt0
  simp only [before0, before1, before2, before3, before4, before5, before6]
  rw [show (dats m 0 c).owesAt () (t0_2 : Fin cfg0.N).succ = (dats m 0 c).owesAt () (t0_2 : Fin cfg0.N).castSucc from rfl]
  rw [show (dats m 0 c).Φ (t0_2 : Fin cfg0.N).succ = PhiS m c 3 from rfl, show (dats m 0 c).Φ (t0_2 : Fin cfg0.N).castSucc = PhiS m c 2 from rfl]
  rw [leaves0, leaves1, leaves2, leaves3, leaves4, leaves5, leaves6]
  rw [Dat.leavesExact_idle (dats m 0 c) 7 t0_2 (idle_lt _ (by decide)) (flush_ne _ (by decide))]
  simp only [before7_early' m c t0_2 (by decide)]
  rw [PhiS_2, PhiS_3]
  unfold G2 U2
  unfold outC9 outC10
  iintro ⟨⟨⟨HG, HU, HH⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runC c (grid0.coords t0_2) (ms0 t0_2) (hs0 t0_2) (ms1 t0_2) (hs1 t0_2) (ms2 t0_2) (hs2 t0_2) (ms3 t0_2) (hs3 t0_2) (ms4 t0_2) (hs4 t0_2) (ms5 t0_2) (hs5 t0_2) (ms6 t0_2) (hs6 t0_2) (ms7 t0_2) (hs7 t0_2) scG (Memref.isWhole_whole _) scU (Memref.isWhole_whole _) scH (Memref.isWhole_whole _) (fun hh => absurd ((hcond0 t0_2).mp hh) (by decide)) (fun hh => absurd ((hcond1 t0_2).mp hh) (by decide)) ((hcond2 t0_2).mpr (by decide)) (fun hh => absurd ((hcond3 t0_2).mp hh) (by decide)) (fun hh => absurd ((hcond4 t0_2).mp hh) (by decide)) (fun hh => absurd ((hcond5 t0_2).mp hh) (by decide)) (fun hh => absurd ((hcond6 t0_2).mp hh) (by decide)) (fun hh => absurd ((hcond7 t0_2).mp hh) (by decide)) (fun hh => absurd ((hcond8 t0_2).mp hh) (by decide)) (fun hh => absurd ((hcond9 t0_2).mp hh) (by decide)) (fun hh => absurd ((hcond10 t0_2).mp hh) (by decide)) (iblk m c 0 t0_2) (iblk m c 1 t0_2) (iblk m c 2 t0_2) (iblk m c 3 t0_2) (iblk m c 4 t0_2) (iblk m c 5 t0_2) (iblk m c 6 t0_2) (G1 m c) (U1 m c)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HG]; · iexact HG
  isplitl [HU]; · iexact HU
  isplitl [HH]; · iexact HH
  iintro ⟨H0, H1, H2, H3, H4, H5, H6, R8, ⟨%eR9, R9⟩, ⟨%eR10, R10⟩, R11⟩
  isplitl [R9 R10 R11 Hg]
  · isplitl [R9 R10 R11]
    · isplitl [R9]
      · unfold owns; iexists _; isplitr
        swap; · iexact R9
        ipureintro; exact View.read_writes_of_cover _ _ _ _ _ (covC9 c _ _ _ _ _ _ _ _ _ _ _ _ _ _ _ _ _ _ _ _ _ _ _ _ _ _ _ _ _ _ _ _ _ _ _ _ _ _ _ _ _ _ _)
      isplitl [R10]
      · unfold owns; iexists _; isplitr
        swap; · iexact R10
        ipureintro; exact View.read_writes_of_cover _ _ _ _ _ (covC10 c _ _ _ _ _ _ _ _ _ _ _ _ _ _ _ _ _ _ _ _ _ _ _ _ _ _ _ _ _ _ _ _ _ _ _ _ _ _ _ _ _ _ _)
      iexact R11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact R8

set_option maxHeartbeats 1600000 in
/-- The body at point 3. -/
theorem sound3 (c : Dev nD) :
    bodyPre m c t0_3 ⊢ wp frame (wpE (defs₀ (F := F)) Variants.none c none) Set.univ (bodyAt0 t0_3) (fun _ => bodyPost m c t0_3) := by
  unfold bodyPre bodyPost bodyAt0
  simp only [before0, before1, before2, before3, before4, before5, before6]
  rw [show (dats m 0 c).owesAt () (t0_3 : Fin cfg0.N).succ = (dats m 0 c).owesAt () (t0_3 : Fin cfg0.N).castSucc from rfl]
  rw [show (dats m 0 c).Φ (t0_3 : Fin cfg0.N).succ = PhiS m c 4 from rfl, show (dats m 0 c).Φ (t0_3 : Fin cfg0.N).castSucc = PhiS m c 3 from rfl]
  rw [leaves0, leaves1, leaves2, leaves3, leaves4, leaves5, leaves6]
  rw [Dat.leavesExact_idle (dats m 0 c) 7 t0_3 (idle_lt _ (by decide)) (flush_ne _ (by decide))]
  simp only [before7_early' m c t0_3 (by decide)]
  rw [PhiS_3, PhiS_4]
  unfold G3 U3
  unfold outD9 outD10
  iintro ⟨⟨⟨HG, HU, HH⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runD c (grid0.coords t0_3) (ms0 t0_3) (hs0 t0_3) (ms1 t0_3) (hs1 t0_3) (ms2 t0_3) (hs2 t0_3) (ms3 t0_3) (hs3 t0_3) (ms4 t0_3) (hs4 t0_3) (ms5 t0_3) (hs5 t0_3) (ms6 t0_3) (hs6 t0_3) (ms7 t0_3) (hs7 t0_3) scG (Memref.isWhole_whole _) scU (Memref.isWhole_whole _) scH (Memref.isWhole_whole _) (fun hh => absurd ((hcond0 t0_3).mp hh) (by decide)) (fun hh => absurd ((hcond1 t0_3).mp hh) (by decide)) (fun hh => absurd ((hcond2 t0_3).mp hh) (by decide)) ((hcond3 t0_3).mpr (by decide)) (fun hh => absurd ((hcond4 t0_3).mp hh) (by decide)) (fun hh => absurd ((hcond5 t0_3).mp hh) (by decide)) (fun hh => absurd ((hcond6 t0_3).mp hh) (by decide)) (fun hh => absurd ((hcond7 t0_3).mp hh) (by decide)) (fun hh => absurd ((hcond8 t0_3).mp hh) (by decide)) (fun hh => absurd ((hcond9 t0_3).mp hh) (by decide)) (fun hh => absurd ((hcond10 t0_3).mp hh) (by decide)) (iblk m c 0 t0_3) (iblk m c 1 t0_3) (iblk m c 2 t0_3) (iblk m c 3 t0_3) (iblk m c 4 t0_3) (iblk m c 5 t0_3) (iblk m c 6 t0_3) (G2 m c) (U2 m c)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HG]; · iexact HG
  isplitl [HU]; · iexact HU
  isplitl [HH]; · iexact HH
  iintro ⟨H0, H1, H2, H3, H4, H5, H6, R8, ⟨%eR9, R9⟩, ⟨%eR10, R10⟩, R11⟩
  isplitl [R9 R10 R11 Hg]
  · isplitl [R9 R10 R11]
    · isplitl [R9]
      · unfold owns; iexists _; isplitr
        swap; · iexact R9
        ipureintro; exact View.read_writes_of_cover _ _ _ _ _ (covD9 c _ _ _ _ _ _ _ _ _ _ _ _ _ _ _ _ _ _ _ _ _ _ _ _ _ _ _ _ _ _ _ _ _ _ _ _ _ _ _ _ _ _ _)
      isplitl [R10]
      · unfold owns; iexists _; isplitr
        swap; · iexact R10
        ipureintro; exact View.read_writes_of_cover _ _ _ _ _ (covD10 c _ _ _ _ _ _ _ _ _ _ _ _ _ _ _ _ _ _ _ _ _ _ _ _ _ _ _ _ _ _ _ _ _ _ _ _ _ _ _ _ _ _ _)
      iexact R11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact R8

set_option maxHeartbeats 1600000 in
/-- The body at point 4. -/
theorem sound4 (c : Dev nD) :
    bodyPre m c t0_4 ⊢ wp frame (wpE (defs₀ (F := F)) Variants.none c none) Set.univ (bodyAt0 t0_4) (fun _ => bodyPost m c t0_4) := by
  unfold bodyPre bodyPost bodyAt0
  simp only [before0, before1, before2, before3, before4, before5, before6]
  rw [show (dats m 0 c).owesAt () (t0_4 : Fin cfg0.N).succ = (dats m 0 c).owesAt () (t0_4 : Fin cfg0.N).castSucc from rfl]
  rw [show (dats m 0 c).Φ (t0_4 : Fin cfg0.N).succ = PhiS m c 5 from rfl, show (dats m 0 c).Φ (t0_4 : Fin cfg0.N).castSucc = PhiS m c 4 from rfl]
  rw [leaves0, leaves1, leaves2, leaves3, leaves4, leaves5, leaves6]
  rw [Dat.leavesExact_idle (dats m 0 c) 7 t0_4 (idle_lt _ (by decide)) (flush_ne _ (by decide))]
  simp only [before7_early' m c t0_4 (by decide)]
  rw [PhiS_4, PhiS_5]
  unfold G4 U4
  unfold outE9 outE10
  iintro ⟨⟨⟨HG, HU, HH⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runE c (grid0.coords t0_4) (ms0 t0_4) (hs0 t0_4) (ms1 t0_4) (hs1 t0_4) (ms2 t0_4) (hs2 t0_4) (ms3 t0_4) (hs3 t0_4) (ms4 t0_4) (hs4 t0_4) (ms5 t0_4) (hs5 t0_4) (ms6 t0_4) (hs6 t0_4) (ms7 t0_4) (hs7 t0_4) scG (Memref.isWhole_whole _) scU (Memref.isWhole_whole _) scH (Memref.isWhole_whole _) (fun hh => absurd ((hcond0 t0_4).mp hh) (by decide)) (fun hh => absurd ((hcond1 t0_4).mp hh) (by decide)) (fun hh => absurd ((hcond2 t0_4).mp hh) (by decide)) (fun hh => absurd ((hcond3 t0_4).mp hh) (by decide)) ((hcond4 t0_4).mpr (by decide)) (fun hh => absurd ((hcond5 t0_4).mp hh) (by decide)) (fun hh => absurd ((hcond6 t0_4).mp hh) (by decide)) (fun hh => absurd ((hcond7 t0_4).mp hh) (by decide)) (fun hh => absurd ((hcond8 t0_4).mp hh) (by decide)) (fun hh => absurd ((hcond9 t0_4).mp hh) (by decide)) (fun hh => absurd ((hcond10 t0_4).mp hh) (by decide)) (iblk m c 0 t0_4) (iblk m c 1 t0_4) (iblk m c 2 t0_4) (iblk m c 3 t0_4) (iblk m c 4 t0_4) (iblk m c 5 t0_4) (iblk m c 6 t0_4) (G3 m c) (U3 m c)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HG]; · iexact HG
  isplitl [HU]; · iexact HU
  isplitl [HH]; · iexact HH
  iintro ⟨H0, H1, H2, H3, H4, H5, H6, R8, ⟨%eR9, R9⟩, ⟨%eR10, R10⟩, R11⟩
  isplitl [R9 R10 R11 Hg]
  · isplitl [R9 R10 R11]
    · isplitl [R9]
      · unfold owns; iexists _; isplitr
        swap; · iexact R9
        ipureintro; exact View.read_writes_of_cover _ _ _ _ _ (covE9 c _ _ _ _ _ _ _ _ _ _ _ _ _ _ _ _ _ _ _ _ _ _ _ _ _ _ _ _ _ _ _ _ _ _ _ _ _ _ _ _ _ _ _)
      isplitl [R10]
      · unfold owns; iexists _; isplitr
        swap; · iexact R10
        ipureintro; exact View.read_writes_of_cover _ _ _ _ _ (covE10 c _ _ _ _ _ _ _ _ _ _ _ _ _ _ _ _ _ _ _ _ _ _ _ _ _ _ _ _ _ _ _ _ _ _ _ _ _ _ _ _ _ _ _)
      iexact R11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact R8

set_option maxHeartbeats 1600000 in
/-- The body at point 5. -/
theorem sound5 (c : Dev nD) :
    bodyPre m c t0_5 ⊢ wp frame (wpE (defs₀ (F := F)) Variants.none c none) Set.univ (bodyAt0 t0_5) (fun _ => bodyPost m c t0_5) := by
  unfold bodyPre bodyPost bodyAt0
  simp only [before0, before1, before2, before3, before4, before5, before6]
  rw [show (dats m 0 c).owesAt () (t0_5 : Fin cfg0.N).succ = (dats m 0 c).owesAt () (t0_5 : Fin cfg0.N).castSucc from rfl]
  rw [show (dats m 0 c).Φ (t0_5 : Fin cfg0.N).succ = PhiS m c 6 from rfl, show (dats m 0 c).Φ (t0_5 : Fin cfg0.N).castSucc = PhiS m c 5 from rfl]
  rw [leaves0, leaves1, leaves2, leaves3, leaves4, leaves5, leaves6]
  rw [Dat.leavesExact_idle (dats m 0 c) 7 t0_5 (idle_lt _ (by decide)) (flush_ne _ (by decide))]
  simp only [before7_early' m c t0_5 (by decide)]
  rw [PhiS_5, PhiS_6]
  unfold H5
  unfold outF11
  iintro ⟨⟨⟨HG, HU, HH⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runF c (grid0.coords t0_5) (ms0 t0_5) (hs0 t0_5) (ms1 t0_5) (hs1 t0_5) (ms2 t0_5) (hs2 t0_5) (ms3 t0_5) (hs3 t0_5) (ms4 t0_5) (hs4 t0_5) (ms5 t0_5) (hs5 t0_5) (ms6 t0_5) (hs6 t0_5) (ms7 t0_5) (hs7 t0_5) scG (Memref.isWhole_whole _) scU (Memref.isWhole_whole _) scH (Memref.isWhole_whole _) (fun hh => absurd ((hcond0 t0_5).mp hh) (by decide)) (fun hh => absurd ((hcond1 t0_5).mp hh) (by decide)) (fun hh => absurd ((hcond2 t0_5).mp hh) (by decide)) (fun hh => absurd ((hcond3 t0_5).mp hh) (by decide)) (fun hh => absurd ((hcond4 t0_5).mp hh) (by decide)) ((hcond5 t0_5).mpr (by decide)) (fun hh => absurd ((hcond6 t0_5).mp hh) (by decide)) (fun hh => absurd ((hcond7 t0_5).mp hh) (by decide)) (fun hh => absurd ((hcond8 t0_5).mp hh) (by decide)) (fun hh => absurd ((hcond9 t0_5).mp hh) (by decide)) (fun hh => absurd ((hcond10 t0_5).mp hh) (by decide)) (iblk m c 0 t0_5) (iblk m c 1 t0_5) (iblk m c 2 t0_5) (iblk m c 3 t0_5) (iblk m c 4 t0_5) (iblk m c 5 t0_5) (iblk m c 6 t0_5) (G4 m c) (U4 m c)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HG]; · iexact HG
  isplitl [HU]; · iexact HU
  isplitl [HH]; · iexact HH
  iintro ⟨H0, H1, H2, H3, H4, H5, H6, R8, ⟨%eR9, R9⟩, ⟨%eR10, R10⟩, ⟨%eR11, R11⟩⟩
  isplitl [R9 R10 R11 Hg]
  · isplitl [R9 R10 R11]
    · isplitl [R9]
      · iexists _; unfold owns; iexists _; isplitr
        swap; · iexact R9
        ipureintro; rfl
      isplitl [R10]
      · iexists _; unfold owns; iexists _; isplitr
        swap; · iexact R10
        ipureintro; rfl
      unfold owns; iexists _; isplitr
      swap; · iexact R11
      ipureintro; exact View.read_writes_of_cover _ _ _ _ _ (covF11 c _ _ _ _ _ _ _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact R8

set_option maxHeartbeats 1600000 in
/-- The body at point 6. -/
theorem sound6 (c : Dev nD) :
    bodyPre m c t0_6 ⊢ wp frame (wpE (defs₀ (F := F)) Variants.none c none) Set.univ (bodyAt0 t0_6) (fun _ => bodyPost m c t0_6) := by
  unfold bodyPre bodyPost bodyAt0
  simp only [before0, before1, before2, before3, before4, before5, before6]
  rw [show (dats m 0 c).owesAt () (t0_6 : Fin cfg0.N).succ = (dats m 0 c).owesAt () (t0_6 : Fin cfg0.N).castSucc from rfl]
  rw [show (dats m 0 c).Φ (t0_6 : Fin cfg0.N).succ = PhiS m c 7 from rfl, show (dats m 0 c).Φ (t0_6 : Fin cfg0.N).castSucc = PhiS m c 6 from rfl]
  rw [leaves0, leaves1, leaves2, leaves3, leaves4, leaves5, leaves6]
  rw [leaves7_live m c t0_6 (by decide)]
  simp only [before7_early' m c t0_6 (by decide)]
  rw [show (t0_6 : Fin cfg0.N).val = 6 from rfl, outAt_6]
  rw [PhiS_6, PhiS_7]
  unfold O6
  unfold outG8
  iintro ⟨⟨⟨HG, HU, HH⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runG c (grid0.coords t0_6) (ms0 t0_6) (hs0 t0_6) (ms1 t0_6) (hs1 t0_6) (ms2 t0_6) (hs2 t0_6) (ms3 t0_6) (hs3 t0_6) (ms4 t0_6) (hs4 t0_6) (ms5 t0_6) (hs5 t0_6) (ms6 t0_6) (hs6 t0_6) (ms7 t0_6) (hs7 t0_6) scG (Memref.isWhole_whole _) scU (Memref.isWhole_whole _) scH (Memref.isWhole_whole _) (fun hh => absurd ((hcond0 t0_6).mp hh) (by decide)) (fun hh => absurd ((hcond1 t0_6).mp hh) (by decide)) (fun hh => absurd ((hcond2 t0_6).mp hh) (by decide)) (fun hh => absurd ((hcond3 t0_6).mp hh) (by decide)) (fun hh => absurd ((hcond4 t0_6).mp hh) (by decide)) (fun hh => absurd ((hcond5 t0_6).mp hh) (by decide)) ((hcond6 t0_6).mpr (by decide)) (fun hh => absurd ((hcond7 t0_6).mp hh) (by decide)) (fun hh => absurd ((hcond8 t0_6).mp hh) (by decide)) (fun hh => absurd ((hcond9 t0_6).mp hh) (by decide)) (fun hh => absurd ((hcond10 t0_6).mp hh) (by decide)) (iblk m c 0 t0_6) (iblk m c 1 t0_6) (iblk m c 2 t0_6) (iblk m c 3 t0_6) (iblk m c 4 t0_6) (iblk m c 5 t0_6) (iblk m c 6 t0_6) (H5 m c)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HG]; · iexact HG
  isplitl [HU]; · iexact HU
  isplitl [HH]; · iexact HH
  iintro ⟨H0, H1, H2, H3, H4, H5, H6, ⟨%eR8, R8⟩, R9, R10, R11⟩
  isplitl [R9 R10 R11 Hg]
  · isplitl [R9 R10 R11]
    · isplitl [R9]
      · iexact R9
      isplitl [R10]
      · iexact R10
      iexact R11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact R8
  ipureintro; exact View.read_writes_of_cover _ _ _ _ _ (covG8 c _ _ _ _ _ _ _ _ _ _ _ _ _ _ _ _ _ _ _ _ _ _ _ _ _ _ _ _ _ _ _ _ _ _ _ _ _ _ _ _ _ _)

set_option maxHeartbeats 1600000 in
/-- The body at point 7. -/
theorem sound7 (c : Dev nD) :
    bodyPre m c t0_7 ⊢ wp frame (wpE (defs₀ (F := F)) Variants.none c none) Set.univ (bodyAt0 t0_7) (fun _ => bodyPost m c t0_7) := by
  unfold bodyPre bodyPost bodyAt0
  simp only [before0, before1, before2, before3, before4, before5, before6]
  rw [show (dats m 0 c).owesAt () (t0_7 : Fin cfg0.N).succ = (dats m 0 c).owesAt () (t0_7 : Fin cfg0.N).castSucc from rfl]
  rw [show (dats m 0 c).Φ (t0_7 : Fin cfg0.N).succ = PhiS m c 8 from rfl, show (dats m 0 c).Φ (t0_7 : Fin cfg0.N).castSucc = PhiS m c 7 from rfl]
  rw [leaves0, leaves1, leaves2, leaves3, leaves4, leaves5, leaves6]
  rw [leaves7_live m c t0_7 (by decide)]
  simp only [before7_late m c t0_7 (by decide)]
  rw [show (t0_7 : Fin cfg0.N).val - 1 = 6 from rfl, show (t0_7 : Fin cfg0.N).val = 7 from rfl, outAt_6, outAt_7]
  rw [PhiS_7, PhiS_8]
  unfold O7
  unfold outH8
  iintro ⟨⟨⟨HG, HU, HH⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runH c (grid0.coords t0_7) (ms0 t0_7) (hs0 t0_7) (ms1 t0_7) (hs1 t0_7) (ms2 t0_7) (hs2 t0_7) (ms3 t0_7) (hs3 t0_7) (ms4 t0_7) (hs4 t0_7) (ms5 t0_7) (hs5 t0_7) (ms6 t0_7) (hs6 t0_7) (ms7 t0_7) (hs7 t0_7) scG (Memref.isWhole_whole _) scU (Memref.isWhole_whole _) scH (Memref.isWhole_whole _) (fun hh => absurd ((hcond0 t0_7).mp hh) (by decide)) (fun hh => absurd ((hcond1 t0_7).mp hh) (by decide)) (fun hh => absurd ((hcond2 t0_7).mp hh) (by decide)) (fun hh => absurd ((hcond3 t0_7).mp hh) (by decide)) (fun hh => absurd ((hcond4 t0_7).mp hh) (by decide)) (fun hh => absurd ((hcond5 t0_7).mp hh) (by decide)) (fun hh => absurd ((hcond6 t0_7).mp hh) (by decide)) ((hcond7 t0_7).mpr (by decide)) (fun hh => absurd ((hcond8 t0_7).mp hh) (by decide)) (fun hh => absurd ((hcond9 t0_7).mp hh) (by decide)) (fun hh => absurd ((hcond10 t0_7).mp hh) (by decide)) (iblk m c 0 t0_7) (iblk m c 1 t0_7) (iblk m c 2 t0_7) (iblk m c 3 t0_7) (iblk m c 4 t0_7) (iblk m c 5 t0_7) (iblk m c 6 t0_7) (O6 m c) (H5 m c)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HG]; · iexact HG
  isplitl [HU]; · iexact HU
  isplitl [HH]; · iexact HH
  iintro ⟨H0, H1, H2, H3, H4, H5, H6, ⟨%eR8, R8⟩, R9, R10, R11⟩
  isplitl [R9 R10 R11 Hg]
  · isplitl [R9 R10 R11]
    · isplitl [R9]
      · iexact R9
      isplitl [R10]
      · iexact R10
      iexact R11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact R8
  ipureintro; exact View.read_writes_of_cover _ _ _ _ _ (covH8 c _ _ _ _ _ _ _ _ _ _ _ _ _ _ _ _ _ _ _ _ _ _ _ _ _ _ _ _ _ _ _ _ _ _ _ _ _ _ _ _ _ _ _)

set_option maxHeartbeats 1600000 in
/-- The body at point 8. -/
theorem sound8 (c : Dev nD) :
    bodyPre m c t0_8 ⊢ wp frame (wpE (defs₀ (F := F)) Variants.none c none) Set.univ (bodyAt0 t0_8) (fun _ => bodyPost m c t0_8) := by
  unfold bodyPre bodyPost bodyAt0
  simp only [before0, before1, before2, before3, before4, before5, before6]
  rw [show (dats m 0 c).owesAt () (t0_8 : Fin cfg0.N).succ = (dats m 0 c).owesAt () (t0_8 : Fin cfg0.N).castSucc from rfl]
  rw [show (dats m 0 c).Φ (t0_8 : Fin cfg0.N).succ = PhiS m c 9 from rfl, show (dats m 0 c).Φ (t0_8 : Fin cfg0.N).castSucc = PhiS m c 8 from rfl]
  rw [leaves0, leaves1, leaves2, leaves3, leaves4, leaves5, leaves6]
  rw [leaves7_live m c t0_8 (by decide)]
  simp only [before7_late m c t0_8 (by decide)]
  rw [show (t0_8 : Fin cfg0.N).val - 1 = 7 from rfl, show (t0_8 : Fin cfg0.N).val = 8 from rfl, outAt_7, outAt_8]
  rw [PhiS_8, PhiS_9]
  unfold O8
  unfold outI8
  iintro ⟨⟨⟨HG, HU, HH⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runI c (grid0.coords t0_8) (ms0 t0_8) (hs0 t0_8) (ms1 t0_8) (hs1 t0_8) (ms2 t0_8) (hs2 t0_8) (ms3 t0_8) (hs3 t0_8) (ms4 t0_8) (hs4 t0_8) (ms5 t0_8) (hs5 t0_8) (ms6 t0_8) (hs6 t0_8) (ms7 t0_8) (hs7 t0_8) scG (Memref.isWhole_whole _) scU (Memref.isWhole_whole _) scH (Memref.isWhole_whole _) (fun hh => absurd ((hcond0 t0_8).mp hh) (by decide)) (fun hh => absurd ((hcond1 t0_8).mp hh) (by decide)) (fun hh => absurd ((hcond2 t0_8).mp hh) (by decide)) (fun hh => absurd ((hcond3 t0_8).mp hh) (by decide)) (fun hh => absurd ((hcond4 t0_8).mp hh) (by decide)) (fun hh => absurd ((hcond5 t0_8).mp hh) (by decide)) (fun hh => absurd ((hcond6 t0_8).mp hh) (by decide)) (fun hh => absurd ((hcond7 t0_8).mp hh) (by decide)) ((hcond8 t0_8).mpr (by decide)) (fun hh => absurd ((hcond9 t0_8).mp hh) (by decide)) (fun hh => absurd ((hcond10 t0_8).mp hh) (by decide)) (iblk m c 0 t0_8) (iblk m c 1 t0_8) (iblk m c 2 t0_8) (iblk m c 3 t0_8) (iblk m c 4 t0_8) (iblk m c 5 t0_8) (iblk m c 6 t0_8) (O7 m c) (H5 m c)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HG]; · iexact HG
  isplitl [HU]; · iexact HU
  isplitl [HH]; · iexact HH
  iintro ⟨H0, H1, H2, H3, H4, H5, H6, ⟨%eR8, R8⟩, R9, R10, R11⟩
  isplitl [R9 R10 R11 Hg]
  · isplitl [R9 R10 R11]
    · isplitl [R9]
      · iexact R9
      isplitl [R10]
      · iexact R10
      iexact R11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact R8
  ipureintro; exact View.read_writes_of_cover _ _ _ _ _ (covI8 c _ _ _ _ _ _ _ _ _ _ _ _ _ _ _ _ _ _ _ _ _ _ _ _ _ _ _ _ _ _ _ _ _ _ _ _ _ _ _ _ _ _ _)

set_option maxHeartbeats 1600000 in
/-- The body at point 9. -/
theorem sound9 (c : Dev nD) :
    bodyPre m c t0_9 ⊢ wp frame (wpE (defs₀ (F := F)) Variants.none c none) Set.univ (bodyAt0 t0_9) (fun _ => bodyPost m c t0_9) := by
  unfold bodyPre bodyPost bodyAt0
  simp only [before0, before1, before2, before3, before4, before5, before6]
  rw [show (dats m 0 c).owesAt () (t0_9 : Fin cfg0.N).succ = (dats m 0 c).owesAt () (t0_9 : Fin cfg0.N).castSucc from rfl]
  rw [show (dats m 0 c).Φ (t0_9 : Fin cfg0.N).succ = PhiS m c 10 from rfl, show (dats m 0 c).Φ (t0_9 : Fin cfg0.N).castSucc = PhiS m c 9 from rfl]
  rw [leaves0, leaves1, leaves2, leaves3, leaves4, leaves5, leaves6]
  rw [leaves7_live m c t0_9 (by decide)]
  simp only [before7_late m c t0_9 (by decide)]
  rw [show (t0_9 : Fin cfg0.N).val - 1 = 8 from rfl, show (t0_9 : Fin cfg0.N).val = 9 from rfl, outAt_8, outAt_9]
  rw [PhiS_9, PhiS_10]
  unfold O9
  unfold outJ8
  iintro ⟨⟨⟨HG, HU, HH⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runJ c (grid0.coords t0_9) (ms0 t0_9) (hs0 t0_9) (ms1 t0_9) (hs1 t0_9) (ms2 t0_9) (hs2 t0_9) (ms3 t0_9) (hs3 t0_9) (ms4 t0_9) (hs4 t0_9) (ms5 t0_9) (hs5 t0_9) (ms6 t0_9) (hs6 t0_9) (ms7 t0_9) (hs7 t0_9) scG (Memref.isWhole_whole _) scU (Memref.isWhole_whole _) scH (Memref.isWhole_whole _) (fun hh => absurd ((hcond0 t0_9).mp hh) (by decide)) (fun hh => absurd ((hcond1 t0_9).mp hh) (by decide)) (fun hh => absurd ((hcond2 t0_9).mp hh) (by decide)) (fun hh => absurd ((hcond3 t0_9).mp hh) (by decide)) (fun hh => absurd ((hcond4 t0_9).mp hh) (by decide)) (fun hh => absurd ((hcond5 t0_9).mp hh) (by decide)) (fun hh => absurd ((hcond6 t0_9).mp hh) (by decide)) (fun hh => absurd ((hcond7 t0_9).mp hh) (by decide)) (fun hh => absurd ((hcond8 t0_9).mp hh) (by decide)) ((hcond9 t0_9).mpr (by decide)) (fun hh => absurd ((hcond10 t0_9).mp hh) (by decide)) (iblk m c 0 t0_9) (iblk m c 1 t0_9) (iblk m c 2 t0_9) (iblk m c 3 t0_9) (iblk m c 4 t0_9) (iblk m c 5 t0_9) (iblk m c 6 t0_9) (O8 m c) (H5 m c)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HG]; · iexact HG
  isplitl [HU]; · iexact HU
  isplitl [HH]; · iexact HH
  iintro ⟨H0, H1, H2, H3, H4, H5, H6, ⟨%eR8, R8⟩, R9, R10, R11⟩
  isplitl [R9 R10 R11 Hg]
  · isplitl [R9 R10 R11]
    · isplitl [R9]
      · iexact R9
      isplitl [R10]
      · iexact R10
      iexact R11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact R8
  ipureintro; exact View.read_writes_of_cover _ _ _ _ _ (covJ8 c _ _ _ _ _ _ _ _ _ _ _ _ _ _ _ _ _ _ _ _ _ _ _ _ _ _ _ _ _ _ _ _ _ _ _ _ _ _ _ _ _ _ _)

set_option maxHeartbeats 1600000 in
/-- The body at point 10. -/
theorem sound10 (c : Dev nD) :
    bodyPre m c t0_10 ⊢ wp frame (wpE (defs₀ (F := F)) Variants.none c none) Set.univ (bodyAt0 t0_10) (fun _ => bodyPost m c t0_10) := by
  unfold bodyPre bodyPost bodyAt0
  simp only [before0, before1, before2, before3, before4, before5, before6]
  rw [show (dats m 0 c).owesAt () (t0_10 : Fin cfg0.N).succ = (dats m 0 c).owesAt () (t0_10 : Fin cfg0.N).castSucc from rfl]
  rw [show (dats m 0 c).Φ (t0_10 : Fin cfg0.N).succ = PhiS m c 11 from rfl, show (dats m 0 c).Φ (t0_10 : Fin cfg0.N).castSucc = PhiS m c 10 from rfl]
  rw [leaves0, leaves1, leaves2, leaves3, leaves4, leaves5, leaves6]
  rw [leaves7_live m c t0_10 (by decide)]
  simp only [before7_late m c t0_10 (by decide)]
  rw [show (t0_10 : Fin cfg0.N).val - 1 = 9 from rfl, show (t0_10 : Fin cfg0.N).val = 10 from rfl, outAt_9, outAt_10]
  rw [PhiS_10, PhiS_11]
  unfold O10
  unfold outK8
  iintro ⟨⟨⟨HG, HU, HH⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runK c (grid0.coords t0_10) (ms0 t0_10) (hs0 t0_10) (ms1 t0_10) (hs1 t0_10) (ms2 t0_10) (hs2 t0_10) (ms3 t0_10) (hs3 t0_10) (ms4 t0_10) (hs4 t0_10) (ms5 t0_10) (hs5 t0_10) (ms6 t0_10) (hs6 t0_10) (ms7 t0_10) (hs7 t0_10) scG (Memref.isWhole_whole _) scU (Memref.isWhole_whole _) scH (Memref.isWhole_whole _) (fun hh => absurd ((hcond0 t0_10).mp hh) (by decide)) (fun hh => absurd ((hcond1 t0_10).mp hh) (by decide)) (fun hh => absurd ((hcond2 t0_10).mp hh) (by decide)) (fun hh => absurd ((hcond3 t0_10).mp hh) (by decide)) (fun hh => absurd ((hcond4 t0_10).mp hh) (by decide)) (fun hh => absurd ((hcond5 t0_10).mp hh) (by decide)) (fun hh => absurd ((hcond6 t0_10).mp hh) (by decide)) (fun hh => absurd ((hcond7 t0_10).mp hh) (by decide)) (fun hh => absurd ((hcond8 t0_10).mp hh) (by decide)) (fun hh => absurd ((hcond9 t0_10).mp hh) (by decide)) ((hcond10 t0_10).mpr (by decide)) (iblk m c 0 t0_10) (iblk m c 1 t0_10) (iblk m c 2 t0_10) (iblk m c 3 t0_10) (iblk m c 4 t0_10) (iblk m c 5 t0_10) (iblk m c 6 t0_10) (O9 m c) (H5 m c)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HG]; · iexact HG
  isplitl [HU]; · iexact HU
  isplitl [HH]; · iexact HH
  iintro ⟨H0, H1, H2, H3, H4, H5, H6, ⟨%eR8, R8⟩, R9, R10, R11⟩
  isplitl [R9 R10 R11 Hg]
  · isplitl [R9 R10 R11]
    · isplitl [R9]
      · iexact R9
      isplitl [R10]
      · iexact R10
      iexact R11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact R8
  ipureintro; exact View.read_writes_of_cover _ _ _ _ _ (covK8 c _ _ _ _ _ _ _ _ _ _ _ _ _ _ _ _ _ _ _ _ _ _ _ _ _ _ _ _ _ _ _ _ _ _ _ _ _ _ _ _ _ _ _)

/-- The library's body obligation, at every point: the grid's eleven points one by one. -/
theorem body_obligation (c : Dev nD) : BodyObligation (dats (F := F) m 0 c) (defs₀ (F := F)) Variants.none () Set.univ := fun t => by
  rw [bigSep_W0, bigSep_W0]
  show bodyPre m c t ⊢ wp frame (wpE (defs₀ (F := F)) Variants.none c none) Set.univ (bodyAt0 t) (fun _ => bodyPost m c t)
  rcases fin_N0 t with rfl | rfl | rfl | rfl | rfl | rfl | rfl | rfl | rfl | rfl | rfl
  · exact sound0 m c
  · exact sound1 m c
  · exact sound2 m c
  · exact sound3 m c
  · exact sound4 m c
  · exact sound5 m c
  · exact sound6 m c
  · exact sound7 m c
  · exact sound8 m c
  · exact sound9 m c
  · exact sound10 m c

/-- What the launch hands the region is the invariant before the first point. -/
theorem hin (c : Dev nD) : Pipeline.ΦA spec0 c ⊢ (dats m 0 c).Φ 0 := by
  rw [show (dats m 0 c).Φ 0 = Pipeline.ΦA spec0 c from rfl]

/-- After the last point the invariant gives the class invariant back: the gated activation's contents forgotten. -/
theorem hout (c : Dev nD) : (dats m 0 c).Φ (Fin.last cfg0.N) ⊢ Pipeline.ΦA spec0 c := by
  rw [show (dats m 0 c).Φ (Fin.last cfg0.N) = PhiS m c 11 from rfl, PhiA_eq, PhiS_11]
  iintro ⟨⟨HG, HU, HH⟩, Hg⟩
  isplitl [HG HU HH]
  · isplitl [HG]; · iexact HG
    isplitl [HU]; · iexact HU
    iexists _; iexact HH
  iexact Hg

/-! ## The run and the frame -/

set_option backward.isDefEq.respectTransparency.types false in
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every weakly fair execution terminates without a fault and leaves the argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Body

end
-- ==== Proof.BodyKI.Pieces.lean ====
/-
  What each step leaves, as a value: the one covering store's payload, over the blocks the step loaded — the
  resident activation block's (or the gated activation's) column slab, the weight slab, the bias row, and the
  accumulator as the step found it.
-/
import proofs.«128237_g74105365725337_cont_9to1c4b_446_16_alg».proof.Proof.BodyKI.Data

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

theorem outA9_eq (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : cond0 i) (hc1 : ¬cond1 i) (hc2 : ¬cond2 i) (hc3 : ¬cond3 i) (hc4 : ¬cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) :
    outA9 c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 = k0_pay8 (View.ld x0 (Rect.unit ![0, 0] ![256, 480] inb_S256x2880_S256x480_0_0)) x1 := by
  unfold outA9
  rw [View.read_writes_eq_canon _ _ _ (covA9 c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6)]
  unfold runA
  dsimp only
  sl_unfold_words
  rw [View.canon_unit_zero hz]
  simp only [View.readCov_unit_zero (S := S256x2880) _ hz, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S480x2880) hz, View.ld_unit_zero (S := S576x2880) hz, View.ld_unit_zero (S := S256x2880) hz, View.ld_unit_zero (S := S1x2880) hz]

theorem outA10_eq (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : cond0 i) (hc1 : ¬cond1 i) (hc2 : ¬cond2 i) (hc3 : ¬cond3 i) (hc4 : ¬cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) :
    outA10 c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 = k0_pay9 (View.ld x0 (Rect.unit ![0, 0] ![256, 480] inb_S256x2880_S256x480_0_0)) x2 := by
  unfold outA10
  rw [View.read_writes_eq_canon _ _ _ (covA10 c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6)]
  unfold runA
  dsimp only
  sl_unfold_words
  rw [View.canon_unit_zero hz]
  simp only [View.readCov_unit_zero (S := S256x2880) _ hz, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S480x2880) hz, View.ld_unit_zero (S := S576x2880) hz, View.ld_unit_zero (S := S256x2880) hz, View.ld_unit_zero (S := S1x2880) hz]

theorem outB9_eq (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : cond1 i) (hc2 : ¬cond2 i) (hc3 : ¬cond3 i) (hc4 : ¬cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) :
    outB9 c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u = k0_pay10 (View.ld x0 (Rect.unit ![0, 480] ![256, 480] inb_S256x2880_S256x480_0_480)) x1 g := by
  unfold outB9
  rw [View.read_writes_eq_canon _ _ _ (covB9 c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u)]
  unfold runB
  dsimp only
  sl_unfold_words
  rw [View.canon_unit_zero hz]
  simp only [View.readCov_unit_zero (S := S256x2880) _ hz, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S480x2880) hz, View.ld_unit_zero (S := S576x2880) hz, View.ld_unit_zero (S := S256x2880) hz, View.ld_unit_zero (S := S1x2880) hz]

theorem outB10_eq (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : cond1 i) (hc2 : ¬cond2 i) (hc3 : ¬cond3 i) (hc4 : ¬cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) :
    outB10 c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u = k0_pay11 (View.ld x0 (Rect.unit ![0, 480] ![256, 480] inb_S256x2880_S256x480_0_480)) x2 u := by
  unfold outB10
  rw [View.read_writes_eq_canon _ _ _ (covB10 c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u)]
  unfold runB
  dsimp only
  sl_unfold_words
  rw [View.canon_unit_zero hz]
  simp only [View.readCov_unit_zero (S := S256x2880) _ hz, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S480x2880) hz, View.ld_unit_zero (S := S576x2880) hz, View.ld_unit_zero (S := S256x2880) hz, View.ld_unit_zero (S := S1x2880) hz]

theorem outC9_eq (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : cond2 i) (hc3 : ¬cond3 i) (hc4 : ¬cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) :
    outC9 c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u = k0_pay12 (View.ld x0 (Rect.unit ![0, 960] ![256, 480] inb_S256x2880_S256x480_0_960)) x1 g := by
  unfold outC9
  rw [View.read_writes_eq_canon _ _ _ (covC9 c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u)]
  unfold runC
  dsimp only
  sl_unfold_words
  rw [View.canon_unit_zero hz]
  simp only [View.readCov_unit_zero (S := S256x2880) _ hz, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S480x2880) hz, View.ld_unit_zero (S := S576x2880) hz, View.ld_unit_zero (S := S256x2880) hz, View.ld_unit_zero (S := S1x2880) hz]

theorem outC10_eq (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : cond2 i) (hc3 : ¬cond3 i) (hc4 : ¬cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) :
    outC10 c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u = k0_pay13 (View.ld x0 (Rect.unit ![0, 960] ![256, 480] inb_S256x2880_S256x480_0_960)) x2 u := by
  unfold outC10
  rw [View.read_writes_eq_canon _ _ _ (covC10 c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u)]
  unfold runC
  dsimp only
  sl_unfold_words
  rw [View.canon_unit_zero hz]
  simp only [View.readCov_unit_zero (S := S256x2880) _ hz, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S480x2880) hz, View.ld_unit_zero (S := S576x2880) hz, View.ld_unit_zero (S := S256x2880) hz, View.ld_unit_zero (S := S1x2880) hz]

theorem outD9_eq (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : cond3 i) (hc4 : ¬cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) :
    outD9 c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u = k0_pay14 (View.ld x0 (Rect.unit ![0, 1440] ![256, 480] inb_S256x2880_S256x480_0_1440)) x1 g := by
  unfold outD9
  rw [View.read_writes_eq_canon _ _ _ (covD9 c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u)]
  unfold runD
  dsimp only
  sl_unfold_words
  rw [View.canon_unit_zero hz]
  simp only [View.readCov_unit_zero (S := S256x2880) _ hz, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S480x2880) hz, View.ld_unit_zero (S := S576x2880) hz, View.ld_unit_zero (S := S256x2880) hz, View.ld_unit_zero (S := S1x2880) hz]

theorem outD10_eq (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : cond3 i) (hc4 : ¬cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) :
    outD10 c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u = k0_pay15 (View.ld x0 (Rect.unit ![0, 1440] ![256, 480] inb_S256x2880_S256x480_0_1440)) x2 u := by
  unfold outD10
  rw [View.read_writes_eq_canon _ _ _ (covD10 c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u)]
  unfold runD
  dsimp only
  sl_unfold_words
  rw [View.canon_unit_zero hz]
  simp only [View.readCov_unit_zero (S := S256x2880) _ hz, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S480x2880) hz, View.ld_unit_zero (S := S576x2880) hz, View.ld_unit_zero (S := S256x2880) hz, View.ld_unit_zero (S := S1x2880) hz]

theorem outE9_eq (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) :
    outE9 c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u = k0_pay16 (View.ld x0 (Rect.unit ![0, 1920] ![256, 480] inb_S256x2880_S256x480_0_1920)) x1 g := by
  unfold outE9
  rw [View.read_writes_eq_canon _ _ _ (covE9 c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u)]
  unfold runE
  dsimp only
  sl_unfold_words
  rw [View.canon_unit_zero hz]
  simp only [View.readCov_unit_zero (S := S256x2880) _ hz, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S480x2880) hz, View.ld_unit_zero (S := S576x2880) hz, View.ld_unit_zero (S := S256x2880) hz, View.ld_unit_zero (S := S1x2880) hz]

theorem outE10_eq (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : cond4 i) (hc5 : ¬cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) :
    outE10 c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u = k0_pay17 (View.ld x0 (Rect.unit ![0, 1920] ![256, 480] inb_S256x2880_S256x480_0_1920)) x2 u := by
  unfold outE10
  rw [View.read_writes_eq_canon _ _ _ (covE10 c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u)]
  unfold runE
  dsimp only
  sl_unfold_words
  rw [View.canon_unit_zero hz]
  simp only [View.readCov_unit_zero (S := S256x2880) _ hz, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S480x2880) hz, View.ld_unit_zero (S := S576x2880) hz, View.ld_unit_zero (S := S256x2880) hz, View.ld_unit_zero (S := S1x2880) hz]

theorem outF9_eq (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : ¬cond4 i) (hc5 : cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) :
    outF9 c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u = k0_pay3 (View.ld x0 (Rect.unit ![0, 2400] ![256, 480] inb_S256x2880_S256x480_0_2400)) x1 g := by
  unfold outF9
  rw [View.read_writes_eq_canon _ _ _ (covF9 c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u)]
  unfold runF
  dsimp only
  sl_unfold_words
  rw [View.canon_unit_zero hz]
  simp only [View.readCov_unit_zero (S := S256x2880) _ hz, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S480x2880) hz, View.ld_unit_zero (S := S576x2880) hz, View.ld_unit_zero (S := S256x2880) hz, View.ld_unit_zero (S := S1x2880) hz]

theorem outF10_eq (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : ¬cond4 i) (hc5 : cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) :
    outF10 c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u = k0_pay4 (View.ld x0 (Rect.unit ![0, 2400] ![256, 480] inb_S256x2880_S256x480_0_2400)) x2 u := by
  unfold outF10
  rw [View.read_writes_eq_canon _ _ _ (covF10 c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u)]
  unfold runF
  dsimp only
  sl_unfold_words
  rw [View.canon_unit_zero hz]
  simp only [View.readCov_unit_zero (S := S256x2880) _ hz, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S480x2880) hz, View.ld_unit_zero (S := S576x2880) hz, View.ld_unit_zero (S := S256x2880) hz, View.ld_unit_zero (S := S1x2880) hz]

theorem outF11_eq (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : ¬cond4 i) (hc5 : cond5 i) (hc6 : ¬cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (g : Vec F S256x2880 .f32) (u : Vec F S256x2880 .f32) :
    outF11 c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u = k0_pay18 (k0_pay5 (k0_pay4 (View.ld x0 (Rect.unit ![0, 2400] ![256, 480] inb_S256x2880_S256x480_0_2400)) x2 u) x4) (k0_pay6 (k0_pay3 (View.ld x0 (Rect.unit ![0, 2400] ![256, 480] inb_S256x2880_S256x480_0_2400)) x1 g) x3) k0_pay7 := by
  unfold outF11
  rw [View.read_writes_eq_canon _ _ _ (covF11 c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 g u)]
  unfold runF
  dsimp only
  sl_unfold_words
  rw [View.canon_unit_zero hz]
  simp only [View.readCov_unit_zero (S := S256x2880) _ hz, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S480x2880) hz, View.ld_unit_zero (S := S576x2880) hz, View.ld_unit_zero (S := S256x2880) hz, View.ld_unit_zero (S := S1x2880) hz]

theorem outG8_eq (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : ¬cond4 i) (hc5 : ¬cond5 i) (hc6 : cond6 i) (hc7 : ¬cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (h : Vec F S256x2880 .f32) :
    outG8 c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 h = k0_pay19 (View.ld h (Rect.unit ![0, 0] ![256, 576] inb_S256x2880_S256x576_0_0)) x5 x6 := by
  unfold outG8
  rw [View.read_writes_eq_canon _ _ _ (covG8 c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 h)]
  unfold runG
  dsimp only
  sl_unfold_words
  rw [View.canon_unit_zero hz]
  simp only [View.readCov_unit_zero (S := S256x2880) _ hz, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S480x2880) hz, View.ld_unit_zero (S := S576x2880) hz, View.ld_unit_zero (S := S256x2880) hz, View.ld_unit_zero (S := S1x2880) hz]

theorem outH8_eq (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : ¬cond4 i) (hc5 : ¬cond5 i) (hc6 : ¬cond6 i) (hc7 : cond7 i) (hc8 : ¬cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (y : Vec F S256x2880 .f32) (h : Vec F S256x2880 .f32) :
    outH8 c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 y h = k0_pay20 (View.ld h (Rect.unit ![0, 576] ![256, 576] inb_S256x2880_S256x576_0_576)) x5 y := by
  unfold outH8
  rw [View.read_writes_eq_canon _ _ _ (covH8 c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 y h)]
  unfold runH
  dsimp only
  sl_unfold_words
  rw [View.canon_unit_zero hz]
  simp only [View.readCov_unit_zero (S := S256x2880) _ hz, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S480x2880) hz, View.ld_unit_zero (S := S576x2880) hz, View.ld_unit_zero (S := S256x2880) hz, View.ld_unit_zero (S := S1x2880) hz]

theorem outI8_eq (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : ¬cond4 i) (hc5 : ¬cond5 i) (hc6 : ¬cond6 i) (hc7 : ¬cond7 i) (hc8 : cond8 i) (hc9 : ¬cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (y : Vec F S256x2880 .f32) (h : Vec F S256x2880 .f32) :
    outI8 c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 y h = k0_pay21 (View.ld h (Rect.unit ![0, 1152] ![256, 576] inb_S256x2880_S256x576_0_1152)) x5 y := by
  unfold outI8
  rw [View.read_writes_eq_canon _ _ _ (covI8 c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 y h)]
  unfold runI
  dsimp only
  sl_unfold_words
  rw [View.canon_unit_zero hz]
  simp only [View.readCov_unit_zero (S := S256x2880) _ hz, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S480x2880) hz, View.ld_unit_zero (S := S576x2880) hz, View.ld_unit_zero (S := S256x2880) hz, View.ld_unit_zero (S := S1x2880) hz]

theorem outJ8_eq (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : ¬cond4 i) (hc5 : ¬cond5 i) (hc6 : ¬cond6 i) (hc7 : ¬cond7 i) (hc8 : ¬cond8 i) (hc9 : cond9 i) (hc10 : ¬cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (y : Vec F S256x2880 .f32) (h : Vec F S256x2880 .f32) :
    outJ8 c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 y h = k0_pay1 (View.ld h (Rect.unit ![0, 1728] ![256, 576] inb_S256x2880_S256x576_0_1728)) x5 y := by
  unfold outJ8
  rw [View.read_writes_eq_canon _ _ _ (covJ8 c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 y h)]
  unfold runJ
  dsimp only
  sl_unfold_words
  rw [View.canon_unit_zero hz]
  simp only [View.readCov_unit_zero (S := S256x2880) _ hz, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S480x2880) hz, View.ld_unit_zero (S := S576x2880) hz, View.ld_unit_zero (S := S256x2880) hz, View.ld_unit_zero (S := S1x2880) hz]

theorem outK8_eq (c : Dev nD) (i : grid0.Coords) (arg1 : Memref sig .tc .vmem S256x2880 .f32) (harg1 : arg1.IsWhole) (arg2 : Memref sig .tc .vmem S480x2880 .f32) (harg2 : arg2.IsWhole) (arg3 : Memref sig .tc .vmem S480x2880 .f32) (harg3 : arg3.IsWhole) (arg4 : Memref sig .tc .vmem S1x2880 .f32) (harg4 : arg4.IsWhole) (arg5 : Memref sig .tc .vmem S1x2880 .f32) (harg5 : arg5.IsWhole) (arg6 : Memref sig .tc .vmem S576x2880 .f32) (harg6 : arg6.IsWhole) (arg7 : Memref sig .tc .vmem S1x2880 .f32) (harg7 : arg7.IsWhole) (arg8 : Memref sig .tc .vmem S256x2880 .f32) (harg8 : arg8.IsWhole) (arg9 : Memref sig .tc .vmem S256x2880 .f32) (harg9 : arg9.IsWhole) (arg10 : Memref sig .tc .vmem S256x2880 .f32) (harg10 : arg10.IsWhole) (arg11 : Memref sig .tc .vmem S256x2880 .f32) (harg11 : arg11.IsWhole) (hc0 : ¬cond0 i) (hc1 : ¬cond1 i) (hc2 : ¬cond2 i) (hc3 : ¬cond3 i) (hc4 : ¬cond4 i) (hc5 : ¬cond5 i) (hc6 : ¬cond6 i) (hc7 : ¬cond7 i) (hc8 : ¬cond8 i) (hc9 : ¬cond9 i) (hc10 : cond10 i)
    (x0 : Vec F S256x2880 .f32) (x1 : Vec F S480x2880 .f32) (x2 : Vec F S480x2880 .f32) (x3 : Vec F S1x2880 .f32) (x4 : Vec F S1x2880 .f32) (x5 : Vec F S576x2880 .f32) (x6 : Vec F S1x2880 .f32) (y : Vec F S256x2880 .f32) (h : Vec F S256x2880 .f32) :
    outK8 c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 y h = k0_pay2 (View.ld h (Rect.unit ![0, 2304] ![256, 576] inb_S256x2880_S256x576_0_2304)) x5 y := by
  unfold outK8
  rw [View.read_writes_eq_canon _ _ _ (covK8 c i arg1 harg1 arg2 harg2 arg3 harg3 arg4 harg4 arg5 harg5 arg6 harg6 arg7 harg7 arg8 harg8 arg9 harg9 arg10 harg10 arg11 harg11 hc0 hc1 hc2 hc3 hc4 hc5 hc6 hc7 hc8 hc9 hc10 x0 x1 x2 x3 x4 x5 x6 y h)]
  unfold runK
  dsimp only
  sl_unfold_words
  rw [View.canon_unit_zero hz]
  simp only [View.readCov_unit_zero (S := S256x2880) _ hz, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S480x2880) hz, View.ld_unit_zero (S := S576x2880) hz, View.ld_unit_zero (S := S256x2880) hz, View.ld_unit_zero (S := S1x2880) hz]

end Cert.KernelIdeal.Body

end
-- ==== Proof.BodyKI.Blocks.lean ====
/-
  The blocks the steps load, read at an entry of the argument arrays.

  The activation block is the whole [256, 2880] array; the bias rows are the whole [1, 2880] rows. At point t the
  gate and up weight windows hold rows [480·b, 480·b + 480) of their arrays with b = min(t, 5), and the down weight
  window holds rows [576·b, 576·b + 576) with b = min(t - 6, 4). A column slab of a [256, 2880] array loaded at
  column offset o reads the array at column o + j.
-/
import proofs.«128237_g74105365725337_cont_9to1c4b_446_16_alg».proof.Proof.Gen.KernelIdeal.Frame
import Idealize.ShloMosaic.Lib.Pipeline.Value
import Idealize.ShloMosaic.Lib.ValueIdx

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-- The printed index maps, decided once over the grid. -/
theorem idx_facts : ∀ t : Fin cfg0.N,
    win0_0.index t (0 : Fin 2) = 0 ∧ win0_0.index t (1 : Fin 2) = 0
    ∧ win0_1.index t (0 : Fin 2) = min t.val 5 ∧ win0_1.index t (1 : Fin 2) = 0
    ∧ win0_2.index t (0 : Fin 2) = min t.val 5 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = min (t.val - 6) 4 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- The activation window's block is the whole array. -/
theorem blk0_apply (c : Dev nD) (t : Fin cfg0.N) (y : S256x2880.Idx) :
    iblk m c 0 t y = m ((c : Thread nD τ).loc main_arg0) y := by
  obtain ⟨e0, e1, -⟩ := idx_facts t
  show V m c main_arg0 (((cfg0.win 0).blk t).view.emb y) = _
  refine congrArg (m ((c : Thread nD τ).loc main_arg0)) (funext fun a => Fin.ext ?_)
  match a with
  | ⟨0, _⟩ => show win0_0.index t (0 : Fin 2) * 256 + 1 * (y 0).val = (y 0).val; omega
  | ⟨1, _⟩ => show win0_0.index t (1 : Fin 2) * 2880 + 1 * (y 1).val = (y 1).val; omega

/-- The gate weight window's block at a point whose slab is `b`: rows 480·b onwards. -/
theorem blk1_apply (c : Dev nD) (t : Fin cfg0.N) (b : ℕ) (hb : win0_1.index t (0 : Fin 2) = b) (hb6 : b < 6) (j : Fin 480) (q : Fin 2880) :
    iblk m c 1 t (ix2 j q) = m ((c : Thread nD τ).loc main_arg1) (ix2 ⟨480 * b + j.val, by omega⟩ q) := by
  obtain ⟨-, -, -, e1, -⟩ := idx_facts t
  show V m c main_arg1 (((cfg0.win 1).blk t).view.emb (ix2 j q)) = _
  refine congrArg (m ((c : Thread nD τ).loc main_arg1)) (funext fun a => Fin.ext ?_)
  match a with
  | ⟨0, _⟩ => show win0_1.index t (0 : Fin 2) * 480 + 1 * j.val = 480 * b + j.val; omega
  | ⟨1, _⟩ => show win0_1.index t (1 : Fin 2) * 2880 + 1 * q.val = q.val; omega

/-- The up weight window's block, likewise. -/
theorem blk2_apply (c : Dev nD) (t : Fin cfg0.N) (b : ℕ) (hb : win0_2.index t (0 : Fin 2) = b) (hb6 : b < 6) (j : Fin 480) (q : Fin 2880) :
    iblk m c 2 t (ix2 j q) = m ((c : Thread nD τ).loc main_arg3) (ix2 ⟨480 * b + j.val, by omega⟩ q) := by
  obtain ⟨-, -, -, -, -, e1, -⟩ := idx_facts t
  show V m c main_arg3 (((cfg0.win 2).blk t).view.emb (ix2 j q)) = _
  refine congrArg (m ((c : Thread nD τ).loc main_arg3)) (funext fun a => Fin.ext ?_)
  match a with
  | ⟨0, _⟩ => show win0_2.index t (0 : Fin 2) * 480 + 1 * j.val = 480 * b + j.val; omega
  | ⟨1, _⟩ => show win0_2.index t (1 : Fin 2) * 2880 + 1 * q.val = q.val; omega

/-- The gate bias window's block is the whole row. -/
theorem blk3_apply (c : Dev nD) (t : Fin cfg0.N) (y : S1x2880.Idx) :
    iblk m c 3 t y = m ((c : Thread nD τ).loc main_arg2) y := by
  obtain ⟨-, -, -, -, -, -, e0, e1, -⟩ := idx_facts t
  show V m c main_arg2 (((cfg0.win 3).blk t).view.emb y) = _
  refine congrArg (m ((c : Thread nD τ).loc main_arg2)) (funext fun a => Fin.ext ?_)
  match a with
  | ⟨0, _⟩ => show win0_3.index t (0 : Fin 2) * 1 + 1 * (y 0).val = (y 0).val; omega
  | ⟨1, _⟩ => show win0_3.index t (1 : Fin 2) * 2880 + 1 * (y 1).val = (y 1).val; omega

/-- The up bias window's block is the whole row. -/
theorem blk4_apply (c : Dev nD) (t : Fin cfg0.N) (y : S1x2880.Idx) :
    iblk m c 4 t y = m ((c : Thread nD τ).loc main_arg4) y := by
  obtain ⟨-, -, -, -, -, -, -, -, e0, e1, -⟩ := idx_facts t
  show V m c main_arg4 (((cfg0.win 4).blk t).view.emb y) = _
  refine congrArg (m ((c : Thread nD τ).loc main_arg4)) (funext fun a => Fin.ext ?_)
  match a with
  | ⟨0, _⟩ => show win0_4.index t (0 : Fin 2) * 1 + 1 * (y 0).val = (y 0).val; omega
  | ⟨1, _⟩ => show win0_4.index t (1 : Fin 2) * 2880 + 1 * (y 1).val = (y 1).val; omega

/-- The down weight window's block at a point whose slab is `b`: rows 576·b onwards. -/
theorem blk5_apply (c : Dev nD) (t : Fin cfg0.N) (b : ℕ) (hb : win0_5.index t (0 : Fin 2) = b) (hb5 : b < 5) (j : Fin 576) (q : Fin 2880) :
    iblk m c 5 t (ix2 j q) = m ((c : Thread nD τ).loc main_arg5) (ix2 ⟨576 * b + j.val, by omega⟩ q) := by
  obtain ⟨-, -, -, -, -, -, -, -, -, -, -, e1, -⟩ := idx_facts t
  show V m c main_arg5 (((cfg0.win 5).blk t).view.emb (ix2 j q)) = _
  refine congrArg (m ((c : Thread nD τ).loc main_arg5)) (funext fun a => Fin.ext ?_)
  match a with
  | ⟨0, _⟩ => show win0_5.index t (0 : Fin 2) * 576 + 1 * j.val = 576 * b + j.val; omega
  | ⟨1, _⟩ => show win0_5.index t (1 : Fin 2) * 2880 + 1 * q.val = q.val; omega

/-- The down bias window's block is the whole row. -/
theorem blk6_apply (c : Dev nD) (t : Fin cfg0.N) (y : S1x2880.Idx) :
    iblk m c 6 t y = m ((c : Thread nD τ).loc main_arg6) y := by
  obtain ⟨-, -, -, -, -, -, -, -, -, -, -, -, e0, e1, -⟩ := idx_facts t
  show V m c main_arg6 (((cfg0.win 6).blk t).view.emb y) = _
  refine congrArg (m ((c : Thread nD τ).loc main_arg6)) (funext fun a => Fin.ext ?_)
  match a with
  | ⟨0, _⟩ => show win0_6.index t (0 : Fin 2) * 1 + 1 * (y 0).val = (y 0).val; omega
  | ⟨1, _⟩ => show win0_6.index t (1 : Fin 2) * 2880 + 1 * (y 1).val = (y 1).val; omega

/-- A column slab of width K loaded at column offset o, read at (p, j): the array at (p, o + j). -/
theorem slab_apply {α : Type} (X : S256x2880.Idx → α) (o K : ℕ) (inb : ∀ a, (![0, o] : Fin 2 → ℕ) a + (![256, K] : Fin 2 → ℕ) a ≤ S256x2880.size a)
    (p : Fin 256) (j : Fin K) (h : o + j.val < 2880) :
    X ((Rect.unit (s := S256x2880) ![0, o] ![256, K] inb).idx (ix2 p j)) = X (ix2 p ⟨o + j.val, h⟩) :=
  congrArg X (funext fun a => Fin.ext (by
    match a with
    | ⟨0, _⟩ => show 0 + 1 * p.val = p.val; omega
    | ⟨1, _⟩ => show o + 1 * j.val = o + j.val; omega))

end Cert.KernelIdeal.KValue

end
-- ==== Proof.LibPlainContract.lean ====
/-
  A plain matrix contraction read at one entry.

  For the dimension numbers of an [M, K] by [K, N] product (contract the left operand's axis 1 with the right operand's
  axis 0, no batch axis), the sum over the contraction index that the exact matrix product takes at result entry (p, q)
  is the textbook sum over k < K of l[p, k] · r[k, q]. Stated for the sum itself, for a matrix unit's product into a
  zero accumulator, and for a host dot product, all at the exact (extended real) reading of floats.
-/
import Idealize.ShloMosaic.PureOps.Ideal.Laws
import Idealize.ShloMosaic.Lib.ValueIdx

noncomputable section

namespace Cert.LibPlainContract

open Idealize.ShloMosaic Idealize.ShloMosaic.ValueIdx

/-- The contraction index of a plain product has one axis, of extent K. -/
theorem plain_rank (M K N : Nat) : (DotDims.plain M K N).contr.rank = 1 := rfl
theorem plain_size (M K N : Nat) : (DotDims.plain M K N).contr.size ⟨0, Nat.one_pos⟩ = K := rfl

/-- At result entry (p, q) and contraction position k the left operand is read at (p, k) … -/
theorem plain_lhsIdx (M K N : Nat) (p : Fin M) (q : Fin N) (k : Fin K) :
    (DotDims.plain M K N).lhsIdx (ix2 p q) ((contrEquiv1 (DotDims.plain M K N) K rfl rfl).symm k) = ix2 p k :=
  funext fun a => Fin.ext (by
    have hk := contrEquiv1_symm_val (DotDims.plain M K N) K rfl rfl k
    match a with
    | ⟨0, _⟩ => rfl
    | ⟨1, _⟩ => exact ((DotDims.plain M K N).lhsIdx_val_of_single rfl _ _).trans hk)

/-- … and the right operand at (k, q). -/
theorem plain_rhsIdx (M K N : Nat) (p : Fin M) (q : Fin N) (k : Fin K) :
    (DotDims.plain M K N).rhsIdx (ix2 p q) ((contrEquiv1 (DotDims.plain M K N) K rfl rfl).symm k) = ix2 k q :=
  funext fun a => Fin.ext (by
    have hk := contrEquiv1_symm_val (DotDims.plain M K N) K rfl rfl k
    match a with
    | ⟨0, _⟩ => exact ((DotDims.plain M K N).rhsIdx_val_of_single rfl _ _).trans hk
    | ⟨1, _⟩ => rfl)

/-- The contraction sum at entry (p, q) is the sum over k of l[p, k] · r[k, q]. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  rw [plain_lhsIdx, plain_rhsIdx]

/-- A matrix unit's product into the zero accumulator, at entry (p, q). -/
theorem matmul_plain_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_sum M K N l r p q)

/-- A host dot product, at entry (p, q). -/
theorem dotGeneral_plain_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_sum M K N l r p q)

end Cert.LibPlainContract

end
-- ==== Proof.Spec.lean ====
/-
  The gated MLP, entry by entry, and the one law that joins the two programs.

  With x the [256, 2880] activations, the result at entry (p, q) is
      out[p, q] = (∑ k, h[p, k] · Wd[k, q]) + bd[q],
      h[p, k]   = (g · (1 / (1 + exp(α · g)))) · (u + 1),   g = min(gate[p, k], 7),   u = min(7, max(-7, up[p, k])),
      gate[p, k] = (∑ r, x[p, r] · Wg[r, k]) + bg[k],       up[p, k] = (∑ r, x[p, r] · Wu[r, k]) + bu[k],
  every operation the exact one on the extended reals and every literal its binary value.

  One program takes each contraction whole; the other takes it slab by slab (six slabs of 480 rows for the gate and up
  projections, five slabs of 576 rows for the down projection) and adds the slabs' partial sums in order. The two agree
  because a sum over 2880 indices is the sum of its consecutive blocks: addition of extended reals is associative and
  commutative, and nothing is distributed or cancelled, so no finiteness is needed.
-/
import Idealize.ShloMosaic.PureOps.Ideal
import Idealize.ShloMosaic.Lib.ValueIdx
import Mathlib.Algebra.BigOperators.Fin

noncomputable section

namespace Cert.MlpSpec

open Idealize.ShloMosaic Idealize.ShloMosaic.ValueIdx

abbrev SX : Shape := ⟨2, ![256, 2880]⟩
abbrev SW : Shape := ⟨2, ![2880, 2880]⟩
abbrev SB : Shape := ⟨2, ![1, 2880]⟩

/-! ## Sums over 2880 indices, block by block -/

/-- The partial sum of `f` over block `b` of width `K` (the indices `K·b, …, K·b + K - 1`). -/
def blockSum (B K : ℕ) (f : Fin (B * K) → EReal) (b : ℕ) (hb : b < B) : EReal :=
  ∑ j : Fin K, f ⟨K * b + j.val, by
    have hj := j.isLt
    calc K * b + j.val < K * b + K := by omega
      _ = K * (b + 1) := by ring
      _ ≤ K * B := Nat.mul_le_mul_left K hb
      _ = B * K := Nat.mul_comm K B⟩

/-- A sum over `B·K` indices is the sum over the blocks of the blocks' partial sums. -/
theorem sum_eq_sum_blocks (B K : ℕ) (f : Fin (B * K) → EReal) :
    ∑ k, f k = ∑ b : Fin B, blockSum B K f b.val b.isLt := by
  rw [← Equiv.sum_comp finProdFinEquiv f, Fintype.sum_prod_type]
  refine Finset.sum_congr rfl fun b _ => ?_
  unfold blockSum
  refine Finset.sum_congr rfl fun j _ => ?_
  refine congrArg f (Fin.ext ?_)
  show j.val + K * b.val = K * b.val + j.val
  exact Nat.add_comm _ _

/-- Six blocks of 480, added in order. -/
theorem sum_six_blocks (f : Fin (6 * 480) → EReal) :
    ∑ k, f k = blockSum 6 480 f 0 (by decide) + blockSum 6 480 f 1 (by decide) + blockSum 6 480 f 2 (by decide)
      + blockSum 6 480 f 3 (by decide) + blockSum 6 480 f 4 (by decide) + blockSum 6 480 f 5 (by decide) := by
  rw [sum_eq_sum_blocks, Fin.sum_univ_six]; rfl

/-- Five blocks of 576, added in order after a bias joined the first: the bias may as well be added last. -/
theorem sum_five_blocks_bias (f : Fin (5 * 576) → EReal) (bias : EReal) :
    (∑ k, f k) + bias = blockSum 5 576 f 0 (by decide) + bias + blockSum 5 576 f 1 (by decide) + blockSum 5 576 f 2 (by decide)
      + blockSum 5 576 f 3 (by decide) + blockSum 5 576 f 4 (by decide) := by
  rw [sum_eq_sum_blocks, Fin.sum_univ_five]
  show blockSum 5 576 f 0 _ + blockSum 5 576 f 1 _ + blockSum 5 576 f 2 _ + blockSum 5 576 f 3 _ + blockSum 5 576 f 4 _ + bias = _
  abel

/-! ## The specification -/

/-- A projection with bias at entry (p, q): the whole contraction, then the bias. -/
def lin (x : SX.Idx → EReal) (w : SW.Idx → EReal) (b : SB.Idx → EReal) (p : Fin 256) (q : Fin 2880) : EReal :=
  (∑ k : Fin 2880, x (ix2 p k) * w (ix2 k q)) + b (ix2 0 q)

/-- The clipped, gated activation of one gate value `a` and one up value `b`. -/
def act (a b : EReal) : EReal :=
  (min a (Ideal.ofBits .f32 0x40E00000#32)
      * Ideal.div (Ideal.ofBits .f32 0x3F800000#32)
          (Ideal.ofBits .f32 0x3F800000#32 + Ideal.exp (Ideal.ofBits .f32 0xBFD9DB23#32 * min a (Ideal.ofBits .f32 0x40E00000#32))))
    * (min (Ideal.ofBits .f32 0x40E00000#32) (max (Ideal.ofBits .f32 0xC0E00000#32) b) + Ideal.ofBits .f32 0x3F800000#32)

/-- The gated activation at entry (p, k). -/
def hid (x : SX.Idx → EReal) (wg : SW.Idx → EReal) (bg : SB.Idx → EReal) (wu : SW.Idx → EReal) (bu : SB.Idx → EReal)
    (p : Fin 256) (k : Fin 2880) : EReal :=
  act (lin x wg bg p k) (lin x wu bu p k)

/-- The result at entry (p, q). -/
def out (x : SX.Idx → EReal) (wg : SW.Idx → EReal) (bg : SB.Idx → EReal) (wu : SW.Idx → EReal) (bu : SB.Idx → EReal)
    (wd : SW.Idx → EReal) (bd : SB.Idx → EReal) (p : Fin 256) (q : Fin 2880) : EReal :=
  (∑ k : Fin 2880, hid x wg bg wu bu p k * wd (ix2 k q)) + bd (ix2 0 q)

/-- The result as one array. -/
def G (x : SX.Idx → EReal) (wg : SW.Idx → EReal) (bg : SB.Idx → EReal) (wu : SW.Idx → EReal) (bu : SB.Idx → EReal)
    (wd : SW.Idx → EReal) (bd : SB.Idx → EReal) : SX.Idx → EReal :=
  fun i => out x wg bg wu bu wd bd (i 0) (i 1)

end Cert.MlpSpec

end
-- ==== Proof.PayAt.lean ====
/-
  The body's arithmetic read at an entry, at the exact reading of floats.

  A slab step is a plain [256, K] by [K, 2880] product into the zero accumulator, possibly added to what the
  accumulator held; the activation step is pointwise; a bias row is spread down the 256 rows.
-/
import proofs.«128237_g74105365725337_cont_9to1c4b_446_16_alg».proof.Proof.Gen.KernelIdeal.Skeleton
import proofs.«128237_g74105365725337_cont_9to1c4b_446_16_alg».proof.Proof.LibPlainContract
import proofs.«128237_g74105365725337_cont_9to1c4b_446_16_alg».proof.Proof.Spec
import Idealize.ShloMosaic.Lib.Pipeline.Value
import Idealize.ShloMosaic.Lib.ValueIdx
import Idealize.ShloMosaic.PureOps.Ideal.Laws

noncomputable section

namespace Cert.KernelIdeal.PayAt

open Cert.KernelIdeal Cert.KernelIdeal.Gen Idealize.ShloMosaic Idealize.ShloMosaic.ValueIdx Cert.MlpSpec

/-- A bias row spread over the rows, read at (p, q): the row's entry q. -/
theorem bias_apply (b : Vec Ideal S1x2880 .f32) (p : Fin 256) (q : Fin 2880) :
    broadcastTo S256x2880 b broadcasts_S1x2880_S256x2880 (ix2 p q) = b (ix2 0 q) :=
  broadcastTo_apply b broadcasts_S1x2880_S256x2880 (ix2 p q) (ix2 0 q) (fun a => by
    match a with
    | ⟨0, _⟩ => show 0 = if (1 : Nat) = 1 then 0 else _; rw [if_pos rfl]
    | ⟨1, _⟩ => show q.val = if (2880 : Nat) = 1 then 0 else q.val; rw [if_neg (by decide)])

/-- The first slab of a projection: the slab's partial sum. -/
theorem first480_apply (xs : Vec Ideal S256x480 .f32) (w : Vec Ideal S480x2880 .f32) (p : Fin 256) (q : Fin 2880) :
    k0_pay8 xs w (ix2 p q) = ∑ j : Fin 480, xs (ix2 p j) * w (ix2 j q) := by
  unfold k0_pay8
  rw [shapeCast_self]
  exact Cert.LibPlainContract.matmul_plain_apply 256 480 2880 none xs w p q

theorem first480'_apply (xs : Vec Ideal S256x480 .f32) (w : Vec Ideal S480x2880 .f32) (p : Fin 256) (q : Fin 2880) :
    k0_pay9 xs w (ix2 p q) = ∑ j : Fin 480, xs (ix2 p j) * w (ix2 j q) := by
  unfold k0_pay9
  rw [shapeCast_self]
  exact Cert.LibPlainContract.matmul_plain_apply 256 480 2880 none xs w p q

/-- A later slab: what the accumulator held, plus the slab's partial sum. -/
theorem next480_apply (xs : Vec Ideal S256x480 .f32) (w : Vec Ideal S480x2880 .f32) (acc : Vec Ideal S256x2880 .f32)
    (p : Fin 256) (q : Fin 2880) :
    k0_pay3 xs w acc (ix2 p q) = acc (ix2 p q) + ∑ j : Fin 480, xs (ix2 p j) * w (ix2 j q) := by
  unfold k0_pay3
  rw [shapeCast_self, addf_apply]
  exact congrArg (acc (ix2 p q) + ·) (Cert.LibPlainContract.matmul_plain_apply 256 480 2880 none xs w p q)

theorem next480'_apply (xs : Vec Ideal S256x480 .f32) (w : Vec Ideal S480x2880 .f32) (acc : Vec Ideal S256x2880 .f32)
    (p : Fin 256) (q : Fin 2880) :
    k0_pay4 xs w acc (ix2 p q) = acc (ix2 p q) + ∑ j : Fin 480, xs (ix2 p j) * w (ix2 j q) := by
  unfold k0_pay4
  rw [shapeCast_self, addf_apply]
  exact congrArg (acc (ix2 p q) + ·) (Cert.LibPlainContract.matmul_plain_apply 256 480 2880 none xs w p q)

/-- The activation step: the clipped, gated activation of the biased gate and up values. -/
theorem act_apply (accU accG : Vec Ideal S256x2880 .f32) (bu bg : Vec Ideal S1x2880 .f32) (p : Fin 256) (q : Fin 2880) :
    k0_pay18 (k0_pay5 accU bu) (k0_pay6 accG bg) k0_pay7 (ix2 p q)
      = act (accG (ix2 p q) + bg (ix2 0 q)) (accU (ix2 p q) + bu (ix2 0 q)) := by
  unfold k0_pay18 k0_pay5 k0_pay6 k0_pay7
  rw [shapeCast_self]
  simp only [mulf_apply, addf_apply, divf_apply, minimumf_apply, maximumf_apply, broadcast_apply, exp]
  rw [bias_apply bg p q, bias_apply bu p q]
  rfl

/-- The first slab of the down projection: the slab's partial sum, plus the bias. -/
theorem first576_apply (hs : Vec Ideal S256x576 .f32) (w : Vec Ideal S576x2880 .f32) (b : Vec Ideal S1x2880 .f32)
    (p : Fin 256) (q : Fin 2880) :
    k0_pay19 hs w b (ix2 p q) = (∑ j : Fin 576, hs (ix2 p j) * w (ix2 j q)) + b (ix2 0 q) := by
  unfold k0_pay19
  rw [addf_apply, bias_apply]
  exact congrArg (· + b (ix2 0 q)) (Cert.LibPlainContract.matmul_plain_apply 256 576 2880 none hs w p q)

/-- A later slab of the down projection: what the output block held, plus the slab's partial sum. -/
theorem next576_apply (hs : Vec Ideal S256x576 .f32) (w : Vec Ideal S576x2880 .f32) (acc : Vec Ideal S256x2880 .f32)
    (p : Fin 256) (q : Fin 2880) :
    k0_pay20 hs w acc (ix2 p q) = acc (ix2 p q) + ∑ j : Fin 576, hs (ix2 p j) * w (ix2 j q) := by
  unfold k0_pay20
  rw [addf_apply, shapeCast_self]
  exact congrArg (acc (ix2 p q) + ·) (Cert.LibPlainContract.matmul_plain_apply 256 576 2880 none hs w p q)

end Cert.KernelIdeal.PayAt

end
-- ==== Proof.BodyKI.Chain.lean ====
/-
  The states of the run, read entry by entry.

  After point k ≤ 5 the gate accumulator holds, at (p, q), the sum of the first k + 1 slabs' partial sums of
  ∑ r, x[p, r] · Wg[r, q] (the up accumulator likewise); so after point 5 it holds the whole contraction, and the gated
  activation stored at point 5 is the specification's h. After point 6 + j the output block holds the bias plus the
  first j + 1 slabs' partial sums of ∑ k, h[p, k] · Wd[k, q]; after point 10, the specification's result.
-/
import proofs.«128237_g74105365725337_cont_9to1c4b_446_16_alg».proof.Proof.BodyKI.Pieces
import proofs.«128237_g74105365725337_cont_9to1c4b_446_16_alg».proof.Proof.BodyKI.Blocks
import proofs.«128237_g74105365725337_cont_9to1c4b_446_16_alg».proof.Proof.PayAt
import proofs.«128237_g74105365725337_cont_9to1c4b_446_16_alg».proof.Proof.Spec

set_option maxRecDepth 16384

noncomputable section

namespace Cert.KernelIdeal.KValue

open Cert.KernelIdeal Cert.KernelIdeal.Gen Cert.KernelIdeal.Body
open Idealize.ShloMosaic Idealize.ShloMosaic.TcCoe Idealize.ShloMosaic.ValueIdx Idealize.SL.Sem Cert.MlpSpec

variable (m : (ℓ : Loc nD τ sig) → Buf (Elt Ideal) ℓ) (c : Dev nD)

/-- The argument arrays on core `c`. -/
abbrev aX : SX.Idx → EReal := m ((c : Thread nD τ).loc main_arg0)
abbrev aWg : SW.Idx → EReal := m ((c : Thread nD τ).loc main_arg1)
abbrev aBg : SB.Idx → EReal := m ((c : Thread nD τ).loc main_arg2)
abbrev aWu : SW.Idx → EReal := m ((c : Thread nD τ).loc main_arg3)
abbrev aBu : SB.Idx → EReal := m ((c : Thread nD τ).loc main_arg4)
abbrev aWd : SW.Idx → EReal := m ((c : Thread nD τ).loc main_arg5)
abbrev aBd : SB.Idx → EReal := m ((c : Thread nD τ).loc main_arg6)

/-- The terms of the gate contraction at (p, q), over the 2880 = 6·480 contraction indices. -/
def tG (p : Fin 256) (q : Fin 2880) : Fin (6 * 480) → EReal := fun k => aX m c (ix2 p k) * aWg m c (ix2 k q)
/-- The terms of the up contraction at (p, q). -/
def tU (p : Fin 256) (q : Fin 2880) : Fin (6 * 480) → EReal := fun k => aX m c (ix2 p k) * aWu m c (ix2 k q)
/-- The terms of the down contraction at (p, q), over the 2880 = 5·576 contraction indices. -/
def tD (p : Fin 256) (q : Fin 2880) : Fin (5 * 576) → EReal :=
  fun k => hid (aX m c) (aWg m c) (aBg m c) (aWu m c) (aBu m c) p k * aWd m c (ix2 k q)

/-! ## What the steps of the first phase load, entry by entry -/

/-- Point 0: the activations' column slab, and the two weight slabs. -/
theorem entX0 (p : Fin 256) (j : Fin 480) :
    View.ld (iblk m c 0 t0_0) (Rect.unit (s := S256x2880) ![0, 0] ![256, 480] inb_S256x2880_S256x480_0_0) (ix2 p j) = aX m c (ix2 p ⟨480 * 0 + j.val, by omega⟩) :=
  (slab_apply (iblk m c 0 t0_0) 0 480 inb_S256x2880_S256x480_0_0 p j (by omega)).trans (blk0_apply m c t0_0 _)
theorem entG0 (j : Fin 480) (q : Fin 2880) :
    iblk m c 1 t0_0 (ix2 j q) = aWg m c (ix2 ⟨480 * 0 + j.val, by omega⟩ q) :=
  blk1_apply m c t0_0 0 ((idx_facts t0_0).2.2.1.trans (by decide)) (by decide) j q
theorem entU0 (j : Fin 480) (q : Fin 2880) :
    iblk m c 2 t0_0 (ix2 j q) = aWu m c (ix2 ⟨480 * 0 + j.val, by omega⟩ q) :=
  blk2_apply m c t0_0 0 ((idx_facts t0_0).2.2.2.2.1.trans (by decide)) (by decide) j q
/-- Point 1: the activations' column slab, and the two weight slabs. -/
theorem entX1 (p : Fin 256) (j : Fin 480) :
    View.ld (iblk m c 0 t0_1) (Rect.unit (s := S256x2880) ![0, 480] ![256, 480] inb_S256x2880_S256x480_0_480) (ix2 p j) = aX m c (ix2 p ⟨480 * 1 + j.val, by omega⟩) :=
  (slab_apply (iblk m c 0 t0_1) 480 480 inb_S256x2880_S256x480_0_480 p j (by omega)).trans (blk0_apply m c t0_1 _)
theorem entG1 (j : Fin 480) (q : Fin 2880) :
    iblk m c 1 t0_1 (ix2 j q) = aWg m c (ix2 ⟨480 * 1 + j.val, by omega⟩ q) :=
  blk1_apply m c t0_1 1 ((idx_facts t0_1).2.2.1.trans (by decide)) (by decide) j q
theorem entU1 (j : Fin 480) (q : Fin 2880) :
    iblk m c 2 t0_1 (ix2 j q) = aWu m c (ix2 ⟨480 * 1 + j.val, by omega⟩ q) :=
  blk2_apply m c t0_1 1 ((idx_facts t0_1).2.2.2.2.1.trans (by decide)) (by decide) j q
/-- Point 2: the activations' column slab, and the two weight slabs. -/
theorem entX2 (p : Fin 256) (j : Fin 480) :
    View.ld (iblk m c 0 t0_2) (Rect.unit (s := S256x2880) ![0, 960] ![256, 480] inb_S256x2880_S256x480_0_960) (ix2 p j) = aX m c (ix2 p ⟨480 * 2 + j.val, by omega⟩) :=
  (slab_apply (iblk m c 0 t0_2) 960 480 inb_S256x2880_S256x480_0_960 p j (by omega)).trans (blk0_apply m c t0_2 _)
theorem entG2 (j : Fin 480) (q : Fin 2880) :
    iblk m c 1 t0_2 (ix2 j q) = aWg m c (ix2 ⟨480 * 2 + j.val, by omega⟩ q) :=
  blk1_apply m c t0_2 2 ((idx_facts t0_2).2.2.1.trans (by decide)) (by decide) j q
theorem entU2 (j : Fin 480) (q : Fin 2880) :
    iblk m c 2 t0_2 (ix2 j q) = aWu m c (ix2 ⟨480 * 2 + j.val, by omega⟩ q) :=
  blk2_apply m c t0_2 2 ((idx_facts t0_2).2.2.2.2.1.trans (by decide)) (by decide) j q
/-- Point 3: the activations' column slab, and the two weight slabs. -/
theorem entX3 (p : Fin 256) (j : Fin 480) :
    View.ld (iblk m c 0 t0_3) (Rect.unit (s := S256x2880) ![0, 1440] ![256, 480] inb_S256x2880_S256x480_0_1440) (ix2 p j) = aX m c (ix2 p ⟨480 * 3 + j.val, by omega⟩) :=
  (slab_apply (iblk m c 0 t0_3) 1440 480 inb_S256x2880_S256x480_0_1440 p j (by omega)).trans (blk0_apply m c t0_3 _)
theorem entG3 (j : Fin 480) (q : Fin 2880) :
    iblk m c 1 t0_3 (ix2 j q) = aWg m c (ix2 ⟨480 * 3 + j.val, by omega⟩ q) :=
  blk1_apply m c t0_3 3 ((idx_facts t0_3).2.2.1.trans (by decide)) (by decide) j q
theorem entU3 (j : Fin 480) (q : Fin 2880) :
    iblk m c 2 t0_3 (ix2 j q) = aWu m c (ix2 ⟨480 * 3 + j.val, by omega⟩ q) :=
  blk2_apply m c t0_3 3 ((idx_facts t0_3).2.2.2.2.1.trans (by decide)) (by decide) j q
/-- Point 4: the activations' column slab, and the two weight slabs. -/
theorem entX4 (p : Fin 256) (j : Fin 480) :
    View.ld (iblk m c 0 t0_4) (Rect.unit (s := S256x2880) ![0, 1920] ![256, 480] inb_S256x2880_S256x480_0_1920) (ix2 p j) = aX m c (ix2 p ⟨480 * 4 + j.val, by omega⟩) :=
  (slab_apply (iblk m c 0 t0_4) 1920 480 inb_S256x2880_S256x480_0_1920 p j (by omega)).trans (blk0_apply m c t0_4 _)
theorem entG4 (j : Fin 480) (q : Fin 2880) :
    iblk m c 1 t0_4 (ix2 j q) = aWg m c (ix2 ⟨480 * 4 + j.val, by omega⟩ q) :=
  blk1_apply m c t0_4 4 ((idx_facts t0_4).2.2.1.trans (by decide)) (by decide) j q
theorem entU4 (j : Fin 480) (q : Fin 2880) :
    iblk m c 2 t0_4 (ix2 j q) = aWu m c (ix2 ⟨480 * 4 + j.val, by omega⟩ q) :=
  blk2_apply m c t0_4 4 ((idx_facts t0_4).2.2.2.2.1.trans (by decide)) (by decide) j q
/-- Point 5: the activations' column slab, and the two weight slabs. -/
theorem entX5 (p : Fin 256) (j : Fin 480) :
    View.ld (iblk m c 0 t0_5) (Rect.unit (s := S256x2880) ![0, 2400] ![256, 480] inb_S256x2880_S256x480_0_2400) (ix2 p j) = aX m c (ix2 p ⟨480 * 5 + j.val, by omega⟩) :=
  (slab_apply (iblk m c 0 t0_5) 2400 480 inb_S256x2880_S256x480_0_2400 p j (by omega)).trans (blk0_apply m c t0_5 _)
theorem entG5 (j : Fin 480) (q : Fin 2880) :
    iblk m c 1 t0_5 (ix2 j q) = aWg m c (ix2 ⟨480 * 5 + j.val, by omega⟩ q) :=
  blk1_apply m c t0_5 5 ((idx_facts t0_5).2.2.1.trans (by decide)) (by decide) j q
theorem entU5 (j : Fin 480) (q : Fin 2880) :
    iblk m c 2 t0_5 (ix2 j q) = aWu m c (ix2 ⟨480 * 5 + j.val, by omega⟩ q) :=
  blk2_apply m c t0_5 5 ((idx_facts t0_5).2.2.2.2.1.trans (by decide)) (by decide) j q

/-! ## The accumulators, point by point -/

theorem G0_apply (p : Fin 256) (q : Fin 2880) : G0 m c (ix2 p q) = blockSum 6 480 (tG m c p q) 0 (by decide) := by
  unfold G0
  rw [outA9_eq]
  exact (PayAt.first480_apply _ _ p q).trans
    (Finset.sum_congr rfl fun j _ => congrArg₂ (· * ·) (entX0 m c p j) (entG0 m c j q))
theorem U0_apply (p : Fin 256) (q : Fin 2880) : U0 m c (ix2 p q) = blockSum 6 480 (tU m c p q) 0 (by decide) := by
  unfold U0
  rw [outA10_eq]
  exact (PayAt.first480'_apply _ _ p q).trans
    (Finset.sum_congr rfl fun j _ => congrArg₂ (· * ·) (entX0 m c p j) (entU0 m c j q))
theorem G1_apply (p : Fin 256) (q : Fin 2880) :
    G1 m c (ix2 p q) = G0 m c (ix2 p q) + blockSum 6 480 (tG m c p q) 1 (by decide) := by
  unfold G1
  rw [outB9_eq]
  exact (PayAt.next480_apply _ _ _ p q).trans (congrArg (G0 m c (ix2 p q) + ·)
    (Finset.sum_congr rfl fun j _ => congrArg₂ (· * ·) (entX1 m c p j) (entG1 m c j q)))
theorem U1_apply (p : Fin 256) (q : Fin 2880) :
    U1 m c (ix2 p q) = U0 m c (ix2 p q) + blockSum 6 480 (tU m c p q) 1 (by decide) := by
  unfold U1
  rw [outB10_eq]
  exact (PayAt.next480'_apply _ _ _ p q).trans (congrArg (U0 m c (ix2 p q) + ·)
    (Finset.sum_congr rfl fun j _ => congrArg₂ (· * ·) (entX1 m c p j) (entU1 m c j q)))
theorem G2_apply (p : Fin 256) (q : Fin 2880) :
    G2 m c (ix2 p q) = G1 m c (ix2 p q) + blockSum 6 480 (tG m c p q) 2 (by decide) := by
  unfold G2
  rw [outC9_eq]
  exact (PayAt.next480_apply _ _ _ p q).trans (congrArg (G1 m c (ix2 p q) + ·)
    (Finset.sum_congr rfl fun j _ => congrArg₂ (· * ·) (entX2 m c p j) (entG2 m c j q)))
theorem U2_apply (p : Fin 256) (q : Fin 2880) :
    U2 m c (ix2 p q) = U1 m c (ix2 p q) + blockSum 6 480 (tU m c p q) 2 (by decide) := by
  unfold U2
  rw [outC10_eq]
  exact (PayAt.next480'_apply _ _ _ p q).trans (congrArg (U1 m c (ix2 p q) + ·)
    (Finset.sum_congr rfl fun j _ => congrArg₂ (· * ·) (entX2 m c p j) (entU2 m c j q)))
theorem G3_apply (p : Fin 256) (q : Fin 2880) :
    G3 m c (ix2 p q) = G2 m c (ix2 p q) + blockSum 6 480 (tG m c p q) 3 (by decide) := by
  unfold G3
  rw [outD9_eq]
  exact (PayAt.next480_apply _ _ _ p q).trans (congrArg (G2 m c (ix2 p q) + ·)
    (Finset.sum_congr rfl fun j _ => congrArg₂ (· * ·) (entX3 m c p j) (entG3 m c j q)))
theorem U3_apply (p : Fin 256) (q : Fin 2880) :
    U3 m c (ix2 p q) = U2 m c (ix2 p q) + blockSum 6 480 (tU m c p q) 3 (by decide) := by
  unfold U3
  rw [outD10_eq]
  exact (PayAt.next480'_apply _ _ _ p q).trans (congrArg (U2 m c (ix2 p q) + ·)
    (Finset.sum_congr rfl fun j _ => congrArg₂ (· * ·) (entX3 m c p j) (entU3 m c j q)))
theorem G4_apply (p : Fin 256) (q : Fin 2880) :
    G4 m c (ix2 p q) = G3 m c (ix2 p q) + blockSum 6 480 (tG m c p q) 4 (by decide) := by
  unfold G4
  rw [outE9_eq]
  exact (PayAt.next480_apply _ _ _ p q).trans (congrArg (G3 m c (ix2 p q) + ·)
    (Finset.sum_congr rfl fun j _ => congrArg₂ (· * ·) (entX4 m c p j) (entG4 m c j q)))
theorem U4_apply (p : Fin 256) (q : Fin 2880) :
    U4 m c (ix2 p q) = U3 m c (ix2 p q) + blockSum 6 480 (tU m c p q) 4 (by decide) := by
  unfold U4
  rw [outE10_eq]
  exact (PayAt.next480'_apply _ _ _ p q).trans (congrArg (U3 m c (ix2 p q) + ·)
    (Finset.sum_congr rfl fun j _ => congrArg₂ (· * ·) (entX4 m c p j) (entU4 m c j q)))
theorem G5_apply (p : Fin 256) (q : Fin 2880) :
    G5 m c (ix2 p q) = G4 m c (ix2 p q) + blockSum 6 480 (tG m c p q) 5 (by decide) := by
  unfold G5
  rw [outF9_eq]
  exact (PayAt.next480_apply _ _ _ p q).trans (congrArg (G4 m c (ix2 p q) + ·)
    (Finset.sum_congr rfl fun j _ => congrArg₂ (· * ·) (entX5 m c p j) (entG5 m c j q)))
theorem U5_apply (p : Fin 256) (q : Fin 2880) :
    U5 m c (ix2 p q) = U4 m c (ix2 p q) + blockSum 6 480 (tU m c p q) 5 (by decide) := by
  unfold U5
  rw [outF10_eq]
  exact (PayAt.next480'_apply _ _ _ p q).trans (congrArg (U4 m c (ix2 p q) + ·)
    (Finset.sum_congr rfl fun j _ => congrArg₂ (· * ·) (entX5 m c p j) (entU5 m c j q)))

/-- After point 5 the gate accumulator holds the whole contraction, -/
theorem G5_total (p : Fin 256) (q : Fin 2880) : G5 m c (ix2 p q) = ∑ k : Fin 2880, aX m c (ix2 p k) * aWg m c (ix2 k q) := by
  rw [G5_apply, G4_apply, G3_apply, G2_apply, G1_apply, G0_apply]
  exact (sum_six_blocks (tG m c p q)).symm
/-- and so does the up accumulator. -/
theorem U5_total (p : Fin 256) (q : Fin 2880) : U5 m c (ix2 p q) = ∑ k : Fin 2880, aX m c (ix2 p k) * aWu m c (ix2 k q) := by
  rw [U5_apply, U4_apply, U3_apply, U2_apply, U1_apply, U0_apply]
  exact (sum_six_blocks (tU m c p q)).symm

/-! ## The gated activation -/

theorem Hact_apply (p : Fin 256) (k : Fin 2880) :
    H5 m c (ix2 p k) = hid (aX m c) (aWg m c) (aBg m c) (aWu m c) (aBu m c) p k := by
  have eG : G5 m c = k0_pay3 (View.ld (iblk m c 0 t0_5) (Rect.unit (s := S256x2880) ![0, 2400] ![256, 480] inb_S256x2880_S256x480_0_2400)) (iblk m c 1 t0_5) (G4 m c) := by
    unfold G5; exact outF9_eq ..
  have eU : U5 m c = k0_pay4 (View.ld (iblk m c 0 t0_5) (Rect.unit (s := S256x2880) ![0, 2400] ![256, 480] inb_S256x2880_S256x480_0_2400)) (iblk m c 2 t0_5) (U4 m c) := by
    unfold U5; exact outF10_eq ..
  unfold H5
  rw [outF11_eq]
  refine (PayAt.act_apply _ _ _ _ p k).trans ?_
  unfold hid lin
  exact congrArg₂ act
    (congrArg₂ (· + ·) ((congrFun eG.symm (ix2 p k)).trans (G5_total m c p k)) (blk3_apply m c t0_5 _))
    (congrArg₂ (· + ·) ((congrFun eU.symm (ix2 p k)).trans (U5_total m c p k)) (blk4_apply m c t0_5 _))

/-! ## What the steps of the second phase load, entry by entry -/

/-- Point 6: the gated activation's column slab, and the down weight slab. -/
theorem entH0 (p : Fin 256) (i : Fin 576) :
    View.ld (H5 m c) (Rect.unit (s := S256x2880) ![0, 0] ![256, 576] inb_S256x2880_S256x576_0_0) (ix2 p i) = hid (aX m c) (aWg m c) (aBg m c) (aWu m c) (aBu m c) p ⟨576 * 0 + i.val, by omega⟩ :=
  (slab_apply (H5 m c) 0 576 inb_S256x2880_S256x576_0_0 p i (by omega)).trans (Hact_apply m c p _)
theorem entD0 (i : Fin 576) (q : Fin 2880) :
    iblk m c 5 t0_6 (ix2 i q) = aWd m c (ix2 ⟨576 * 0 + i.val, by omega⟩ q) :=
  blk5_apply m c t0_6 0 ((idx_facts t0_6).2.2.2.2.2.2.2.2.2.2.1.trans (by decide)) (by decide) i q
/-- Point 7: the gated activation's column slab, and the down weight slab. -/
theorem entH1 (p : Fin 256) (i : Fin 576) :
    View.ld (H5 m c) (Rect.unit (s := S256x2880) ![0, 576] ![256, 576] inb_S256x2880_S256x576_0_576) (ix2 p i) = hid (aX m c) (aWg m c) (aBg m c) (aWu m c) (aBu m c) p ⟨576 * 1 + i.val, by omega⟩ :=
  (slab_apply (H5 m c) 576 576 inb_S256x2880_S256x576_0_576 p i (by omega)).trans (Hact_apply m c p _)
theorem entD1 (i : Fin 576) (q : Fin 2880) :
    iblk m c 5 t0_7 (ix2 i q) = aWd m c (ix2 ⟨576 * 1 + i.val, by omega⟩ q) :=
  blk5_apply m c t0_7 1 ((idx_facts t0_7).2.2.2.2.2.2.2.2.2.2.1.trans (by decide)) (by decide) i q
/-- Point 8: the gated activation's column slab, and the down weight slab. -/
theorem entH2 (p : Fin 256) (i : Fin 576) :
    View.ld (H5 m c) (Rect.unit (s := S256x2880) ![0, 1152] ![256, 576] inb_S256x2880_S256x576_0_1152) (ix2 p i) = hid (aX m c) (aWg m c) (aBg m c) (aWu m c) (aBu m c) p ⟨576 * 2 + i.val, by omega⟩ :=
  (slab_apply (H5 m c) 1152 576 inb_S256x2880_S256x576_0_1152 p i (by omega)).trans (Hact_apply m c p _)
theorem entD2 (i : Fin 576) (q : Fin 2880) :
    iblk m c 5 t0_8 (ix2 i q) = aWd m c (ix2 ⟨576 * 2 + i.val, by omega⟩ q) :=
  blk5_apply m c t0_8 2 ((idx_facts t0_8).2.2.2.2.2.2.2.2.2.2.1.trans (by decide)) (by decide) i q
/-- Point 9: the gated activation's column slab, and the down weight slab. -/
theorem entH3 (p : Fin 256) (i : Fin 576) :
    View.ld (H5 m c) (Rect.unit (s := S256x2880) ![0, 1728] ![256, 576] inb_S256x2880_S256x576_0_1728) (ix2 p i) = hid (aX m c) (aWg m c) (aBg m c) (aWu m c) (aBu m c) p ⟨576 * 3 + i.val, by omega⟩ :=
  (slab_apply (H5 m c) 1728 576 inb_S256x2880_S256x576_0_1728 p i (by omega)).trans (Hact_apply m c p _)
theorem entD3 (i : Fin 576) (q : Fin 2880) :
    iblk m c 5 t0_9 (ix2 i q) = aWd m c (ix2 ⟨576 * 3 + i.val, by omega⟩ q) :=
  blk5_apply m c t0_9 3 ((idx_facts t0_9).2.2.2.2.2.2.2.2.2.2.1.trans (by decide)) (by decide) i q
/-- Point 10: the gated activation's column slab, and the down weight slab. -/
theorem entH4 (p : Fin 256) (i : Fin 576) :
    View.ld (H5 m c) (Rect.unit (s := S256x2880) ![0, 2304] ![256, 576] inb_S256x2880_S256x576_0_2304) (ix2 p i) = hid (aX m c) (aWg m c) (aBg m c) (aWu m c) (aBu m c) p ⟨576 * 4 + i.val, by omega⟩ :=
  (slab_apply (H5 m c) 2304 576 inb_S256x2880_S256x576_0_2304 p i (by omega)).trans (Hact_apply m c p _)
theorem entD4 (i : Fin 576) (q : Fin 2880) :
    iblk m c 5 t0_10 (ix2 i q) = aWd m c (ix2 ⟨576 * 4 + i.val, by omega⟩ q) :=
  blk5_apply m c t0_10 4 ((idx_facts t0_10).2.2.2.2.2.2.2.2.2.2.1.trans (by decide)) (by decide) i q

/-! ## The output block, point by point -/

theorem O6_apply (p : Fin 256) (q : Fin 2880) :
    O6 m c (ix2 p q) = blockSum 5 576 (tD m c p q) 0 (by decide) + aBd m c (ix2 0 q) := by
  unfold O6
  rw [outG8_eq]
  exact (PayAt.first576_apply _ _ _ p q).trans (congrArg₂ (· + ·)
    (Finset.sum_congr rfl fun i _ => congrArg₂ (· * ·) (entH0 m c p i) (entD0 m c i q)) (blk6_apply m c t0_6 _))
theorem O7_apply (p : Fin 256) (q : Fin 2880) :
    O7 m c (ix2 p q) = O6 m c (ix2 p q) + blockSum 5 576 (tD m c p q) 1 (by decide) := by
  unfold O7
  rw [outH8_eq]
  exact (PayAt.next576_apply _ _ _ p q).trans (congrArg (O6 m c (ix2 p q) + ·)
    (Finset.sum_congr rfl fun i _ => congrArg₂ (· * ·) (entH1 m c p i) (entD1 m c i q)))
theorem O8_apply (p : Fin 256) (q : Fin 2880) :
    O8 m c (ix2 p q) = O7 m c (ix2 p q) + blockSum 5 576 (tD m c p q) 2 (by decide) := by
  unfold O8
  rw [outI8_eq]
  exact (PayAt.next576_apply _ _ _ p q).trans (congrArg (O7 m c (ix2 p q) + ·)
    (Finset.sum_congr rfl fun i _ => congrArg₂ (· * ·) (entH2 m c p i) (entD2 m c i q)))
theorem O9_apply (p : Fin 256) (q : Fin 2880) :
    O9 m c (ix2 p q) = O8 m c (ix2 p q) + blockSum 5 576 (tD m c p q) 3 (by decide) := by
  unfold O9
  rw [outJ8_eq]
  exact (PayAt.next576_apply _ _ _ p q).trans (congrArg (O8 m c (ix2 p q) + ·)
    (Finset.sum_congr rfl fun i _ => congrArg₂ (· * ·) (entH3 m c p i) (entD3 m c i q)))
theorem O10_apply (p : Fin 256) (q : Fin 2880) :
    O10 m c (ix2 p q) = O9 m c (ix2 p q) + blockSum 5 576 (tD m c p q) 4 (by decide) := by
  unfold O10
  rw [outK8_eq]
  exact (PayAt.next576_apply _ _ _ p q).trans (congrArg (O9 m c (ix2 p q) + ·)
    (Finset.sum_congr rfl fun i _ => congrArg₂ (· * ·) (entH4 m c p i) (entD4 m c i q)))

/-- After the last point the output block holds the specification's result. -/
theorem O10_total (p : Fin 256) (q : Fin 2880) :
    O10 m c (ix2 p q) = out (aX m c) (aWg m c) (aBg m c) (aWu m c) (aBu m c) (aWd m c) (aBd m c) p q := by
  rw [O10_apply, O9_apply, O8_apply, O7_apply, O6_apply]
  exact (sum_five_blocks_bias (tD m c p q) (aBd m c (ix2 0 q))).symm

theorem O10_eq_G : O10 m c = G (aX m c) (aWg m c) (aBg m c) (aWu m c) (aBu m c) (aWd m c) (aBd m c) := by
  funext i
  obtain ⟨p, q, rfl⟩ : ∃ (p : Fin 256) (q : Fin 2880), i = ix2 p q := ⟨i 0, i 1, eq_ix2 i⟩
  exact O10_total m c p q

end Cert.KernelIdeal.KValue

end
-- ==== Proof.BodyKI.Final.lean ====
/-
  The result array after the run.

  The output window's block is the whole result array and is written back once, after the last point; so the array
  ends holding what the last step left in the window's buffer: the specification's result.
-/
import proofs.«128237_g74105365725337_cont_9to1c4b_446_16_alg».proof.Proof.BodyKI.Chain

set_option maxRecDepth 16384

noncomputable section

namespace Cert.KernelIdeal.KValue

open Cert.KernelIdeal Cert.KernelIdeal.Gen Cert.KernelIdeal.Body
open Idealize.ShloMosaic Idealize.ShloMosaic.TcCoe Idealize.ShloMosaic.ValueIdx Idealize.SL.Sem Cert.MlpSpec
open Idealize.ShloMosaic.Pipeline (Dat)

variable (m : (ℓ : Loc nD τ sig) → Buf (Elt Ideal) ℓ) (ρ : Dev nD → PrngReg)

/-- What the last step leaves in the output window's buffer, as contents of the result array. -/
abbrev result (c : Dev nD) : Buf (Elt Ideal) ((c : Thread nD τ).loc main_v0) := O10 m c

/-- The one write-back, at the last point, writes it: block (0, 0) of the array read at zero offsets is the array. -/
theorem flushed_eq (c : Dev nD) (t : Fin cfg0.N) (hf : (cfg0.win 7).flush t = true) :
    (dats m 0 c).flushed 7 t = ((cfg0.win 7).blk t).view.read (Elt Ideal) (result m c) := by
  have h10 : t.val = 10 := by
    by_contra h
    rw [flush_ne t h] at hf
    exact Bool.false_ne_true hf
  obtain rfl : t = t0_10 := Fin.ext h10
  show (cfg0.win 7).cut (grid0.coords t0_10) ((dats m 0 c).after 7 t0_10) = _
  rw [after7, show (t0_10 : Fin cfg0.N).val = 10 from rfl, outAt_10]
  have hz' : (fun a => win0_7.index t0_10 a * main_v0.ty.shape.size a) = fun _ => 0 := funext fun a => by fin_cases a <;> decide
  exact (Memref.read_access_unit_zero (Elt Ideal) main_v0 hz' (fun a => by rw [congrFun hz' a]; simp) (result m c)).symm

/-- So the result array ends holding it: the last point's block covers the array. -/
theorem final_o (c : Dev nD) : (dats m 0 c).arrAt 7 cfg0.N = result m c :=
  (dats m 0 c).arrAt_eq_of_cover 7 (result m c) (flushed_eq m c) fun i =>
    ⟨t0_10, flush_last t0_10 rfl, by
      show i ∈ ((View.whole main_v0).slice (win0_7.rect t0_10)).set
      rw [View.set_slice_whole, Rect.mem_set_unit]
      intro a
      have h0 : (i 0 : Nat) < 256 := (i 0).isLt
      have h1 : (i 1 : Nat) < 2880 := (i 1).isLt
      match a with
      | ⟨0, _⟩ => show win0_7.index t0_10 0 * win0_7.size 0 ≤ (i 0 : Nat) ∧ (i 0 : Nat) < win0_7.index t0_10 0 * win0_7.size 0 + win0_7.xsize (grid0.coords t0_10) 0
                  rw [show win0_7.index t0_10 0 * win0_7.size 0 = 0 from by decide +kernel, show win0_7.xsize (grid0.coords t0_10) 0 = 256 from by decide +kernel]; omega
      | ⟨1, _⟩ => show win0_7.index t0_10 1 * win0_7.size 1 ≤ (i 1 : Nat) ∧ (i 1 : Nat) < win0_7.index t0_10 1 * win0_7.size 1 + win0_7.xsize (grid0.coords t0_10) 1
                  rw [show win0_7.index t0_10 1 * win0_7.size 1 = 0 from by decide +kernel, show win0_7.xsize (grid0.coords t0_10) 1 = 2880 from by decide +kernel]; omega⟩

/-- The run, read: the result array at the specification of the argument arrays, the arguments unchanged. -/
theorem run : θ_run defs (onTc (τ := τ) (main (F := Ideal))) ⟨m, fun _ => 0, ρ⟩ fun r => ∀ c : Dev nD,
      r.2.mem ((c.tc : Thread nD τ).loc main_v0) = G (aX m c) (aWg m c) (aBg m c) (aWu m c) (aBu m c) (aWd m c) (aBd m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(((h c).1 7).trans (final_o m c)).trans (O10_eq_G m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 3).trans (((dats m 0 c).arrAt_in 3 rfl _).trans ((A_eq m c 3).trans (V_main_arg2 m c))),
      ((h c).1 2).trans (((dats m 0 c).arrAt_in 2 rfl _).trans ((A_eq m c 2).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.KernelIdeal.KValue

end
-- ==== Proof.RefIsSpec.lean ====
/-
  The reference computes the specification: read entry by entry, the host program's result is the gated MLP of
  the argument arrays — each whole contraction the sum over its 2880 indices, each scalar broadcast its scalar, each
  bias row read at the entry's column.
-/
import proofs.«128237_g74105365725337_cont_9to1c4b_446_16_alg».proof.Proof.Gen.ReferenceIdeal.Read
import proofs.«128237_g74105365725337_cont_9to1c4b_446_16_alg».proof.Proof.Spec

noncomputable section

namespace Cert.RefValue

open Cert.ReferenceIdeal Cert.ReferenceIdeal.Read Idealize.ShloMosaic Idealize.ShloMosaic.ValueIdx Cert.MlpSpec

variable (x0 : SX.Idx → EReal) (x1 : SW.Idx → EReal) (x2 : SB.Idx → EReal) (x3 : SW.Idx → EReal) (x4 : SB.Idx → EReal)
  (x5 : SW.Idx → EReal) (x6 : SB.Idx → EReal)

/-! A contraction at entry (p, q) reads its left operand at (p, k) and its right operand at (k, q); a bias row is read
    at (0, q). -/
theorem lidx_main_v0_eq (p : Fin 256) (q k : Fin 2880) : lidx_main_v0 (ix2 p q) k = ix2 p k :=
  funext fun a => Fin.ext (by match a with | ⟨0, _⟩ => rfl | ⟨1, _⟩ => rfl)
theorem ridx_main_v0_eq (p : Fin 256) (q k : Fin 2880) : ridx_main_v0 (ix2 p q) k = ix2 k q :=
  funext fun a => Fin.ext (by match a with | ⟨0, _⟩ => rfl | ⟨1, _⟩ => rfl)
theorem idx_main_v1_eq (p : Fin 256) (q : Fin 2880) : idx_main_v1 (ix2 p q) = ix2 0 q :=
  funext fun a => Fin.ext (by match a with | ⟨0, _⟩ => rfl | ⟨1, _⟩ => rfl)
theorem lidx_main_v3_eq (p : Fin 256) (q k : Fin 2880) : lidx_main_v3 (ix2 p q) k = ix2 p k :=
  funext fun a => Fin.ext (by match a with | ⟨0, _⟩ => rfl | ⟨1, _⟩ => rfl)
theorem ridx_main_v3_eq (p : Fin 256) (q k : Fin 2880) : ridx_main_v3 (ix2 p q) k = ix2 k q :=
  funext fun a => Fin.ext (by match a with | ⟨0, _⟩ => rfl | ⟨1, _⟩ => rfl)
theorem idx_main_v4_eq (p : Fin 256) (q : Fin 2880) : idx_main_v4 (ix2 p q) = ix2 0 q :=
  funext fun a => Fin.ext (by match a with | ⟨0, _⟩ => rfl | ⟨1, _⟩ => rfl)
theorem lidx_main_v20_eq (p : Fin 256) (q k : Fin 2880) : lidx_main_v20 (ix2 p q) k = ix2 p k :=
  funext fun a => Fin.ext (by match a with | ⟨0, _⟩ => rfl | ⟨1, _⟩ => rfl)
theorem ridx_main_v20_eq (p : Fin 256) (q k : Fin 2880) : ridx_main_v20 (ix2 p q) k = ix2 k q :=
  funext fun a => Fin.ext (by match a with | ⟨0, _⟩ => rfl | ⟨1, _⟩ => rfl)
theorem idx_main_v21_eq (p : Fin 256) (q : Fin 2880) : idx_main_v21 (ix2 p q) = ix2 0 q :=
  funext fun a => Fin.ext (by match a with | ⟨0, _⟩ => rfl | ⟨1, _⟩ => rfl)

/-- The gate projection with its bias, at an entry. -/
theorem gate_apply (p : Fin 256) (q : Fin 2880) : val_main_v2 (F := Ideal) x0 x1 x2 (ix2 p q) = lin x0 x1 x2 p q := by
  rw [val_main_v2_apply, val_main_v0_apply, val_main_v1_apply]
  simp only [lidx_main_v0_eq, ridx_main_v0_eq, idx_main_v1_eq, Ideal.addf_def]
  rfl

/-- The up projection with its bias, at an entry. -/
theorem up_apply (p : Fin 256) (q : Fin 2880) : val_main_v5 (F := Ideal) x0 x3 x4 (ix2 p q) = lin x0 x3 x4 p q := by
  rw [val_main_v5_apply, val_main_v3_apply, val_main_v4_apply]
  simp only [lidx_main_v3_eq, ridx_main_v3_eq, idx_main_v4_eq, Ideal.addf_def]
  rfl

/-- The gated activation, at an entry. -/
theorem hid_apply (p : Fin 256) (k : Fin 2880) : val_main_v19 (F := Ideal) x0 x1 x2 x3 x4 (ix2 p k) = hid x0 x1 x2 x3 x4 p k := by
  rw [val_main_v19_apply, val_main_v16_apply, val_main_v18_apply, val_main_v15_apply, val_main_v13_apply, val_main_v11_apply,
    val_main_v10_apply, val_main_v8_apply, val_main_v6_apply, val_main_call0_v2_apply]
  rw [gate_apply, up_apply]
  simp only [val_main_v7_apply, val_main_cst_1_apply, val_main_v9_apply, val_main_cst_2_apply, val_main_v12_apply, val_main_cst_3_apply,
    val_main_v14_apply, val_main_cst_4_apply, val_main_v17_apply, val_main_cst_5_apply, val_main_call0_v4_apply, val_main_call0_v3_apply,
    val_main_cst_0_apply, val_main_call0_v1_apply, val_main_call0_v0_apply, val_main_cst_apply,
    Ideal.addf_def, Ideal.mulf_def, Ideal.minimumf_def, Ideal.maximumf_def, Ideal.hostDivf_def, Ideal.hostUnary_exp_def, Ideal.ofBits_def]
  rfl

/-- The reference's result is the specification. -/
theorem ref_is_G : val_main_v22 (F := Ideal) x0 x1 x2 x3 x4 x5 x6 = G x0 x1 x2 x3 x4 x5 x6 := by
  funext i
  obtain ⟨p, q, rfl⟩ : ∃ (p : Fin 256) (q : Fin 2880), i = ix2 p q := ⟨i 0, i 1, eq_ix2 i⟩
  rw [val_main_v22_apply, val_main_v20_apply, val_main_v21_apply]
  simp only [lidx_main_v20_eq, ridx_main_v20_eq, idx_main_v21_eq, hid_apply, Ideal.addf_def]
  rfl

end Cert.RefValue

end
-- ==== Proof.lean ====
/-
  A fused gated MLP against its plain reference.

  The kernel computes, over an eleven-point grid, out = h · Wd + bd with h the clipped, gated activation of
  x · Wg + bg and x · Wu + bu, taking each of the three contractions slab by slab and keeping the partial sums in
  scratch and in the output block; the reference takes each contraction whole. At the exact reading of floats the two
  results are the same function of the argument arrays: a sum over 2880 indices is the sum of its consecutive blocks'
  partial sums added in order, and the bias joined to the first block may as well be added last — associativity and
  commutativity of addition on the extended reals, which hold at the infinities too, so the finiteness of the inputs is
  never used.

  The three frames: each program terminates without a fault and leaves its argument arrays unchanged — for the kernel at
  both instances from the body's run point by point, for the reference from its straight-line run. The ideal pass rewrote
  nothing, so the kernel's idealization is its own text.
-/
import proofs.«128237_g74105365725337_cont_9to1c4b_446_16_alg».proof.Defs
import proofs.«128237_g74105365725337_cont_9to1c4b_446_16_alg».proof.Proof.Gen.Kernel
import proofs.«128237_g74105365725337_cont_9to1c4b_446_16_alg».proof.Proof.Gen.KernelIdeal
import proofs.«128237_g74105365725337_cont_9to1c4b_446_16_alg».proof.Proof.Gen.ReferenceIdeal
import proofs.«128237_g74105365725337_cont_9to1c4b_446_16_alg».proof.Proof.Gen.Pre_finite_inputs
import proofs.«128237_g74105365725337_cont_9to1c4b_446_16_alg».proof.Proof.Gen.ReferenceIdeal.Run
import proofs.«128237_g74105365725337_cont_9to1c4b_446_16_alg».proof.Proof.Gen.ReferenceIdeal.Read
import proofs.«128237_g74105365725337_cont_9to1c4b_446_16_alg».proof.Proof.BodyK.Data
import proofs.«128237_g74105365725337_cont_9to1c4b_446_16_alg».proof.Proof.BodyKI.Final
import proofs.«128237_g74105365725337_cont_9to1c4b_446_16_alg».proof.Proof.RefIsSpec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Body.frame m ρ
theorem frame_ki : Cert.frame_KernelIdeal := fun m ρ _ => Cert.KernelIdeal.Body.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the result array at the specification of arguments that agree. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1, (hagree c).2.2.2.2.2.2]
  exact (Cert.ReferenceIdeal.Read.val_main_v22_eq _ _ _ _ _ _ _).trans (Cert.RefValue.ref_is_G _ _ _ _ _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
